-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x64 : Shape := ⟨2, ![20000, 64]⟩
abbrev S320000x32 : Shape := ⟨2, ![320000, 32]⟩
abbrev S16x16 : Shape := ⟨2, ![16, 16]⟩
abbrev S256x32 : Shape := ⟨2, ![256, 32]⟩
abbrev S256 : Shape := ⟨1, ![256]⟩
abbrev S256x64 : Shape := ⟨2, ![256, 64]⟩
abbrev S256x256 : Shape := ⟨2, ![256, 256]⟩
abbrev S128x256 : Shape := ⟨2, ![128, 256]⟩
abbrev S128x16 : Shape := ⟨2, ![128, 16]⟩
abbrev S128 : Shape := ⟨1, ![128]⟩
abbrev S128x128 : Shape := ⟨2, ![128, 128]⟩
abbrev S320000 : Shape := ⟨1, ![320000]⟩
abbrev S20000 : Shape := ⟨1, ![20000]⟩
abbrev S_ : Shape := ⟨0, ![]⟩

class Facts : Prop where
  bcast_S_S20000x64 : S_.BroadcastsInDim S20000x64 (![] : Fin 0 → Fin S20000x64.rank)
  reducesTo_S20000x64_S_d0_1 : S20000x64.ReducesTo [0, 1] S_
  h_S_ : 0 < S_.numel
  bcast_S_S320000x32 : S_.BroadcastsInDim S320000x32 (![] : Fin 0 → Fin S320000x32.rank)
  reducesTo_S320000x32_S_d0_1 : S320000x32.ReducesTo [0, 1] S_
  bcast_S_S16x16 : S_.BroadcastsInDim S16x16 (![] : Fin 0 → Fin S16x16.rank)
  reducesTo_S16x16_S_d0_1 : S16x16.ReducesTo [0, 1] S_
  bcast_S_S256x32 : S_.BroadcastsInDim S256x32 (![] : Fin 0 → Fin S256x32.rank)
  reducesTo_S256x32_S_d0_1 : S256x32.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_
  bcast_S_S128x16 : S_.BroadcastsInDim S128x16 (![] : Fin 0 → Fin S128x16.rank)
  reducesTo_S128x16_S_d0_1 : S128x16.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S320000 : S_.BroadcastsInDim S320000 (![] : Fin 0 → Fin S320000.rank)
  reducesTo_S320000_S_d0 : S320000.ReducesTo [0] S_

variable [Facts]

def fn_part5 {F : FTy → Type} [FloatOps F] (main_arg18 : FVec F S128 .f32) (main_arg19 : IVec S320000 32) (main_v83 : IVec S_ 1) (main_v84 : FVec F S128x16 .f32) (main_cst_32 : FVec F S_ .f32) : IVec S_ 1 :=
  let main_v85 : FVec F S128x16 .f32 := broadcastInDim S128x16 ![] bcast_S_S128x16 main_cst_32
  let main_v86 : IVec S128x16 1 := cmpf .olt main_v84 main_v85
  let main_c_33 : IVec S_ 1 := constantI S_ 1 1#1
  let main_v87 : IVec S_ 1 := (fun x v => Host.reduce IntOp.andi x v reducesTo_S128x16_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_c_36 : IVec S_ 32 := constantI S_ 32 0#32
  let main_v94 : IVec S320000 32 := broadcastInDim S320000 ![] bcast_S_S320000 main_c_36
  let main_v95 : IVec S320000 1 := cmpi .sge main_arg19 main_v94
  let main_c_37 : IVec S_ 32 := constantI S_ 32 20000#32
  let main_v96 : IVec S320000 32 := broadcastInDim S320000 ![] bcast_S_S320000 main_c_37
  let main_v97 : IVec S320000 1 := cmpi .slt main_arg19 main_v96
  let main_v98 : IVec S320000 1 := andi main_v95 main_v97
  let main_c_38 : IVec S_ 1 := constantI S_ 1 1#1
  let main_v99 : IVec S_ 1 := (fun x v => Host.reduce IntOp.andi x v reducesTo_S320000_S_d0 h_S_) main_v98 main_c_38
  let main_v100 : IVec S_ 1 := andi main_v93 main_v99
  main_v100

def fn_part4 {F : FTy → Type} [FloatOps F] (main_arg14 : FVec F S128 .f32) (main_arg15 : FVec F S128x128 .f32) (main_arg16 : FVec F S128x128 .f32) (main_arg17 : FVec F S128x16 .f32) (main_arg18 : FVec F S128 .f32) (main_arg19 : IVec S320000 32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128x16 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S128x256 .f32) (main_arg12 : FVec F S128x128 .f32) (main_arg13 : FVec F S128x16 .f32) (main_arg14 : FVec F S128 .f32) (main_arg15 : FVec F S128x128 .f32) (main_arg16 : FVec F S128x128 .f32) (main_arg17 : FVec F S128x16 .f32) (main_arg18 : FVec F S128 .f32) (main_arg19 : IVec S320000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x256 .f32 := Host.absf main_arg11
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x16 .f32 := Host.absf main_arg13
  let main_cst_24 : FVec F S_ .f32 := constant S_ .f32 0x7F800000#32
  let main_v65 : FVec F S128x16 .f32 := broadcastInDim S128x16 ![] bcast_S_S128x16 main_cst_24
  let main_v66 : IVec S128x16 1 := cmpf .olt main_v64 main_v65
  let main_c_25 : IVec S_ 1 := constantI S_ 1 1#1
  let main_v67 : IVec S_ 1 := (fun x v => Host.reduce IntOp.andi x v reducesTo_S128x16_S_d0_1 h_S_) main_v66 main_c_25
  fn_part4 (F := F) main_arg14 main_arg15 main_arg16 main_arg17 main_arg18 main_arg19 main_v63 main_v67

def fn_part2 {F : FTy → Type} [FloatOps F] (main_arg7 : FVec F S256 .f32) (main_arg8 : FVec F S128x256 .f32) (main_arg9 : FVec F S128x16 .f32) (main_arg10 : FVec F S128 .f32) (main_arg11 : FVec F S128x256 .f32) (main_arg12 : FVec F S128x128 .f32) (main_arg13 : FVec F S128x16 .f32) (main_arg14 : FVec F S128 .f32) (main_arg15 : FVec F S128x128 .f32) (main_arg16 : FVec F S128x128 .f32) (main_arg17 : FVec F S128x16 .f32) (main_arg18 : FVec F S128 .f32) (main_arg19 : IVec S320000 32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S128x256 .f32 := Host.absf main_arg8
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128x16 .f32 := Host.absf main_arg9
  let main_cst_16 : FVec F S_ .f32 := constant S_ .f32 0x7F800000#32
  let main_v45 : FVec F S128x16 .f32 := broadcastInDim S128x16 ![] bcast_S_S128x16 main_cst_16
  let main_v46 : IVec S128x16 1 := cmpf .olt main_v44 main_v45
  let main_c_17 : IVec S_ 1 := constantI S_ 1 1#1
  let main_v47 : IVec S_ 1 := (fun x v => Host.reduce IntOp.andi x v reducesTo_S128x16_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S256 .f32) (main_arg5 : FVec F S256x64 .f32) (main_arg6 : FVec F S256x256 .f32) (main_arg7 : FVec F S256 .f32) (main_arg8 : FVec F S128x256 .f32) (main_arg9 : FVec F S128x16 .f32) (main_arg10 : FVec F S128 .f32) (main_arg11 : FVec F S128x256 .f32) (main_arg12 : FVec F S128x128 .f32) (main_arg13 : FVec F S128x16 .f32) (main_arg14 : FVec F S128 .f32) (main_arg15 : FVec F S128x128 .f32) (main_arg16 : FVec F S128x128 .f32) (main_arg17 : FVec F S128x16 .f32) (main_arg18 : FVec F S128 .f32) (main_arg19 : IVec S320000 32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg5
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S20000x64 .f32) (main_arg1 : FVec F S320000x32 .f32) (main_arg2 : FVec F S16x16 .f32) (main_arg3 : FVec F S256x32 .f32) (main_arg4 : FVec F S256 .f32) (main_arg5 : FVec F S256x64 .f32) (main_arg6 : FVec F S256x256 .f32) (main_arg7 : FVec F S256 .f32) (main_arg8 : FVec F S128x256 .f32) (main_arg9 : FVec F S128x16 .f32) (main_arg10 : FVec F S128 .f32) (main_arg11 : FVec F S128x256 .f32) (main_arg12 : FVec F S128x128 .f32) (main_arg13 : FVec F S128x16 .f32) (main_arg14 : FVec F S128 .f32) (main_arg15 : FVec F S128x128 .f32) (main_arg16 : FVec F S128x128 .f32) (main_arg17 : FVec F S128x16 .f32) (main_arg18 : FVec F S128 .f32) (main_arg19 : IVec S320000 32) (main_arg20 : IVec S20000 32) : IVec S_ 1 :=
  let main_v0 : FVec F S20000x64 .f32 := Host.absf main_arg0
  let main_cst : FVec F S_ .f32 := constant S_ .f32 0x7F800000#32
  let main_v1 : FVec F S20000x64 .f32 := broadcastInDim S20000x64 ![] bcast_S_S20000x64 main_cst
  let main_v2 : IVec S20000x64 1 := cmpf .olt main_v0 main_v1
  let main_c : IVec S_ 1 := constantI S_ 1 1#1
  let main_v3 : IVec S_ 1 := (fun x v => Host.reduce IntOp.andi x v reducesTo_S20000x64_S_d0_1 h_S_) main_v2 main_c
  let main_v4 : FVec F S320000x32 .f32 := Host.absf main_arg1
  let main_cst_0 : FVec F S_ .f32 := constant S_ .f32 0x7F800000#32
  let main_v5 : FVec F S320000x32 .f32 := broadcastInDim S320000x32 ![] bcast_S_S320000x32 main_cst_0
  let main_v6 : IVec S320000x32 1 := cmpf .olt main_v4 main_v5
  let main_c_1 : IVec S_ 1 := constantI S_ 1 1#1
  let main_v7 : IVec S_ 1 := (fun x v => Host.reduce IntOp.andi x v reducesTo_S320000x32_S_d0_1 h_S_) main_v6 main_c_1
  let main_v8 : IVec S_ 1 := andi main_v3 main_v7
  let main_v9 : FVec F S16x16 .f32 := Host.absf main_arg2
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  let main_v14 : FVec F S256x32 .f32 := Host.absf main_arg3
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S20000x64 : Shape := ⟨2, ![20000, 64]⟩
abbrev S320000x32 : Shape := ⟨2, ![320000, 32]⟩
abbrev S16x16 : Shape := ⟨2, ![16, 16]⟩
abbrev S256x32 : Shape := ⟨2, ![256, 32]⟩
abbrev S256 : Shape := ⟨1, ![256]⟩
abbrev S256x64 : Shape := ⟨2, ![256, 64]⟩
abbrev S256x256 : Shape := ⟨2, ![256, 256]⟩
abbrev S128x256 : Shape := ⟨2, ![128, 256]⟩
abbrev S128x16 : Shape := ⟨2, ![128, 16]⟩
abbrev S128 : Shape := ⟨1, ![128]⟩
abbrev S128x128 : Shape := ⟨2, ![128, 128]⟩
abbrev S320000 : Shape := ⟨1, ![320000]⟩
abbrev S20000 : Shape := ⟨1, ![20000]⟩
abbrev S_ : Shape := ⟨0, ![]⟩
abbrev S320000x1 : Shape := ⟨2, ![320000, 1]⟩
abbrev S320000x16 : Shape := ⟨2, ![320000, 16]⟩
abbrev S320000x256 : Shape := ⟨2, ![320000, 256]⟩
abbrev S320000x128 : Shape := ⟨2, ![320000, 128]⟩
abbrev S10000x32 : Shape := ⟨2, ![10000, 32]⟩
abbrev S10000x16 : Shape := ⟨2, ![10000, 16]⟩
abbrev S10000x256 : Shape := ⟨2, ![10000, 256]⟩
abbrev S10000x128 : Shape := ⟨2, ![10000, 128]⟩
abbrev S32x256 : Shape := ⟨2, ![32, 256]⟩
abbrev S1x256 : Shape := ⟨2, ![1, 256]⟩
abbrev S256x128 : Shape := ⟨2, ![256, 128]⟩
abbrev S16x128 : Shape := ⟨2, ![16, 128]⟩
abbrev S1x128 : Shape := ⟨2, ![1, 128]⟩
abbrev S20000x1 : Shape := ⟨2, ![20000, 1]⟩
abbrev S20000x256 : Shape := ⟨2, ![20000, 256]⟩
abbrev S20000x128 : Shape := ⟨2, ![20000, 128]⟩
abbrev S20000x16 : Shape := ⟨2, ![20000, 16]⟩
abbrev S4000x64 : Shape := ⟨2, ![4000, 64]⟩
abbrev S4000x256 : Shape := ⟨2, ![4000, 256]⟩
abbrev S4000x128 : Shape := ⟨2, ![4000, 128]⟩
abbrev S4000x16 : Shape := ⟨2, ![4000, 16]⟩
abbrev S64x256 : Shape := ⟨2, ![64, 256]⟩
abbrev S16x1 : Shape := ⟨2, ![16, 1]⟩

abbrev nBuf : Space → Nat
  | .hbm => 113
  | .vmem => 30
  | .smem => 0
  | _ => 0

abbrev bufTy : (tb : Table) → Fin (tcTables nBuf tb) → BufTy
  | .hbm, ⟨0, _⟩ => ⟨S20000x64, .f32⟩
  | .hbm, ⟨1, _⟩ => ⟨S320000x32, .f32⟩
  | .hbm, ⟨2, _⟩ => ⟨S16x16, .f32⟩
  | .hbm, ⟨3, _⟩ => ⟨S256x32, .f32⟩
  | .hbm, ⟨4, _⟩ => ⟨S256, .f32⟩
  | .hbm, ⟨5, _⟩ => ⟨S256x64, .f32⟩
  | .hbm, ⟨6, _⟩ => ⟨S256x256, .f32⟩
  | .hbm, ⟨7, _⟩ => ⟨S256, .f32⟩
  | .hbm, ⟨8, _⟩ => ⟨S128x256, .f32⟩
  | .hbm, ⟨9, _⟩ => ⟨S128x16, .f32⟩
  | .hbm, ⟨10, _⟩ => ⟨S128, .f32⟩
  | .hbm, ⟨11, _⟩ => ⟨S128x256, .f32⟩
  | .hbm, ⟨12, _⟩ => ⟨S128x128, .f32⟩
  | .hbm, ⟨13, _⟩ => ⟨S128x16, .f32⟩
  | .hbm, ⟨14, _⟩ => ⟨S128, .f32⟩
  | .hbm, ⟨15, _⟩ => ⟨S128x128, .f32⟩
  | .hbm, ⟨16, _⟩ => ⟨S128x128, .f32⟩
  | .hbm, ⟨17, _⟩ => ⟨S128x16, .f32⟩
  | .hbm, ⟨18, _⟩ => ⟨S128, .f32⟩
  | .hbm, ⟨19, _⟩ => ⟨S320000, .i32⟩
  | .hbm, ⟨20, _⟩ => ⟨S20000, .i32⟩
  | .hbm, ⟨21, _⟩ => ⟨S_, .i32⟩
  | .hbm, ⟨22, _⟩ => ⟨S320000, .i32⟩
  | .hbm, ⟨23, _⟩ => ⟨S320000, .i1⟩
  | .hbm, ⟨24, _⟩ => ⟨S_, .i32⟩
  | .hbm, ⟨25, _⟩ => ⟨S320000, .i32⟩
  | .hbm, ⟨26, _⟩ => ⟨S320000, .i32⟩
  | .hbm, ⟨27, _⟩ => ⟨S320000, .i32⟩
  | .hbm, ⟨28, _⟩ => ⟨S320000x1, .i32⟩
  | .hbm, ⟨29, _⟩ => ⟨S320000, .i32⟩
  | .hbm, ⟨30, _⟩ => ⟨S_, .i32⟩
  | .hbm, ⟨31, _⟩ => ⟨S320000, .i32⟩
  | .hbm, ⟨32, _⟩ => ⟨S320000, .i1⟩
  | .hbm, ⟨33, _⟩ => ⟨S_, .i32⟩
  | .hbm, ⟨34, _⟩ => ⟨S320000, .i32⟩
  | .hbm, ⟨35, _⟩ => ⟨S320000, .i32⟩
  | .hbm, ⟨36, _⟩ => ⟨S320000, .i32⟩
  | .hbm, ⟨37, _⟩ => ⟨S320000x1, .i32⟩
  | .hbm, ⟨38, _⟩ => ⟨S320000x16, .f32⟩
  | .hbm, ⟨39, _⟩ => ⟨S320000x256, .bf16⟩
  | .hbm, ⟨40, _⟩ => ⟨S320000x128, .bf16⟩
  | .hbm, ⟨41, _⟩ => ⟨S_, .f32⟩
  | .hbm, ⟨42, _⟩ => ⟨S320000x1, .f32⟩
  | .hbm, ⟨43, _⟩ => ⟨S_, .f32⟩
  | .hbm, ⟨44, _⟩ => ⟨S20000x1, .f32⟩
  | .hbm, ⟨45, _⟩ => ⟨S320000x1, .i32⟩
  | .hbm, ⟨46, _⟩ => ⟨S20000x1, .f32⟩
  | .hbm, ⟨47, _⟩ => ⟨S_, .f32⟩
  | .hbm, ⟨48, _⟩ => ⟨S20000x1, .f32⟩
  | .hbm, ⟨49, _⟩ => ⟨S20000x1, .f32⟩
  | .hbm, ⟨50, _⟩ => ⟨S320000x256, .f32⟩
  | .hbm, ⟨51, _⟩ => ⟨S_, .f32⟩
  | .hbm, ⟨52, _⟩ => ⟨S20000x256, .f32⟩
  | .hbm, ⟨53, _⟩ => ⟨S320000x1, .i32⟩
  | .hbm, ⟨54, _⟩ => ⟨S20000x256, .f32⟩
  | .hbm, ⟨55, _⟩ => ⟨S320000x128, .f32⟩
  | .hbm, ⟨56, _⟩ => ⟨S_, .f32⟩
  | .hbm, ⟨57, _⟩ => ⟨S20000x128, .f32⟩
  | .hbm, ⟨58, _⟩ => ⟨S320000x1, .i32⟩
  | .hbm, ⟨59, _⟩ => ⟨S20000x128, .f32⟩
  | .hbm, ⟨60, _⟩ => ⟨S20000x256, .f32⟩
  | .hbm, ⟨61, _⟩ => ⟨S20000x256, .f32⟩
  | .hbm, ⟨62, _⟩ => ⟨S20000x128, .f32⟩
  | .hbm, ⟨63, _⟩ => ⟨S20000x128, .f32⟩
  | .hbm, ⟨64, _⟩ => ⟨S_, .i32⟩
  | .hbm, ⟨65, _⟩ => ⟨S20000, .i32⟩
  | .hbm, ⟨66, _⟩ => ⟨S20000, .i1⟩
  | .hbm, ⟨67, _⟩ => ⟨S_, .i32⟩
  | .hbm, ⟨68, _⟩ => ⟨S20000, .i32⟩
  | .hbm, ⟨69, _⟩ => ⟨S20000, .i32⟩
  | .hbm, ⟨70, _⟩ => ⟨S20000, .i32⟩
  | .hbm, ⟨71, _⟩ => ⟨S20000x1, .i32⟩
  | .hbm, ⟨72, _⟩ => ⟨S20000x16, .f32⟩
  | .hbm, ⟨73, _⟩ => ⟨S20000x128, .f32⟩
  | .hbm, ⟨74, _⟩ => ⟨S_, .f32⟩
  | .hbm, ⟨75, _⟩ => ⟨S16x128, .f32⟩
  | .hbm, ⟨76, _⟩ => ⟨S20000x1, .i32⟩
  | .hbm, ⟨77, _⟩ => ⟨S16x128, .f32⟩
  | .hbm, ⟨78, _⟩ => ⟨S_, .f32⟩
  | .hbm, ⟨79, _⟩ => ⟨S20000x1, .f32⟩
  | .hbm, ⟨80, _⟩ => ⟨S_, .f32⟩
  | .hbm, ⟨81, _⟩ => ⟨S16x1, .f32⟩
  | .hbm, ⟨82, _⟩ => ⟨S20000x1, .i32⟩
  | .hbm, ⟨83, _⟩ => ⟨S16x1, .f32⟩
  | .hbm, ⟨84, _⟩ => ⟨S_, .f32⟩
  | .hbm, ⟨85, _⟩ => ⟨S16x1, .f32⟩
  | .hbm, ⟨86, _⟩ => ⟨S16x1, .f32⟩
  | .hbm, ⟨87, _⟩ => ⟨S16x128, .f32⟩
  | .hbm, ⟨88, _⟩ => ⟨S16x128, .f32⟩
  | .hbm, ⟨89, _⟩ => ⟨S_, .f32⟩
  | .hbm, ⟨90, _⟩ => ⟨S16x128, .f32⟩
  | .hbm, ⟨91, _⟩ => ⟨S20000x1, .i32⟩
  | .hbm, ⟨92, _⟩ => ⟨S16x128, .f32⟩
  | .hbm, ⟨93, _⟩ => ⟨S_, .f32⟩
  | .hbm, ⟨94, _⟩ => ⟨S16x1, .f32⟩
  | .hbm, ⟨95, _⟩ => ⟨S20000x1, .i32⟩
  | .hbm, ⟨96, _⟩ => ⟨S16x1, .f32⟩
  | .hbm, ⟨97, _⟩ => ⟨S_, .f32⟩
  | .hbm, ⟨98, _⟩ => ⟨S16x1, .f32⟩
  | .hbm, ⟨99, _⟩ => ⟨S16x1, .f32⟩
  | .hbm, ⟨100, _⟩ => ⟨S16x128, .f32⟩
  | .hbm, ⟨101, _⟩ => ⟨S16x128, .f32⟩
  | .hbm, ⟨102, _⟩ => ⟨S128x128, .f32⟩
  | .hbm, ⟨103, _⟩ => ⟨S16x128, .f32⟩
  | .hbm, ⟨104, _⟩ => ⟨S128x128, .f32⟩
  | .hbm, ⟨105, _⟩ => ⟨S16x128, .f32⟩
  | .hbm, ⟨106, _⟩ => ⟨S16x128, .f32⟩
  | .hbm, ⟨107, _⟩ => ⟨S16x128, .f32⟩
  | .hbm, ⟨108, _⟩ => ⟨S16x128, .f32⟩
  | .hbm, ⟨109, _⟩ => ⟨S16x128, .f32⟩
  | .hbm, ⟨110, _⟩ => ⟨S1x128, .f32⟩
  | .hbm, ⟨111, _⟩ => ⟨S16x128, .f32⟩
  | .hbm, ⟨112, _⟩ => ⟨S16x128, .f32⟩
  | .local _ .vmem, ⟨0, _⟩ => ⟨S10000x32, .f32⟩
  | .local _ .vmem, ⟨1, _⟩ => ⟨S10000x32, .f32⟩
  | .local _ .vmem, ⟨2, _⟩ => ⟨S10000x16, .f32⟩
  | .local _ .vmem, ⟨3, _⟩ => ⟨S10000x16, .f32⟩
  | .local _ .vmem, ⟨4, _⟩ => ⟨S256x32, .f32⟩
  | .local _ .vmem, ⟨5, _⟩ => ⟨S256, .f32⟩
  | .local _ .vmem, ⟨6, _⟩ => ⟨S128x256, .f32⟩
  | .local _ .vmem, ⟨7, _⟩ => ⟨S128x16, .f32⟩
  | .local _ .vmem, ⟨8, _⟩ => ⟨S128, .f32⟩
  | .local _ .vmem, ⟨9, _⟩ => ⟨S10000x256, .bf16⟩
  | .local _ .vmem, ⟨10, _⟩ => ⟨S10000x256, .bf16⟩
  | .local _ .vmem, ⟨11, _⟩ => ⟨S10000x128, .bf16⟩
  | .local _ .vmem, ⟨12, _⟩ => ⟨S10000x128, .bf16⟩
  | .local _ .vmem, ⟨13, _⟩ => ⟨S4000x64, .f32⟩
  | .local _ .vmem, ⟨14, _⟩ => ⟨S4000x64, .f32⟩
  | .local _ .vmem, ⟨15, _⟩ => ⟨S256x64, .f32⟩
  | .local _ .vmem, ⟨16, _⟩ => ⟨S4000x256, .f32⟩
  | .local _ .vmem, ⟨17, _⟩ => ⟨S4000x256, .f32⟩
  | .local _ .vmem, ⟨18, _⟩ => ⟨S256x256, .f32⟩
  | .local _ .vmem, ⟨19, _⟩ => ⟨S256, .f32⟩
  | .local _ .vmem, ⟨20, _⟩ => ⟨S128x256, .f32⟩
  | .local _ .vmem, ⟨21, _⟩ => ⟨S4000x128, .f32⟩
  | .local _ .vmem, ⟨22, _⟩ => ⟨S4000x128, .f32⟩
  | .local _ .vmem, ⟨23, _⟩ => ⟨S128x128, .f32⟩
  | .local _ .vmem, ⟨24, _⟩ => ⟨S4000x16, .f32⟩
  | .local _ .vmem, ⟨25, _⟩ => ⟨S4000x16, .f32⟩
  | .local _ .vmem, ⟨26, _⟩ => ⟨S128x16, .f32⟩
  | .local _ .vmem, ⟨27, _⟩ => ⟨S128, .f32⟩
  | .local _ .vmem, ⟨28, _⟩ => ⟨S4000x128, .f32⟩
  | .local _ .vmem, ⟨29, _⟩ => ⟨S4000x128, .f32⟩
  | _, _ => ⟨S20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14_0 : Ref sig .tc := ⟨.hbm, 39, rfl⟩
abbrev main_v14_1 : Ref sig .tc := ⟨.hbm, 40, rfl⟩
abbrev main_cst : Ref sig .tc := ⟨.hbm, 41, rfl⟩
abbrev main_v15 : Ref sig .tc := ⟨.hbm, 42, rfl⟩
abbrev main_cst_3 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_4 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_5 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_6 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_c_7 : Ref sig .tc := ⟨.hbm, 64, rfl⟩
abbrev main_v33 : Ref sig .tc := ⟨.hbm, 65, rfl⟩
abbrev main_v34 : Ref sig .tc := ⟨.hbm, 66, rfl⟩
abbrev main_c_8 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_9 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_10 : Ref sig .tc := ⟨.hbm, 78, rfl⟩
abbrev main_v44 : Ref sig .tc := ⟨.hbm, 79, rfl⟩
abbrev main_cst_11 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_12 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_13 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_14 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_15 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg11_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22
abbrev cc1_sem7_0 : DmaSem sig := 23
abbrev cc1_sem8_0 : DmaSem sig := 24
abbrev cc1_sem8_1 : DmaSem sig := 25
abbrev cc1_sem9_0 : DmaSem sig := 26
abbrev cc1_sem10_0 : DmaSem sig := 27
abbrev cc1_sem11_0 : DmaSem sig := 28
abbrev cc1_sem11_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S10000x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x16 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S128x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S4000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  transposes_S256x32_p1_0_S32x256 : S256x32.Transposes [1, 0] S32x256
  inb_S256_S256_0 : ∀ a, (![0] : Fin 1 → Nat) a + S256.size a ≤ S256.size a
  h_S256 : 0 < S256.numel
  shapeCasts_S256_S1x256 : S256.ShapeCasts S1x256
  broadcasts_S1x256_S10000x256 : S1x256.Broadcasts S10000x256
  inb_S128x256_S128x256_0_0 : ∀ a, (![0, 0] : Fin 2 → Nat) a + S128x256.size a ≤ S128x256.size a
  h_S128x256 : 0 < S128x256.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S128x16_S128x16_0_0 : ∀ a, (![0, 0] : Fin 2 → Nat) a + S128x16.size a ≤ S128x16.size a
  h_S128x16 : 0 < S128x16.numel
  transposes_S128x256_p1_0_S256x128 : S128x256.Transposes [1, 0] S256x128
  transposes_S128x16_p1_0_S16x128 : S128x16.Transposes [1, 0] S16x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S10000x256_S10000x256_0_0 : ∀ a, (![0, 0] : Fin 2 → Nat) a + S10000x256.size a ≤ S10000x256.size a
  h_S10000x256 : 0 < S10000x256.numel
  packedbf16_S10000x256_S10000x256_0_0 : (Rect.unit (s := S10000x256) ![0, 0] S10000x256.size inb_S10000x256_S10000x256_0_0).PackedRows (EltTy.packing .bf16)
  inb_S10000x128_S10000x128_0_0 : ∀ a, (![0, 0] : Fin 2 → Nat) a + S10000x128.size a ≤ S10000x128.size a
  h_S10000x128 : 0 < S10000x128.numel
  packedbf16_S10000x128_S10000x128_0_0 : (Rect.unit (s := S10000x128) ![0, 0] S10000x128.size inb_S10000x128_S10000x128_0_0).PackedRows (EltTy.packing .bf16)
  bcast_S_S320000x1 : S_.BroadcastsInDim S320000x1 (![] : Fin 0 → Fin S320000x1.rank)
  bcast_S_S20000x1 : S_.BroadcastsInDim S20000x1 (![] : Fin 0 → Fin S20000x1.rank)
  bcast_S_S20000x256 : S_.BroadcastsInDim S20000x256 (![] : Fin 0 → Fin S20000x256.rank)
  bcast_S_S20000x128 : S_.BroadcastsInDim S20000x128 (![] : Fin 0 → Fin S20000x128.rank)
  bcast_S20000x1_S20000x256_0_1 : S20000x1.BroadcastsInDim S20000x256 (![0, 1] : Fin 2 → Fin S20000x256.rank)
  bcast_S20000x1_S20000x128_0_1 : S20000x1.BroadcastsInDim S20000x128 (![0, 1] : Fin 2 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  inb_S4000x64_S4000x64_0_0 : ∀ a, (![0, 0] : Fin 2 → Nat) a + S4000x64.size a ≤ S4000x64.size a
  h_S4000x64 : 0 < S4000x64.numel
  inb_S256x64_S256x64_0_0 : ∀ a, (![0, 0] : Fin 2 → Nat) a + S256x64.size a ≤ S256x64.size a
  h_S256x64 : 0 < S256x64.numel
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  transposes_S256x64_p1_0_S64x256 : S256x64.Transposes [1, 0] S64x256
  transposes_S256x256_p1_0_S256x256 : S256x256.Transposes [1, 0] S256x256
  broadcasts_S1x256_S4000x256 : S1x256.Broadcasts S4000x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  transposes_S128x128_p1_0_S128x128 : S128x128.Transposes [1, 0] S128x128
  broadcasts_S1x128_S4000x128 : S1x128.Broadcasts S4000x128
  bcast_S_S16x128 : S_.BroadcastsInDim S16x128 (![] : Fin 0 → Fin S16x128.rank)
  bcast_S_S16x1 : S_.BroadcastsInDim S16x1 (![] : Fin 0 → Fin S16x1.rank)
  bcast_S16x1_S16x128_0_1 : S16x1.BroadcastsInDim S16x128 (![0, 1] : Fin 2 → Fin S16x128.rank)
  transposes_S128x128_S128x128_1_0 : S128x128.Transposes [1, 0] S128x128
  transposes_S128x16_S16x128_1_0 : S128x16.Transposes [1, 0] S16x128
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  gather_S20000_S320000x1_S320000_n_0_n_n_0_1_1_wf : GatherDims.WF S20000 S320000x1 S320000 [] [0] [] [0] [] 1 ![1]
  gather_S16x16_S320000x1_S320000x16_1_0_n_n_0_1_116_wf : GatherDims.WF S16x16 S320000x1 S320000x16 [1] [0] [] [0] [] 1 ![1, 16]
  dot_S10000x32_S32x256_S10000x256_1_0_0_1_n_n_wf : DotDims.WF S10000x32 S32x256 S10000x256 [1] [0] [0] [1] [] []
  dot_S10000x256_S256x128_S10000x128_1_0_0_1_n_n_wf : DotDims.WF S10000x256 S256x128 S10000x128 [1] [0] [0] [1] [] []
  dot_S10000x16_S16x128_S10000x128_1_0_0_1_n_n_wf : DotDims.WF S10000x16 S16x128 S10000x128 [1] [0] [0] [1] [] []
  scatter_S20000x1_S320000x1_S320000x1_1_0_0_1_wf : ScatterDims.WF S20000x1 S320000x1 S320000x1 [1] [0] [0] 1
  scatter_S20000x256_S320000x1_S320000x256_1_0_0_1_wf : ScatterDims.WF S20000x256 S320000x1 S320000x256 [1] [0] [0] 1
  scatter_S20000x128_S320000x1_S320000x128_1_0_0_1_wf : ScatterDims.WF S20000x128 S320000x1 S320000x128 [1] [0] [0] 1
  gather_S16x16_S20000x1_S20000x16_1_0_n_n_0_1_116_wf : GatherDims.WF S16x16 S20000x1 S20000x16 [1] [0] [] [0] [] 1 ![1, 16]
  dot_S4000x64_S64x256_S4000x256_1_0_0_1_n_n_wf : DotDims.WF S4000x64 S64x256 S4000x256 [1] [0] [0] [1] [] []
  dot_S4000x256_S256x256_S4000x256_1_0_0_1_n_n_wf : DotDims.WF S4000x256 S256x256 S4000x256 [1] [0] [0] [1] [] []
  dot_S4000x256_S256x128_S4000x128_1_0_0_1_n_n_wf : DotDims.WF S4000x256 S256x128 S4000x128 [1] [0] [0] [1] [] []
  dot_S4000x128_S128x128_S4000x128_1_0_0_1_n_n_wf : DotDims.WF S4000x128 S128x128 S4000x128 [1] [0] [0] [1] [] []
  dot_S4000x16_S16x128_S4000x128_1_0_0_1_n_n_wf : DotDims.WF S4000x16 S16x128 S4000x128 [1] [0] [0] [1] [] []
  scatter_S16x128_S20000x1_S20000x128_1_0_0_1_wf : ScatterDims.WF S16x128 S20000x1 S20000x128 [1] [0] [0] 1
  scatter_S16x1_S20000x1_S20000x1_1_0_0_1_wf : ScatterDims.WF S16x1 S20000x1 S20000x1 [1] [0] [0] 1
  dot_S16x128_S128x128_S16x128_1_0_0_1_n_n_wf : DotDims.WF S16x128 S128x128 S16x128 [1] [0] [0] [1] [] []
  dot_S16x16_S16x128_S16x128_1_0_0_1_n_n_wf : DotDims.WF S16x16 S16x128 S16x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S320000x32.size a
  hwx0_0 : ∀ i : grid0.Coords, EltTy.bits .f32 = 32 ∨ (Rect.block (s := S320000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S320000x16.size a
  hwx0_1 : ∀ i : grid0.Coords, EltTy.bits .f32 = 32 ∨ (Rect.block (s := S320000x16) S10000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S256x32.size a
  hwx0_2 : ∀ i : grid0.Coords, EltTy.bits .f32 = 32 ∨ (Rect.block (s := S256x32) S256x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x16.size a ≤ S128x16.size a
  hwx0_5 : ∀ i : grid0.Coords, EltTy.bits .f32 = 32 ∨ (Rect.block (s := S128x16) S128x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x256.size a ≤ S320000x256.size a
  hwx0_7 : ∀ i : grid0.Coords, EltTy.bits .bf16 = 32 ∨ (Rect.block (s := S320000x256) S10000x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x128.size a ≤ S320000x128.size a
  hwx0_8 : ∀ i : grid0.Coords, EltTy.bits .bf16 = 32 ∨ (Rect.block (s := S320000x128) S10000x128.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S20000x64.size a
  hwx1_0 : ∀ i : grid1.Coords, EltTy.bits .f32 = 32 ∨ (Rect.block (s := S20000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x256.size a ≤ S20000x256.size a
  hwx1_2 : ∀ i : grid1.Coords, EltTy.bits .f32 = 32 ∨ (Rect.block (s := S20000x256) S4000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .f32 = 32 ∨ (Rect.block (s := S128x256) S128x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S20000x128.size a
  hwx1_6 : ∀ i : grid1.Coords, EltTy.bits .f32 = 32 ∨ (Rect.block (s := S20000x128) S4000x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x16.size a ≤ S20000x16.size a
  hwx1_8 : ∀ i : grid1.Coords, EltTy.bits .f32 = 32 ∨ (Rect.block (s := S20000x16) S4000x16.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x16.size a ≤ S128x16.size a
  hwx1_9 : ∀ i : grid1.Coords, EltTy.bits .f32 = 32 ∨ (Rect.block (s := S128x16) S128x16.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4000x128.size a ≤ S20000x128.size a
  hwx1_11 : ∀ i : grid1.Coords, EltTy.bits .f32 = 32 ∨ (Rect.block (s := S20000x128) S4000x128.size (cc1_transform_11 i) (hinb1_11 i)).WholeWords (EltTy.packing .f32)

variable [Facts₀]

def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def gather_S16x16_S320000x1_S320000x16_1_0_n_n_0_1_116 : GatherDims S16x16 S320000x1 S320000x16 where
  offsetDims := [1]
  collapsedSliceDims := [0]
  operandBatchingDims := []
  startIndicesBatchingDims := []
  startIndexMap := [0]
  indexVectorDim := 1
  sliceSizes := ![1, 16]
  wf := gather_S16x16_S320000x1_S320000x16_1_0_n_n_0_1_116_wf
def dot_S10000x32_S32x256_S10000x256_1_0_0_1_n_n : DotDims S10000x32 S32x256 S10000x256 where
  lhsContracting := [1]
  rhsContracting := [0]
  lhsNonContracting := [0]
  rhsNonContracting := [1]
  lhsBatch := []
  rhsBatch := []
  wf := dot_S10000x32_S32x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def scatter_S20000x1_S320000x1_S320000x1_1_0_0_1 : ScatterDims S20000x1 S320000x1 S320000x1 where
  updateWindowDims := [1]
  insertedWindowDims := [0]
  scatterDimsToOperandDims := [0]
  indexVectorDim := 1
  wf := scatter_S20000x1_S320000x1_S320000x1_1_0_0_1_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def gather_S16x16_S20000x1_S20000x16_1_0_n_n_0_1_116 : GatherDims S16x16 S20000x1 S20000x16 where
  offsetDims := [1]
  collapsedSliceDims := [0]
  operandBatchingDims := []
  startIndicesBatchingDims := []
  startIndexMap := [0]
  indexVectorDim := 1
  sliceSizes := ![1, 16]
  wf := gather_S16x16_S20000x1_S20000x16_1_0_n_n_0_1_116_wf
def dot_S4000x64_S64x256_S4000x256_1_0_0_1_n_n : DotDims S4000x64 S64x256 S4000x256 where
  lhsContracting := [1]
  rhsContracting := [0]
  lhsNonContracting := [0]
  rhsNonContracting := [1]
  lhsBatch := []
  rhsBatch := []
  wf := dot_S4000x64_S64x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x16_S16x128_S4000x128_1_0_0_1_n_n : DotDims S4000x16 S16x128 S4000x128 where
  lhsContracting := [1]
  rhsContracting := [0]
  lhsNonContracting := [0]
  rhsNonContracting := [1]
  lhsBatch := []
  rhsBatch := []
  wf := dot_S4000x16_S16x128_S4000x128_1_0_0_1_n_n_wf
def scatter_S16x128_S20000x1_S20000x128_1_0_0_1 : ScatterDims S16x128 S20000x1 S20000x128 where
  updateWindowDims := [1]
  insertedWindowDims := [0]
  scatterDimsToOperandDims := [0]
  indexVectorDim := 1
  wf := scatter_S16x128_S20000x1_S20000x128_1_0_0_1_wf
def scatter_S16x1_S20000x1_S20000x1_1_0_0_1 : ScatterDims S16x1 S20000x1 S20000x1 where
  updateWindowDims := [1]
  insertedWindowDims := [0]
  scatterDimsToOperandDims := [0]
  indexVectorDim := 1
  wf := scatter_S16x1_S20000x1_S20000x1_1_0_0_1_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf
def dot_S16x16_S16x128_S16x128_1_0_0_1_n_n : DotDims S16x16 S16x128 S16x128 where
  lhsContracting := [1]
  rhsContracting := [0]
  lhsNonContracting := [0]
  rhsNonContracting := [1]
  lhsBatch := []
  rhsBatch := []
  wf := dot_S16x16_S16x128_S16x128_1_0_0_1_n_n_wf

abbrev win0_0 : Pipeline.Window sig grid0 :=
  Pipeline.Window.ofSpec (Memref.whole main_arg1) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14_0) S10000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v14_1) S10000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S4000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S4000x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v39) S4000x16.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_arg13) S128x16.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg14) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v40) S4000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S20000x64 : Shape := ⟨2, ![20000, 64]⟩
abbrev S320000x32 : Shape := ⟨2, ![320000, 32]⟩
abbrev S16x16 : Shape := ⟨2, ![16, 16]⟩
abbrev S256x32 : Shape := ⟨2, ![256, 32]⟩
abbrev S256 : Shape := ⟨1, ![256]⟩
abbrev S256x64 : Shape := ⟨2, ![256, 64]⟩
abbrev S256x256 : Shape := ⟨2, ![256, 256]⟩
abbrev S128x256 : Shape := ⟨2, ![128, 256]⟩
abbrev S128x16 : Shape := ⟨2, ![128, 16]⟩
abbrev S128 : Shape := ⟨1, ![128]⟩
abbrev S128x128 : Shape := ⟨2, ![128, 128]⟩
abbrev S320000 : Shape := ⟨1, ![320000]⟩
abbrev S20000 : Shape := ⟨1, ![20000]⟩
abbrev S_ : Shape := ⟨0, ![]⟩
abbrev S320000x1 : Shape := ⟨2, ![320000, 1]⟩
abbrev S32x256 : Shape := ⟨2, ![32, 256]⟩
abbrev S320000x256 : Shape := ⟨2, ![320000, 256]⟩
abbrev S1x256 : Shape := ⟨2, ![1, 256]⟩
abbrev S20000x256 : Shape := ⟨2, ![20000, 256]⟩
abbrev S20000x1 : Shape := ⟨2, ![20000, 1]⟩
abbrev S64x256 : Shape := ⟨2, ![64, 256]⟩
abbrev S256x128 : Shape := ⟨2, ![256, 128]⟩
abbrev S320000x128 : Shape := ⟨2, ![320000, 128]⟩
abbrev S320000x16 : Shape := ⟨2, ![320000, 16]⟩
abbrev S16x128 : Shape := ⟨2, ![16, 128]⟩
abbrev S1x128 : Shape := ⟨2, ![1, 128]⟩
abbrev S20000x128 : Shape := ⟨2, ![20000, 128]⟩
abbrev S20000x16 : Shape := ⟨2, ![20000, 16]⟩
abbrev S16x1 : Shape := ⟨2, ![16, 1]⟩

abbrev nBuf : Space → Nat
  | .hbm => 163
  | .vmem => 0
  | .smem => 0
  | _ => 0

abbrev hbmTy0_0 (i : Nat) : BufTy := match i % 128 with
  | 0 => ⟨S20000x64, .f32⟩
  | 1 => ⟨S320000x32, .f32⟩
  | 2 => ⟨S16x16, .f32⟩
  | 3 => ⟨S256x32, .f32⟩
  | 4 => ⟨S256, .f32⟩
  | 5 => ⟨S256x64, .f32⟩
  | 6 => ⟨S256x256, .f32⟩
  | 7 => ⟨S256, .f32⟩
  | 8 => ⟨S128x256, .f32⟩
  | 9 => ⟨S128x16, .f32⟩
  | 10 => ⟨S128, .f32⟩
  | 11 => ⟨S128x256, .f32⟩
  | 12 => ⟨S128x128, .f32⟩
  | 13 => ⟨S128x16, .f32⟩
  | 14 => ⟨S128, .f32⟩
  | 15 => ⟨S128x128, .f32⟩
  | 16 => ⟨S128x128, .f32⟩
  | 17 => ⟨S128x16, .f32⟩
  | 18 => ⟨S128, .f32⟩
  | 19 => ⟨S320000, .i32⟩
  | 20 => ⟨S20000, .i32⟩
  | 21 => ⟨S_, .i32⟩
  | 22 => ⟨S320000, .i32⟩
  | 23 => ⟨S320000, .i1⟩
  | 24 => ⟨S_, .i32⟩
  | 25 => ⟨S320000, .i32⟩
  | 26 => ⟨S320000, .i32⟩
  | 27 => ⟨S320000, .i32⟩
  | 28 => ⟨S320000x1, .i32⟩
  | 29 => ⟨S320000, .i32⟩
  | 30 => ⟨S32x256, .f32⟩
  | 31 => ⟨S320000x256, .f32⟩
  | 32 => ⟨S1x256, .f32⟩
  | 33 => ⟨S320000x256, .f32⟩
  | 34 => ⟨S320000x256, .f32⟩
  | 35 => ⟨S_, .f32⟩
  | 36 => ⟨S320000x256, .f32⟩
  | 37 => ⟨S320000x256, .f32⟩
  | 38 => ⟨S_, .f32⟩
  | 39 => ⟨S20000x256, .f32⟩
  | 40 => ⟨S320000x1, .i32⟩
  | 41 => ⟨S20000x256, .f32⟩
  | 42 => ⟨S_, .f32⟩
  | 43 => ⟨S320000x1, .f32⟩
  | 44 => ⟨S_, .f32⟩
  | 45 => ⟨S20000x1, .f32⟩
  | 46 => ⟨S320000x1, .i32⟩
  | 47 => ⟨S20000x1, .f32⟩
  | 48 => ⟨S_, .f32⟩
  | 49 => ⟨S20000x1, .f32⟩
  | 50 => ⟨S20000x1, .f32⟩
  | 51 => ⟨S20000x256, .f32⟩
  | 52 => ⟨S20000x256, .f32⟩
  | 53 => ⟨S64x256, .f32⟩
  | 54 => ⟨S20000x256, .f32⟩
  | 55 => ⟨S256x256, .f32⟩
  | 56 => ⟨S20000x256, .f32⟩
  | 57 => ⟨S20000x256, .f32⟩
  | 58 => ⟨S1x256, .f32⟩
  | 59 => ⟨S20000x256, .f32⟩
  | 60 => ⟨S20000x256, .f32⟩
  | 61 => ⟨S_, .f32⟩
  | 62 => ⟨S20000x256, .f32⟩
  | 63 => ⟨S20000x256, .f32⟩
  | 64 => ⟨S256x128, .f32⟩
  | 65 => ⟨S320000x128, .f32⟩
  | 66 => ⟨S_, .i32⟩
  | 67 => ⟨S320000, .i32⟩
  | 68 => ⟨S320000, .i1⟩
  | 69 => ⟨S_, .i32⟩
  | 70 => ⟨S320000, .i32⟩
  | 71 => ⟨S320000, .i32⟩
  | 72 => ⟨S320000, .i32⟩
  | 73 => ⟨S320000x1, .i32⟩
  | 74 => ⟨S320000x16, .f32⟩
  | 75 => ⟨S16x128, .f32⟩
  | 76 => ⟨S320000x128, .f32⟩
  | 77 => ⟨S320000x128, .f32⟩
  | 78 => ⟨S1x128, .f32⟩
  | 79 => ⟨S320000x128, .f32⟩
  | 80 => ⟨S320000x128, .f32⟩
  | 81 => ⟨S_, .f32⟩
  | 82 => ⟨S320000x128, .f32⟩
  | 83 => ⟨S320000x128, .f32⟩
  | 84 => ⟨S_, .f32⟩
  | 85 => ⟨S20000x128, .f32⟩
  | 86 => ⟨S320000x1, .i32⟩
  | 87 => ⟨S20000x128, .f32⟩
  | 88 => ⟨S_, .f32⟩
  | 89 => ⟨S320000x1, .f32⟩
  | 90 => ⟨S_, .f32⟩
  | 91 => ⟨S20000x1, .f32⟩
  | 92 => ⟨S320000x1, .i32⟩
  | 93 => ⟨S20000x1, .f32⟩
  | 94 => ⟨S_, .f32⟩
  | 95 => ⟨S20000x1, .f32⟩
  | 96 => ⟨S20000x1, .f32⟩
  | 97 => ⟨S20000x128, .f32⟩
  | 98 => ⟨S20000x128, .f32⟩
  | 99 => ⟨S256x128, .f32⟩
  | 100 => ⟨S20000x128, .f32⟩
  | 101 => ⟨S128x128, .f32⟩
  | 102 => ⟨S20000x128, .f32⟩
  | 103 => ⟨S20000x128, .f32⟩
  | 104 => ⟨S_, .i32⟩
  | 105 => ⟨S20000, .i32⟩
  | 106 => ⟨S20000, .i1⟩
  | 107 => ⟨S_, .i32⟩
  | 108 => ⟨S20000, .i32⟩
  | 109 => ⟨S20000, .i32⟩
  | 110 => ⟨S20000, .i32⟩
  | 111 => ⟨S20000x1, .i32⟩
  | 112 => ⟨S20000x16, .f32⟩
  | 113 => ⟨S16x128, .f32⟩
  | 114 => ⟨S20000x128, .f32⟩
  | 115 => ⟨S20000x128, .f32⟩
  | 116 => ⟨S1x128, .f32⟩
  | 117 => ⟨S20000x128, .f32⟩
  | 118 => ⟨S20000x128, .f32⟩
  | 119 => ⟨S_, .f32⟩
  | 120 => ⟨S20000x128, .f32⟩
  | 121 => ⟨S20000x128, .f32⟩
  | 122 => ⟨S_, .f32⟩
  | 123 => ⟨S16x128, .f32⟩
  | 124 => ⟨S20000x1, .i32⟩
  | 125 => ⟨S16x128, .f32⟩
  | 126 => ⟨S_, .f32⟩
  | 127 => ⟨S20000x1, .f32⟩
  | _ => ⟨S20000x64, .f32⟩

abbrev hbmTy0_1 (i : Nat) : BufTy := match i % 128 with
  | 0 => ⟨S_, .f32⟩
  | 1 => ⟨S16x1, .f32⟩
  | 2 => ⟨S20000x1, .i32⟩
  | 3 => ⟨S16x1, .f32⟩
  | 4 => ⟨S_, .f32⟩
  | 5 => ⟨S16x1, .f32⟩
  | 6 => ⟨S16x1, .f32⟩
  | 7 => ⟨S16x128, .f32⟩
  | 8 => ⟨S16x128, .f32⟩
  | 9 => ⟨S_, .f32⟩
  | 10 => ⟨S16x128, .f32⟩
  | 11 => ⟨S320000x1, .i32⟩
  | 12 => ⟨S16x128, .f32⟩
  | 13 => ⟨S_, .f32⟩
  | 14 => ⟨S320000x1, .f32⟩
  | 15 => ⟨S_, .f32⟩
  | 16 => ⟨S16x1, .f32⟩
  | 17 => ⟨S320000x1, .i32⟩
  | 18 => ⟨S16x1, .f32⟩
  | 19 => ⟨S_, .f32⟩
  | 20 => ⟨S16x1, .f32⟩
  | 21 => ⟨S16x1, .f32⟩
  | 22 => ⟨S16x128, .f32⟩
  | 23 => ⟨S16x128, .f32⟩
  | 24 => ⟨S128x128, .f32⟩
  | 25 => ⟨S16x128, .f32⟩
  | 26 => ⟨S128x128, .f32⟩
  | 27 => ⟨S16x128, .f32⟩
  | 28 => ⟨S16x128, .f32⟩
  | 29 => ⟨S16x128, .f32⟩
  | 30 => ⟨S16x128, .f32⟩
  | 31 => ⟨S16x128, .f32⟩
  | 32 => ⟨S1x128, .f32⟩
  | 33 => ⟨S16x128, .f32⟩
  | 34 => ⟨S16x128, .f32⟩
  | _ => ⟨S20000x64, .f32⟩

abbrev hbmTy (i : Nat) : BufTy := match i / 128 with
  | 0 => hbmTy0_0 i
  | 1 => hbmTy0_1 i
  | _ => ⟨S20000x64, .f32⟩

abbrev bufTy : (tb : Table) → Fin (tcTables nBuf tb) → BufTy
  | .hbm, ⟨i, _⟩ => hbmTy i
  | _, _ => ⟨S20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_call0_cst : Ref sig .tc := ⟨.hbm, 35, rfl⟩
abbrev main_call0_v0 : Ref sig .tc := ⟨.hbm, 36, rfl⟩
abbrev main_v12 : Ref sig .tc := ⟨.hbm, 37, rfl⟩
abbrev main_cst : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_1 : Ref sig .tc := ⟨.hbm, 42, rfl⟩
abbrev main_v16 : Ref sig .tc := ⟨.hbm, 43, rfl⟩
abbrev main_cst_2 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_3 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_call1_cst : Ref sig .tc := ⟨.hbm, 61, rfl⟩
abbrev main_call1_v0 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_c_4 : Ref sig .tc := ⟨.hbm, 66, rfl⟩
abbrev main_v35 : Ref sig .tc := ⟨.hbm, 67, rfl⟩
abbrev main_v36 : Ref sig .tc := ⟨.hbm, 68, rfl⟩
abbrev main_c_5 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_call2_cst : Ref sig .tc := ⟨.hbm, 81, rfl⟩
abbrev main_call2_v0 : Ref sig .tc := ⟨.hbm, 82, rfl⟩
abbrev main_v48 : Ref sig .tc := ⟨.hbm, 83, rfl⟩
abbrev main_cst_6 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_7 : Ref sig .tc := ⟨.hbm, 88, rfl⟩
abbrev main_v52 : Ref sig .tc := ⟨.hbm, 89, rfl⟩
abbrev main_cst_8 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_9 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_c_10 : Ref sig .tc := ⟨.hbm, 104, rfl⟩
abbrev main_v65 : Ref sig .tc := ⟨.hbm, 105, rfl⟩
abbrev main_v66 : Ref sig .tc := ⟨.hbm, 106, rfl⟩
abbrev main_c_11 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_call3_cst : Ref sig .tc := ⟨.hbm, 119, rfl⟩
abbrev main_call3_v0 : Ref sig .tc := ⟨.hbm, 120, rfl⟩
abbrev main_v78 : Ref sig .tc := ⟨.hbm, 121, rfl⟩
abbrev main_cst_12 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_13 : Ref sig .tc := ⟨.hbm, 126, rfl⟩
abbrev main_v82 : Ref sig .tc := ⟨.hbm, 127, rfl⟩
abbrev main_cst_14 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_15 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst_16 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_cst_17 : Ref sig .tc := ⟨.hbm, 141, rfl⟩
abbrev main_v93 : Ref sig .tc := ⟨.hbm, 142, rfl⟩
abbrev main_cst_18 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_cst_19 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  transposes_S256x32_S32x256_1_0 : S256x32.Transposes [1, 0] S32x256
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S_S20000x256 : S_.BroadcastsInDim S20000x256 (![] : Fin 0 → Fin S20000x256.rank)
  bcast_S_S320000x1 : S_.BroadcastsInDim S320000x1 (![] : Fin 0 → Fin S320000x1.rank)
  bcast_S_S20000x1 : S_.BroadcastsInDim S20000x1 (![] : Fin 0 → Fin S20000x1.rank)
  bcast_S20000x1_S20000x256_0_1 : S20000x1.BroadcastsInDim S20000x256 (![0, 1] : Fin 2 → Fin S20000x256.rank)
  transposes_S256x64_S64x256_1_0 : S256x64.Transposes [1, 0] S64x256
  transposes_S256x256_S256x256_1_0 : S256x256.Transposes [1, 0] S256x256
  bcast_S1x256_S20000x256_0_1 : S1x256.BroadcastsInDim S20000x256 (![0, 1] : Fin 2 → Fin S20000x256.rank)
  transposes_S128x256_S256x128_1_0 : S128x256.Transposes [1, 0] S256x128
  transposes_S128x16_S16x128_1_0 : S128x16.Transposes [1, 0] S16x128
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  transposes_S128x128_S128x128_1_0 : S128x128.Transposes [1, 0] S128x128
  bcast_S_S20000 : S_.BroadcastsInDim S20000 (![] : Fin 0 → Fin S20000.rank)
  bcast_S20000_S20000x1_0 : S20000.BroadcastsInDim S20000x1 (![0] : Fin 1 → Fin S20000x1.rank)
  bcast_S1x128_S20000x128_0_1 : S1x128.BroadcastsInDim S20000x128 (![0, 1] : Fin 2 → Fin S20000x128.rank)
  bcast_S_S16x128 : S_.BroadcastsInDim S16x128 (![] : Fin 0 → Fin S16x128.rank)
  bcast_S_S16x1 : S_.BroadcastsInDim S16x1 (![] : Fin 0 → Fin S16x1.rank)
  bcast_S16x1_S16x128_0_1 : S16x1.BroadcastsInDim S16x128 (![0, 1] : Fin 2 → Fin S16x128.rank)
  bcast_S1x128_S16x128_0_1 : S1x128.BroadcastsInDim S16x128 (![0, 1] : Fin 2 → Fin S16x128.rank)
  gather_S20000_S320000x1_S320000_n_0_n_n_0_1_1_wf : GatherDims.WF S20000 S320000x1 S320000 [] [0] [] [0] [] 1 ![1]
  dot_S320000x32_S32x256_S320000x256_1_0_0_1_n_n_wf : DotDims.WF S320000x32 S32x256 S320000x256 [1] [0] [0] [1] [] []
  scatter_S20000x256_S320000x1_S320000x256_1_0_0_1_wf : ScatterDims.WF S20000x256 S320000x1 S320000x256 [1] [0] [0] 1
  scatter_S20000x1_S320000x1_S320000x1_1_0_0_1_wf : ScatterDims.WF S20000x1 S320000x1 S320000x1 [1] [0] [0] 1
  dot_S20000x64_S64x256_S20000x256_1_0_0_1_n_n_wf : DotDims.WF S20000x64 S64x256 S20000x256 [1] [0] [0] [1] [] []
  dot_S20000x256_S256x256_S20000x256_1_0_0_1_n_n_wf : DotDims.WF S20000x256 S256x256 S20000x256 [1] [0] [0] [1] [] []
  dot_S320000x256_S256x128_S320000x128_1_0_0_1_n_n_wf : DotDims.WF S320000x256 S256x128 S320000x128 [1] [0] [0] [1] [] []
  gather_S16x16_S320000x1_S320000x16_1_0_n_n_0_1_116_wf : GatherDims.WF S16x16 S320000x1 S320000x16 [1] [0] [] [0] [] 1 ![1, 16]
  dot_S320000x16_S16x128_S320000x128_1_0_0_1_n_n_wf : DotDims.WF S320000x16 S16x128 S320000x128 [1] [0] [0] [1] [] []
  scatter_S20000x128_S320000x1_S320000x128_1_0_0_1_wf : ScatterDims.WF S20000x128 S320000x1 S320000x128 [1] [0] [0] 1
  dot_S20000x256_S256x128_S20000x128_1_0_0_1_n_n_wf : DotDims.WF S20000x256 S256x128 S20000x128 [1] [0] [0] [1] [] []
  dot_S20000x128_S128x128_S20000x128_1_0_0_1_n_n_wf : DotDims.WF S20000x128 S128x128 S20000x128 [1] [0] [0] [1] [] []
  gather_S16x16_S20000x1_S20000x16_1_0_n_n_0_1_116_wf : GatherDims.WF S16x16 S20000x1 S20000x16 [1] [0] [] [0] [] 1 ![1, 16]
  dot_S20000x16_S16x128_S20000x128_1_0_0_1_n_n_wf : DotDims.WF S20000x16 S16x128 S20000x128 [1] [0] [0] [1] [] []
  scatter_S16x128_S20000x1_S20000x128_1_0_0_1_wf : ScatterDims.WF S16x128 S20000x1 S20000x128 [1] [0] [0] 1
  scatter_S16x1_S20000x1_S20000x1_1_0_0_1_wf : ScatterDims.WF S16x1 S20000x1 S20000x1 [1] [0] [0] 1
  scatter_S16x128_S320000x1_S320000x128_1_0_0_1_wf : ScatterDims.WF S16x128 S320000x1 S320000x128 [1] [0] [0] 1
  scatter_S16x1_S320000x1_S320000x1_1_0_0_1_wf : ScatterDims.WF S16x1 S320000x1 S320000x1 [1] [0] [0] 1
  dot_S16x128_S128x128_S16x128_1_0_0_1_n_n_wf : DotDims.WF S16x128 S128x128 S16x128 [1] [0] [0] [1] [] []
  dot_S16x16_S16x128_S16x128_1_0_0_1_n_n_wf : DotDims.WF S16x16 S16x128 S16x128 [1] [0] [0] [1] [] []

variable [Facts₀]

def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def dot_S320000x32_S32x256_S320000x256_1_0_0_1_n_n : DotDims S320000x32 S32x256 S320000x256 where
  lhsContracting := [1]
  rhsContracting := [0]
  lhsNonContracting := [0]
  rhsNonContracting := [1]
  lhsBatch := []
  rhsBatch := []
  wf := dot_S320000x32_S32x256_S320000x256_1_0_0_1_n_n_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S20000x1_S320000x1_S320000x1_1_0_0_1 : ScatterDims S20000x1 S320000x1 S320000x1 where
  updateWindowDims := [1]
  insertedWindowDims := [0]
  scatterDimsToOperandDims := [0]
  indexVectorDim := 1
  wf := scatter_S20000x1_S320000x1_S320000x1_1_0_0_1_wf
def dot_S20000x64_S64x256_S20000x256_1_0_0_1_n_n : DotDims S20000x64 S64x256 S20000x256 where
  lhsContracting := [1]
  rhsContracting := [0]
  lhsNonContracting := [0]
  rhsNonContracting := [1]
  lhsBatch := []
  rhsBatch := []
  wf := dot_S20000x64_S64x256_S20000x256_1_0_0_1_n_n_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def dot_S320000x256_S256x128_S320000x128_1_0_0_1_n_n : DotDims S320000x256 S256x128 S320000x128 where
  lhsContracting := [1]
  rhsContracting := [0]
  lhsNonContracting := [0]
  rhsNonContracting := [1]
  lhsBatch := []
  rhsBatch := []
  wf := dot_S320000x256_S256x128_S320000x128_1_0_0_1_n_n_wf
def gather_S16x16_S320000x1_S320000x16_1_0_n_n_0_1_116 : GatherDims S16x16 S320000x1 S320000x16 where
  offsetDims := [1]
  collapsedSliceDims := [0]
  operandBatchingDims := []
  startIndicesBatchingDims := []
  startIndexMap := [0]
  indexVectorDim := 1
  sliceSizes := ![1, 16]
  wf := gather_S16x16_S320000x1_S320000x16_1_0_n_n_0_1_116_wf
def dot_S320000x16_S16x128_S320000x128_1_0_0_1_n_n : DotDims S320000x16 S16x128 S320000x128 where
  lhsContracting := [1]
  rhsContracting := [0]
  lhsNonContracting := [0]
  rhsNonContracting := [1]
  lhsBatch := []
  rhsBatch := []
  wf := dot_S320000x16_S16x128_S320000x128_1_0_0_1_n_n_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S16x16_S20000x1_S20000x16_1_0_n_n_0_1_116 : GatherDims S16x16 S20000x1 S20000x16 where
  offsetDims := [1]
  collapsedSliceDims := [0]
  operandBatchingDims := []
  startIndicesBatchingDims := []
  startIndexMap := [0]
  indexVectorDim := 1
  sliceSizes := ![1, 16]
  wf := gather_S16x16_S20000x1_S20000x16_1_0_n_n_0_1_116_wf
def dot_S20000x16_S16x128_S20000x128_1_0_0_1_n_n : DotDims S20000x16 S16x128 S20000x128 where
  lhsContracting := [1]
  rhsContracting := [0]
  lhsNonContracting := [0]
  rhsNonContracting := [1]
  lhsBatch := []
  rhsBatch := []
  wf := dot_S20000x16_S16x128_S20000x128_1_0_0_1_n_n_wf
def scatter_S16x128_S20000x1_S20000x128_1_0_0_1 : ScatterDims S16x128 S20000x1 S20000x128 where
  updateWindowDims := [1]
  insertedWindowDims := [0]
  scatterDimsToOperandDims := [0]
  indexVectorDim := 1
  wf := scatter_S16x128_S20000x1_S20000x128_1_0_0_1_wf
def scatter_S16x1_S20000x1_S20000x1_1_0_0_1 : ScatterDims S16x1 S20000x1 S20000x1 where
  updateWindowDims := [1]
  insertedWindowDims := [0]
  scatterDimsToOperandDims := [0]
  indexVectorDim := 1
  wf := scatter_S16x1_S20000x1_S20000x1_1_0_0_1_wf
def scatter_S16x128_S320000x1_S320000x128_1_0_0_1 : ScatterDims S16x128 S320000x1 S320000x128 where
  updateWindowDims := [1]
  insertedWindowDims := [0]
  scatterDimsToOperandDims := [0]
  indexVectorDim := 1
  wf := scatter_S16x128_S320000x1_S320000x128_1_0_0_1_wf
def scatter_S16x1_S320000x1_S320000x1_1_0_0_1 : ScatterDims S16x1 S320000x1 S320000x1 where
  updateWindowDims := [1]
  insertedWindowDims := [0]
  scatterDimsToOperandDims := [0]
  indexVectorDim := 1
  wf := scatter_S16x1_S320000x1_S320000x1_1_0_0_1_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf
def dot_S16x16_S16x128_S16x128_1_0_0_1_n_n : DotDims S16x16 S16x128 S16x128 where
  lhsContracting := [1]
  rhsContracting := [0]
  lhsNonContracting := [0]
  rhsNonContracting := [1]
  lhsBatch := []
  rhsBatch := []
  wf := dot_S16x16_S16x128_S16x128_1_0_0_1_n_n_wf

class Facts : Prop extends Facts₀ where

variable [Facts]
-- ==== Proof.RefImports.lean ====
/-
  The reference's run and its stages read one operation at a time: both modules are generated; this
  file only gathers them for the hand-written modules that build on them.
-/
import proofs.«173816_j89103391522964_2_alg».proof.Proof.Gen.ReferenceIdeal.Run
import proofs.«173816_j89103391522964_2_alg».proof.Proof.Gen.ReferenceIdeal.Read
-- ==== Proof.HostSide.lean ====
/-
  The host operations around the two kernel regions, read from any buffer contents.

  Before the first region the program gathers each edge's row of the global features; between the regions it counts
  the edges into each node, sums the two edge layers into their receiving nodes, divides by the count (at least one),
  and gathers each node's global row; after the second region it averages the node rows and the summed edge rows over
  each graph and applies the output layer. Each stretch is a composition of whole-array operations of the buffers it
  reads; the argument arrays pass through every stretch unchanged.
-/
import proofs.«173816_j89103391522964_2_alg».proof.Proof.Gen.KernelIdeal.Frame
import proofs.«173816_j89103391522964_2_alg».proof.Proof.RefImports
import Idealize.ShloMosaic.Lib.StableHlo.Run

set_option maxRecDepth 16384

noncomputable section

namespace Cert.KernelIdeal.HostSide

open Idealize.ShloMosaic Idealize.ShloMosaic.TcCoe Idealize.ShloMosaic.StableHlo Idealize.SL.Sem
open Cert.KernelIdeal Cert.KernelIdeal.Gen

variable {F : FTy → Type} [FloatOps F]

/-- The first edge layer, stored in the shorter format, summed into the receiving nodes. -/
def aggSum256 (e : FVec F S320000x256 .bf16) (x19 : IVec S320000 32) : FVec F S20000x256 .f32 :=
  Host.scatterAdd Cert.ReferenceIdeal.scatter_S20000x256_S320000x1_S320000x256_1_0_0_1 (Cert.ReferenceIdeal.Read.val_main_v13 (F := F))
    (Cert.ReferenceIdeal.Read.val_main_v14 (F := F) x19) (extf .f32 e bitsLt_bf16_f32)

/-- The second edge layer, stored in the shorter format, summed into the receiving nodes. -/
def aggSum128 (e : FVec F S320000x128 .bf16) (x19 : IVec S320000 32) : FVec F S20000x128 .f32 :=
  Host.scatterAdd Cert.ReferenceIdeal.scatter_S20000x128_S320000x1_S320000x128_1_0_0_1 (Cert.ReferenceIdeal.Read.val_main_v49 (F := F))
    (Cert.ReferenceIdeal.Read.val_main_v50 (F := F) x19) (extf .f32 e bitsLt_bf16_f32)

/-- Per-node counts summed over each graph's nodes. -/
def cnt16 (cntN : FVec F S20000x1 .f32) (x20 : IVec S20000 32) : FVec F S16x1 .f32 :=
  Host.scatterAdd Cert.ReferenceIdeal.scatter_S16x1_S20000x1_S20000x1_1_0_0_1 (Cert.ReferenceIdeal.Read.val_main_v83 (F := F))
    (Cert.ReferenceIdeal.Read.val_main_v84 (F := F) x20) cntN

/-- Node rows summed over each graph's nodes and divided by a count, the count taken as at least one. -/
def graphMean (rows : FVec F S20000x128 .f32) (cnt : FVec F S16x1 .f32) (x20 : IVec S20000 32) : FVec F S16x128 .f32 :=
  Host.divf
    (Host.scatterAdd Cert.ReferenceIdeal.scatter_S16x128_S20000x1_S20000x128_1_0_0_1 (Cert.ReferenceIdeal.Read.val_main_v79 (F := F))
      (Cert.ReferenceIdeal.Read.val_main_v80 (F := F) x20) rows)
    (broadcastInDim Cert.ReferenceIdeal.S16x128 ![0, 1] Cert.ReferenceIdeal.Gen.bcast_S16x1_S16x128_0_1 (maximumf cnt (Cert.ReferenceIdeal.Read.val_main_v86 (F := F))))

/-- The output layer: ((node means · Wgnᵀ + edge means · Wgeᵀ) + globals · Wggᵀ) + bias. -/
def head (na ea : FVec F S16x128 .f32) (x2 : FVec F S16x16 .f32) (x15 x16 : FVec F S128x128 .f32)
    (x17 : FVec F S128x16 .f32) (x18 : FVec F S128 .f32) : FVec F S16x128 .f32 :=
  addf
    (addf
      (addf (Host.dotGeneral Cert.ReferenceIdeal.dot_S16x128_S128x128_S16x128_1_0_0_1_n_n none na (Cert.ReferenceIdeal.Read.val_main_v101 (F := F) x15))
            (Host.dotGeneral Cert.ReferenceIdeal.dot_S16x128_S128x128_S16x128_1_0_0_1_n_n none ea (Cert.ReferenceIdeal.Read.val_main_v103 (F := F) x16)))
      (Cert.ReferenceIdeal.Read.val_main_v107 (F := F) x2 x17))
    (Cert.ReferenceIdeal.Read.val_main_v110 (F := F) x18)

attribute [local irreducible] Host.scatterAdd Host.gather

/-! ## Before the first region -/

theorem host0_v13 (W : Valuation τ sig (Elt F)) :
    StableHlo.after (hostOps0 (F := F)) W (Proc.devRef .tc main_v13)
      = Cert.ReferenceIdeal.Read.val_main_v41 (F := F) (W (Proc.devRef .tc main_arg2)) (W (Proc.devRef .tc main_arg19)) (W (Proc.devRef .tc main_arg20)) := by
  after_results_simp
  rfl

theorem host0_main_arg0 (W : Valuation τ sig (Elt F)) : StableHlo.after (hostOps0 (F := F)) W (Proc.devRef .tc main_arg0) = W (Proc.devRef .tc main_arg0) := by
  after_results_simp
theorem host0_main_arg1 (W : Valuation τ sig (Elt F)) : StableHlo.after (hostOps0 (F := F)) W (Proc.devRef .tc main_arg1) = W (Proc.devRef .tc main_arg1) := by
  after_results_simp
theorem host0_main_arg2 (W : Valuation τ sig (Elt F)) : StableHlo.after (hostOps0 (F := F)) W (Proc.devRef .tc main_arg2) = W (Proc.devRef .tc main_arg2) := by
  after_results_simp
theorem host0_main_arg3 (W : Valuation τ sig (Elt F)) : StableHlo.after (hostOps0 (F := F)) W (Proc.devRef .tc main_arg3) = W (Proc.devRef .tc main_arg3) := by
  after_results_simp
theorem host0_main_arg4 (W : Valuation τ sig (Elt F)) : StableHlo.after (hostOps0 (F := F)) W (Proc.devRef .tc main_arg4) = W (Proc.devRef .tc main_arg4) := by
  after_results_simp
theorem host0_main_arg5 (W : Valuation τ sig (Elt F)) : StableHlo.after (hostOps0 (F := F)) W (Proc.devRef .tc main_arg5) = W (Proc.devRef .tc main_arg5) := by
  after_results_simp
theorem host0_main_arg6 (W : Valuation τ sig (Elt F)) : StableHlo.after (hostOps0 (F := F)) W (Proc.devRef .tc main_arg6) = W (Proc.devRef .tc main_arg6) := by
  after_results_simp
theorem host0_main_arg7 (W : Valuation τ sig (Elt F)) : StableHlo.after (hostOps0 (F := F)) W (Proc.devRef .tc main_arg7) = W (Proc.devRef .tc main_arg7) := by
  after_results_simp
theorem host0_main_arg8 (W : Valuation τ sig (Elt F)) : StableHlo.after (hostOps0 (F := F)) W (Proc.devRef .tc main_arg8) = W (Proc.devRef .tc main_arg8) := by
  after_results_simp
theorem host0_main_arg9 (W : Valuation τ sig (Elt F)) : StableHlo.after (hostOps0 (F := F)) W (Proc.devRef .tc main_arg9) = W (Proc.devRef .tc main_arg9) := by
  after_results_simp
theorem host0_main_arg10 (W : Valuation τ sig (Elt F)) : StableHlo.after (hostOps0 (F := F)) W (Proc.devRef .tc main_arg10) = W (Proc.devRef .tc main_arg10) := by
  after_results_simp
theorem host0_main_arg11 (W : Valuation τ sig (Elt F)) : StableHlo.after (hostOps0 (F := F)) W (Proc.devRef .tc main_arg11) = W (Proc.devRef .tc main_arg11) := by
  after_results_simp
theorem host0_main_arg12 (W : Valuation τ sig (Elt F)) : StableHlo.after (hostOps0 (F := F)) W (Proc.devRef .tc main_arg12) = W (Proc.devRef .tc main_arg12) := by
  after_results_simp
theorem host0_main_arg13 (W : Valuation τ sig (Elt F)) : StableHlo.after (hostOps0 (F := F)) W (Proc.devRef .tc main_arg13) = W (Proc.devRef .tc main_arg13) := by
  after_results_simp
theorem host0_main_arg14 (W : Valuation τ sig (Elt F)) : StableHlo.after (hostOps0 (F := F)) W (Proc.devRef .tc main_arg14) = W (Proc.devRef .tc main_arg14) := by
  after_results_simp
theorem host0_main_arg15 (W : Valuation τ sig (Elt F)) : StableHlo.after (hostOps0 (F := F)) W (Proc.devRef .tc main_arg15) = W (Proc.devRef .tc main_arg15) := by
  after_results_simp
theorem host0_main_arg16 (W : Valuation τ sig (Elt F)) : StableHlo.after (hostOps0 (F := F)) W (Proc.devRef .tc main_arg16) = W (Proc.devRef .tc main_arg16) := by
  after_results_simp
theorem host0_main_arg17 (W : Valuation τ sig (Elt F)) : StableHlo.after (hostOps0 (F := F)) W (Proc.devRef .tc main_arg17) = W (Proc.devRef .tc main_arg17) := by
  after_results_simp
theorem host0_main_arg18 (W : Valuation τ sig (Elt F)) : StableHlo.after (hostOps0 (F := F)) W (Proc.devRef .tc main_arg18) = W (Proc.devRef .tc main_arg18) := by
  after_results_simp
theorem host0_main_arg19 (W : Valuation τ sig (Elt F)) : StableHlo.after (hostOps0 (F := F)) W (Proc.devRef .tc main_arg19) = W (Proc.devRef .tc main_arg19) := by
  after_results_simp
theorem host0_main_arg20 (W : Valuation τ sig (Elt F)) : StableHlo.after (hostOps0 (F := F)) W (Proc.devRef .tc main_arg20) = W (Proc.devRef .tc main_arg20) := by
  after_results_simp

/-! ## Between the regions -/

theorem host1_v18 (W : Valuation τ sig (Elt F)) :
    StableHlo.after (hostOps1 (F := F)) W (Proc.devRef .tc main_v18) = Cert.ReferenceIdeal.Read.val_main_v19 (F := F) (W (Proc.devRef .tc main_arg19)) := by
  after_results_simp
  rfl

theorem host1_v28 (W : Valuation τ sig (Elt F)) :
    StableHlo.after (hostOps1 (F := F)) W (Proc.devRef .tc main_v28) = aggSum128 (W (Proc.devRef .tc main_v14_1)) (W (Proc.devRef .tc main_arg19)) := by
  after_results_simp
  rfl

theorem host1_v30 (W : Valuation τ sig (Elt F)) :
    StableHlo.after (hostOps1 (F := F)) W (Proc.devRef .tc main_v30)
      = Host.divf (aggSum256 (W (Proc.devRef .tc main_v14_0)) (W (Proc.devRef .tc main_arg19))) (Cert.ReferenceIdeal.Read.val_main_v22 (F := F) (W (Proc.devRef .tc main_arg19))) := by
  after_results_simp
  rfl

theorem host1_v32 (W : Valuation τ sig (Elt F)) :
    StableHlo.after (hostOps1 (F := F)) W (Proc.devRef .tc main_v32)
      = Host.divf (aggSum128 (W (Proc.devRef .tc main_v14_1)) (W (Proc.devRef .tc main_arg19))) (Cert.ReferenceIdeal.Read.val_main_v58 (F := F) (W (Proc.devRef .tc main_arg19))) := by
  after_results_simp
  rfl

theorem host1_v39 (W : Valuation τ sig (Elt F)) :
    StableHlo.after (hostOps1 (F := F)) W (Proc.devRef .tc main_v39)
      = Cert.ReferenceIdeal.Read.val_main_v71 (F := F) (W (Proc.devRef .tc main_arg2)) (W (Proc.devRef .tc main_arg20)) := by
  after_results_simp
  rfl

theorem host1_main_arg0 (W : Valuation τ sig (Elt F)) : StableHlo.after (hostOps1 (F := F)) W (Proc.devRef .tc main_arg0) = W (Proc.devRef .tc main_arg0) := by
  after_results_simp
theorem host1_main_arg2 (W : Valuation τ sig (Elt F)) : StableHlo.after (hostOps1 (F := F)) W (Proc.devRef .tc main_arg2) = W (Proc.devRef .tc main_arg2) := by
  after_results_simp
theorem host1_main_arg5 (W : Valuation τ sig (Elt F)) : StableHlo.after (hostOps1 (F := F)) W (Proc.devRef .tc main_arg5) = W (Proc.devRef .tc main_arg5) := by
  after_results_simp
theorem host1_main_arg6 (W : Valuation τ sig (Elt F)) : StableHlo.after (hostOps1 (F := F)) W (Proc.devRef .tc main_arg6) = W (Proc.devRef .tc main_arg6) := by
  after_results_simp
theorem host1_main_arg7 (W : Valuation τ sig (Elt F)) : StableHlo.after (hostOps1 (F := F)) W (Proc.devRef .tc main_arg7) = W (Proc.devRef .tc main_arg7) := by
  after_results_simp
theorem host1_main_arg11 (W : Valuation τ sig (Elt F)) : StableHlo.after (hostOps1 (F := F)) W (Proc.devRef .tc main_arg11) = W (Proc.devRef .tc main_arg11) := by
  after_results_simp
theorem host1_main_arg12 (W : Valuation τ sig (Elt F)) : StableHlo.after (hostOps1 (F := F)) W (Proc.devRef .tc main_arg12) = W (Proc.devRef .tc main_arg12) := by
  after_results_simp
theorem host1_main_arg13 (W : Valuation τ sig (Elt F)) : StableHlo.after (hostOps1 (F := F)) W (Proc.devRef .tc main_arg13) = W (Proc.devRef .tc main_arg13) := by
  after_results_simp
theorem host1_main_arg14 (W : Valuation τ sig (Elt F)) : StableHlo.after (hostOps1 (F := F)) W (Proc.devRef .tc main_arg14) = W (Proc.devRef .tc main_arg14) := by
  after_results_simp
theorem host1_main_arg15 (W : Valuation τ sig (Elt F)) : StableHlo.after (hostOps1 (F := F)) W (Proc.devRef .tc main_arg15) = W (Proc.devRef .tc main_arg15) := by
  after_results_simp
theorem host1_main_arg16 (W : Valuation τ sig (Elt F)) : StableHlo.after (hostOps1 (F := F)) W (Proc.devRef .tc main_arg16) = W (Proc.devRef .tc main_arg16) := by
  after_results_simp
theorem host1_main_arg17 (W : Valuation τ sig (Elt F)) : StableHlo.after (hostOps1 (F := F)) W (Proc.devRef .tc main_arg17) = W (Proc.devRef .tc main_arg17) := by
  after_results_simp
theorem host1_main_arg18 (W : Valuation τ sig (Elt F)) : StableHlo.after (hostOps1 (F := F)) W (Proc.devRef .tc main_arg18) = W (Proc.devRef .tc main_arg18) := by
  after_results_simp
theorem host1_main_arg20 (W : Valuation τ sig (Elt F)) : StableHlo.after (hostOps1 (F := F)) W (Proc.devRef .tc main_arg20) = W (Proc.devRef .tc main_arg20) := by
  after_results_simp

/-! ## After the second region -/

theorem host2_v72 (W : Valuation τ sig (Elt F)) :
    StableHlo.after (hostOps2 (F := F)) W (Proc.devRef .tc main_v72)
      = head (graphMean (W (Proc.devRef .tc main_v40)) (Cert.ReferenceIdeal.Read.val_main_v85 (F := F) (W (Proc.devRef .tc main_arg20))) (W (Proc.devRef .tc main_arg20)))
          (graphMean (W (Proc.devRef .tc main_v28)) (cnt16 (W (Proc.devRef .tc main_v18)) (W (Proc.devRef .tc main_arg20))) (W (Proc.devRef .tc main_arg20)))
          (W (Proc.devRef .tc main_arg2)) (W (Proc.devRef .tc main_arg15)) (W (Proc.devRef .tc main_arg16)) (W (Proc.devRef .tc main_arg17)) (W (Proc.devRef .tc main_arg18)) := by
  after_results_simp
  rfl

end Cert.KernelIdeal.HostSide

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«173816_j89103391522964_2_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.LibBlockOfWhole.lean ====
/-
  Row blocks of whole-array computations, at the ideal values.

  An [N, C] array is cut into blocks of R consecutive rows; the block that starts at row o holds rows o … o + R − 1.
  Every operation of a dense network acts on each row by itself, so computing on a block gives the block of the
  whole-array result: the product of a row block with a weight matrix is the row block of the product; a bias
  vector stretched down R rows is the row block of the vector stretched down N rows; a column stretched across the
  columns, a constant, a sum, a product, a maximum and the logistic function all commute with taking the block.
  The 0/1 mask of "this row's task is t", computed on a block by comparing the block's task column with t, is the
  block of column t of the one-hot array of all tasks.  The logistic function is the quotient 1 / (1 + exp (−z)) by
  definition, and the bit pattern of 1.0 denotes 1.
-/
import Idealize.ShloMosaic.PureOps.Ideal.Laws
import Idealize.ShloMosaic.Lib.ValueIdx
import Idealize.ShloMosaic.Lib.Pipeline.Value
import Idealize.ShloMosaic.Lib.KernelVsHost
import proofs.«173816_j89103391522964_2_alg».proof.Proof.LibRowBlocks

noncomputable section

namespace Cert.Blocks

open Idealize.ShloMosaic Idealize.ShloMosaic.ValueIdx Cert.Lib.PlainDot Cert.Bridge
open scoped BigOperators

variable {R N K C : Nat}

/-- Entry (p, c) of the block that starts at row o sits at entry (o + p, c) of the array. -/
def shiftRow (o : Nat) (h : o + R ≤ N) (y : (⟨2, ![R, C]⟩ : Shape).Idx) : (⟨2, ![N, C]⟩ : Shape).Idx := fun a => match a with
  | ⟨0, _⟩ => ⟨o + (y 0).val, Nat.lt_of_lt_of_le (Nat.add_lt_add_left (y 0).isLt o) h⟩
  | ⟨1, _⟩ => ⟨(y 1).val, (y 1).isLt⟩

/-- The block of R rows of an array that starts at row o. -/
def rowBlk {α : Type} (o : Nat) (h : o + R ≤ N) (A : (⟨2, ![N, C]⟩ : Shape).Idx → α) : (⟨2, ![R, C]⟩ : Shape).Idx → α :=
  fun y => A (shiftRow o h y)

theorem rowBlk_apply {α : Type} (o : Nat) (h : o + R ≤ N) (A : (⟨2, ![N, C]⟩ : Shape).Idx → α)
    (y : (⟨2, ![R, C]⟩ : Shape).Idx) : rowBlk o h A y = A (shiftRow o h y) := rfl

theorem shiftRow_rowIdx (o : Nat) (h : o + R ≤ N) (y : (⟨2, ![R, C]⟩ : Shape).Idx) (k : Fin K) :
    shiftRow o h (rowIdx y k) = rowIdx (shiftRow o h y) k :=
  funext fun a => Fin.ext (by match a with | ⟨0, _⟩ => rfl | ⟨1, _⟩ => rfl)

theorem shiftRow_colIdx (o : Nat) (h : o + R ≤ N) (y : (⟨2, ![R, C]⟩ : Shape).Idx) (k : Fin K) :
    (colIdx y k : (⟨2, ![K, C]⟩ : Shape).Idx) = colIdx (shiftRow o h y) k :=
  funext fun a => Fin.ext (by match a with | ⟨0, _⟩ => rfl | ⟨1, _⟩ => rfl)

theorem shiftRow_rowZero (o : Nat) (h : o + R ≤ N) (y : (⟨2, ![R, C]⟩ : Shape).Idx) :
    (rowZero y : (⟨2, ![1, C]⟩ : Shape).Idx) = rowZero (shiftRow o h y) :=
  funext fun a => Fin.ext (by match a with | ⟨0, _⟩ => rfl | ⟨1, _⟩ => rfl)

/-! ## Pointwise operations -/

/-- A change of float format is the identity on the extended reals. -/
theorem truncf_ideal {s : Shape} {φ ψ : FTy} (hψ : ψ.bits < φ.bits) (v : FVec Ideal s φ) :
    (truncf ψ v hψ : FVec Ideal s ψ) = v := rfl

theorem addf_rowBlk {φ : FTy} (o : Nat) (h : o + R ≤ N) (A B : FVec Ideal ⟨2, ![N, C]⟩ φ) :
    addf (rowBlk o h A) (rowBlk o h B) = rowBlk o h (addf A B) := rfl

theorem mulf_rowBlk {φ : FTy} (o : Nat) (h : o + R ≤ N) (A B : FVec Ideal ⟨2, ![N, C]⟩ φ) :
    mulf (rowBlk o h A) (rowBlk o h B) = rowBlk o h (mulf A B) := rfl

theorem maximumf_rowBlk {φ : FTy} (o : Nat) (h : o + R ≤ N) (A B : FVec Ideal ⟨2, ![N, C]⟩ φ) :
    maximumf (rowBlk o h A) (rowBlk o h B) = rowBlk o h (maximumf A B) := rfl

/-- A constant array is the block of the constant array. -/
theorem splat_rowBlk (o : Nat) (h : o + R ≤ N) (z : BitVec 32)
    (hZ : (⟨0, ![]⟩ : Shape).BroadcastsInDim ⟨2, ![N, C]⟩ ![]) :
    (broadcast ⟨2, ![R, C]⟩ (Scalar.ofBits (F := Ideal) .f32 z) : FVec Ideal ⟨2, ![R, C]⟩ .f32)
      = rowBlk o h (broadcastInDim ⟨2, ![N, C]⟩ ![] hZ (constant (F := Ideal) ⟨0, ![]⟩ .f32 z)) := by
  funext y
  rw [rowBlk_apply, hostSplat_apply]
  rfl

/-! ## The dense layer's pieces -/

/-- The product of a row block with a weight matrix is the row block of the product. -/
theorem matmul_rowBlk {φ₁ φ₂ : FTy} (o : Nat) (h : o + R ≤ N)
    (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (X : FVec Ideal ⟨2, ![N, K]⟩ φ₁) (W : FVec Ideal ⟨2, ![K, C]⟩ φ₂) :
    matmul d none (rowBlk o h X) W (constant ⟨2, ![R, C]⟩ .f32 0x00000000#32) = rowBlk o h (Host.dotGeneral D none X W) :=
  funext fun y => dot_block d hd D hD none none X W (rowBlk o h X) W (shiftRow o h) id (shiftRow o h)
    (fun _ => rfl) (fun _ => rfl) (fun y k => shiftRow_rowIdx o h y k) (fun y k => shiftRow_colIdx o h y k) y

/-- A bias vector laid out as one row and stretched down R rows is the row block of the vector broadcast along a new
    leading axis and then down N rows. -/
theorem biasRow_rowBlk {φ : FTy} (o : Nat) (h : o + R ≤ N) (v : FVec Ideal ⟨1, ![C]⟩ φ)
    (h2 : (⟨1, ![C]⟩ : Shape).ShapeCasts ⟨2, ![1, C]⟩) (hb : (⟨2, ![1, C]⟩ : Shape).Broadcasts ⟨2, ![R, C]⟩)
    (hb' : (⟨1, ![C]⟩ : Shape).BroadcastsInDim ⟨2, ![1, C]⟩ ![1])
    (hB : (⟨2, ![1, C]⟩ : Shape).BroadcastsInDim ⟨2, ![N, C]⟩ ![0, 1]) :
    broadcastTo ⟨2, ![R, C]⟩ (shapeCast ⟨2, ![1, C]⟩ v h2) hb
      = rowBlk o h (broadcastInDim ⟨2, ![N, C]⟩ ![0, 1] hB (broadcastInDim ⟨2, ![1, C]⟩ ![1] hb' v)) := by
  funext y
  rw [rowBlk_apply, stretchRow_apply, hostStretchRow_apply, reshapeRow_eq v h2 hb', shiftRow_rowZero o h y]

/-- Entry (p, 0) of a one-column matrix, for the row p of the entry `j`. -/
abbrev colZero {A : Nat} (j : (⟨2, ![A, C]⟩ : Shape).Idx) : (⟨2, ![A, 1]⟩ : Shape).Idx := fun a => match a with
  | ⟨0, _⟩ => ⟨(j 0).val, (j 0).isLt⟩
  | ⟨1, _⟩ => ⟨0, Nat.one_pos⟩

/-- A column stretched across C columns, on a block, is the block of the column stretched across C columns. -/
theorem colStretch_rowBlk {α : Type} (o : Nat) (h : o + R ≤ N) (M : (⟨2, ![N, 1]⟩ : Shape).Idx → α)
    (hb : (⟨2, ![R, 1]⟩ : Shape).Broadcasts ⟨2, ![R, C]⟩)
    (hB : (⟨2, ![N, 1]⟩ : Shape).BroadcastsInDim ⟨2, ![N, C]⟩ ![0, 1]) :
    broadcastTo ⟨2, ![R, C]⟩ (rowBlk (C := 1) o h M) hb = rowBlk o h (broadcastInDim ⟨2, ![N, C]⟩ ![0, 1] hB M) := by
  funext y
  have e1 : broadcastTo ⟨2, ![R, C]⟩ (rowBlk (C := 1) o h M) hb y = rowBlk (C := 1) o h M (colZero y) :=
    broadcastTo_apply _ hb y (colZero y) (fun a => by
      match a with
      | ⟨0, _⟩ =>
        show (y 0).val = if R = 1 then 0 else (y 0).val
        have hlt : (y 0).val < R := (y 0).isLt
        split_ifs with hR
        · omega
        · rfl
      | ⟨1, _⟩ => exact (if_pos rfl).symm)
  have e2 : broadcastInDim ⟨2, ![N, C]⟩ ![0, 1] hB M (shiftRow o h y) = M (colZero (shiftRow o h y)) :=
    broadcastInDim_apply ![0, 1] hB M (shiftRow o h y) (colZero (shiftRow o h y)) (fun a => by
      match a with
      | ⟨0, _⟩ =>
        show o + (y 0).val = if N = 1 then 0 else o + (y 0).val
        have hlt : (y 0).val < R := (y 0).isLt
        split_ifs with hN
        · omega
        · rfl
      | ⟨1, _⟩ => exact (if_pos rfl).symm)
  rw [e1, rowBlk_apply, rowBlk_apply, e2]
  exact congrArg M (funext fun a => Fin.ext (by match a with | ⟨0, _⟩ => rfl | ⟨1, _⟩ => rfl))

/-! ## The task mask -/

/-- The block's 0/1 flag "the row's task word is t" is the block of column t of the one-hot array of the tasks:
    a one-bit comparison widened to 32 bits and read as a signed number is the bit read as an unsigned number,
    and column t of the counting row 0, 1, 2, 3 stretched down the rows holds the word t. -/
theorem mask_rowBlk (o : Nat) (h : o + R ≤ N) (BT : IVec ⟨1, ![N]⟩ 32) (t : Nat) (ht : t < 4) (w : BitVec 32)
    (hw : w = BitVec.ofNat 32 t) (hlt : 1 < 32)
    (hs : (⟨1, ![N]⟩ : Shape).ShapeCasts ⟨2, ![N, 1]⟩)
    (h1 : (⟨1, ![N]⟩ : Shape).BroadcastsInDim ⟨2, ![N, 1]⟩ ![0])
    (h2 : (⟨2, ![N, 1]⟩ : Shape).BroadcastsInDim ⟨2, ![N, 4]⟩ ![0, 1])
    (h3 : (⟨2, ![1, 4]⟩ : Shape).BroadcastsInDim ⟨2, ![N, 4]⟩ ![0, 1])
    (hsl : (⟨2, ![N, 4]⟩ : Shape).Slices ![0, t] ⟨2, ![N, 1]⟩) :
    (sitofp .f32 (extui 32 (cmpi .eq (rowBlk (C := 1) o h (shapeCast ⟨2, ![N, 1]⟩ BT hs)) (broadcast ⟨2, ![R, 1]⟩ w)) hlt)
        : FVec Ideal ⟨2, ![R, 1]⟩ .f32)
      = rowBlk (C := 1) o h (extractStridedSlice ⟨2, ![N, 1]⟩ ![0, t]
          (uitofp (F := Ideal) .f32 (cmpi .eq (broadcastInDim ⟨2, ![N, 4]⟩ ![0, 1] h2 (broadcastInDim ⟨2, ![N, 1]⟩ ![0] h1 BT))
            (broadcastInDim ⟨2, ![N, 4]⟩ ![0, 1] h3 (iotaInDim ⟨2, ![1, 4]⟩ 32 1)))) hsl) := by
  rw [sitofp_extui_eq_uitofp]
  funext y
  rw [rowBlk_apply]
  have hlt : (y 0).val < R := (y 0).isLt
  have hy1 : (y 1).val < 1 := (y 1).isLt
  have hi : o + (y 0).val < N := by omega
  have eL : shapeCast ⟨2, ![N, 1]⟩ BT hs (shiftRow o h y) = BT (ix1 (⟨o + (y 0).val, hi⟩ : Fin N)) :=
    shapeCast_apply BT hs _ (ix1 (⟨o + (y 0).val, hi⟩ : Fin N)) (by
      rw [Shape.rowMajor_val_one, Shape.rowMajor_val_two]
      show o + (y 0).val = (o + (y 0).val) * 1 + (y 1).val
      omega)
  have eS : ∀ G : (⟨2, ![N, 4]⟩ : Shape).Idx → EReal,
      extractStridedSlice ⟨2, ![N, 1]⟩ ![0, t] G hsl (shiftRow o h y)
        = G (ix2 (⟨o + (y 0).val, hi⟩ : Fin N) (⟨t, ht⟩ : Fin 4)) := fun G =>
    extractStridedSlice_apply _ G hsl _ (ix2 (⟨o + (y 0).val, hi⟩ : Fin N) (⟨t, ht⟩ : Fin 4)) (fun a => by
      match a with
      | ⟨0, _⟩ => exact (Nat.zero_add _).symm
      | ⟨1, _⟩ =>
        show t = t + (y 1).val
        omega)
  have eP : broadcastInDim ⟨2, ![N, 4]⟩ ![0, 1] h2 (broadcastInDim ⟨2, ![N, 1]⟩ ![0] h1 BT)
      (ix2 (⟨o + (y 0).val, hi⟩ : Fin N) (⟨t, ht⟩ : Fin 4)) = BT (ix1 (⟨o + (y 0).val, hi⟩ : Fin N)) := by
    rw [broadcastInDim_apply ![0, 1] h2 _ _ (ix2 (⟨o + (y 0).val, hi⟩ : Fin N) (0 : Fin 1)) (fun a => by
        match a with
        | ⟨0, _⟩ =>
          show o + (y 0).val = if N = 1 then 0 else o + (y 0).val
          split_ifs with hN
          · omega
          · rfl
        | ⟨1, _⟩ => exact (if_pos rfl).symm),
      broadcastInDim_apply ![0] h1 BT _ (ix1 (⟨o + (y 0).val, hi⟩ : Fin N)) (fun a => by
        match a with
        | ⟨0, _⟩ =>
          show o + (y 0).val = if N = 1 then 0 else o + (y 0).val
          split_ifs with hN
          · omega
          · rfl)]
  have eQ : broadcastInDim ⟨2, ![N, 4]⟩ ![0, 1] h3 (iotaInDim ⟨2, ![1, 4]⟩ 32 1)
      (ix2 (⟨o + (y 0).val, hi⟩ : Fin N) (⟨t, ht⟩ : Fin 4)) = BitVec.ofNat 32 t := by
    rw [broadcastInDim_apply ![0, 1] h3 _ _ (ix2 (0 : Fin 1) (⟨t, ht⟩ : Fin 4)) (fun a => by
        match a with
        | ⟨0, _⟩ => exact (if_pos rfl).symm
        | ⟨1, _⟩ =>
          show t = if (4 : Nat) = 1 then 0 else t
          rw [if_neg (by decide)])]
    rfl
  rw [eS]
  show FloatOps.uitofp .f32 (IntOp.cmpi .eq (shapeCast ⟨2, ![N, 1]⟩ BT hs (shiftRow o h y)) w)
    = FloatOps.uitofp .f32 (IntOp.cmpi .eq
        (broadcastInDim ⟨2, ![N, 4]⟩ ![0, 1] h2 (broadcastInDim ⟨2, ![N, 1]⟩ ![0] h1 BT)
          (ix2 (⟨o + (y 0).val, hi⟩ : Fin N) (⟨t, ht⟩ : Fin 4)))
        (broadcastInDim ⟨2, ![N, 4]⟩ ![0, 1] h3 (iotaInDim ⟨2, ![1, 4]⟩ 32 1)
          (ix2 (⟨o + (y 0).val, hi⟩ : Fin N) (⟨t, ht⟩ : Fin 4))))
  rw [eL, eP, eQ, hw]

/-! ## The logistic function -/

/-- The bit pattern of 1.0 denotes the real number 1. -/
theorem ofBits_one_f32 : Ideal.ofBits .f32 0x3F800000#32 = 1 := by
  simp [Ideal.ofBits, Ideal.ieee, -EReal.coe_mul]; norm_num

/-- The logistic function of a block is the block of the quotient 1 / (1 + exp (−z)). -/
theorem logistic_rowBlk (o : Nat) (h : o + R ≤ N) (Z : FVec Ideal ⟨2, ![N, C]⟩ .f32)
    (h1 : (⟨0, ![]⟩ : Shape).BroadcastsInDim ⟨2, ![N, C]⟩ ![]) :
    logistic (rowBlk o h Z)
      = rowBlk o h (Host.divf (broadcastInDim ⟨2, ![N, C]⟩ ![] h1 (constant (F := Ideal) ⟨0, ![]⟩ .f32 0x3F800000#32))
          (addf (broadcastInDim ⟨2, ![N, C]⟩ ![] h1 (constant (F := Ideal) ⟨0, ![]⟩ .f32 0x3F800000#32)) (Host.exp (Host.negf Z)))) := by
  funext y
  rw [rowBlk_apply]
  have hsplat : ∀ i, broadcastInDim ⟨2, ![N, C]⟩ ![] h1 (constant (F := Ideal) ⟨0, ![]⟩ .f32 0x3F800000#32) i = 1 :=
    fun i => (hostSplat_apply _ h1 i).trans ofBits_one_f32
  show Ideal.logistic (Z (shiftRow o h y))
    = Ideal.div (broadcastInDim ⟨2, ![N, C]⟩ ![] h1 (constant (F := Ideal) ⟨0, ![]⟩ .f32 0x3F800000#32) (shiftRow o h y))
        (broadcastInDim ⟨2, ![N, C]⟩ ![] h1 (constant (F := Ideal) ⟨0, ![]⟩ .f32 0x3F800000#32) (shiftRow o h y)
          + Ideal.exp (-(Z (shiftRow o h y))))
  rw [hsplat]
  rfl

end Cert.Blocks

end
-- ==== Proof.LibRowBlockOps.lean ====
/-
  Row blocks of the two elementwise epilogues of a graph-convolution layer, at the ideal values.

  A block of R consecutive rows of an [N, C] array is `rowBlk o h A` (rows o … o + R − 1).  Comparing, selecting,
  adding and multiplying act entry by entry, so each commutes with taking the block.  Adding a bias vector to every
  row of the block gives the block of the array with the bias added to every row; the leaky rectifier
  v ↦ (v ≥ z ? v : s · v) of the block is the block of the leaky rectifier of the array.
-/
import proofs.«173816_j89103391522964_2_alg».proof.Proof.LibBlockOfWhole

noncomputable section

namespace Cert.Gcn

open Idealize.ShloMosaic Idealize.ShloMosaic.ValueIdx Cert.Blocks Cert.Bridge

/-- The zero offsets of whole-buffer accesses of rank two and one. -/
theorem hz2 : (![0, 0] : Fin 2 → Nat) = fun _ => 0 := funext fun a => by fin_cases a <;> rfl
theorem hz1 : (![0] : Fin 1 → Nat) = fun _ => 0 := funext fun a => by fin_cases a; rfl

variable {R N C : Nat}

/-- An entrywise comparison of two blocks is the block of the comparison. -/
theorem cmpf_rowBlk {φ : FTy} (p : CmpFPredicate) (o : Nat) (h : o + R ≤ N) (A B : FVec Ideal ⟨2, ![N, C]⟩ φ) :
    cmpf p (rowBlk o h A) (rowBlk o h B) = rowBlk o h (cmpf p A B) := rfl

/-- An entrywise choice between two blocks by a block of flags is the block of the choice. -/
theorem select_rowBlk {α : Type} (o : Nat) (h : o + R ≤ N) (M : IVec ⟨2, ![N, C]⟩ 1)
    (A B : (⟨2, ![N, C]⟩ : Shape).Idx → α) :
    select (rowBlk o h M) (rowBlk o h A) (rowBlk o h B) = rowBlk o h (select M A B) := rfl

/-- The bias vector added to every row of a block is the block of the bias added to every row of the array. -/
theorem biasAdd_rowBlk (o : Nat) (h : o + R ≤ N) (Z : FVec Ideal ⟨2, ![N, C]⟩ .f32) (b : FVec Ideal ⟨1, ![C]⟩ .f32)
    (hs : (⟨2, ![R, C]⟩ : Shape).ShapeCasts ⟨2, ![R, C]⟩)
    (h2 : (⟨1, ![C]⟩ : Shape).ShapeCasts ⟨2, ![1, C]⟩) (hb : (⟨2, ![1, C]⟩ : Shape).Broadcasts ⟨2, ![R, C]⟩)
    (hb' : (⟨1, ![C]⟩ : Shape).BroadcastsInDim ⟨2, ![1, C]⟩ ![1])
    (hB : (⟨2, ![1, C]⟩ : Shape).BroadcastsInDim ⟨2, ![N, C]⟩ ![0, 1]) :
    addf (shapeCast ⟨2, ![R, C]⟩ (rowBlk o h Z) hs) (broadcastTo ⟨2, ![R, C]⟩ (shapeCast ⟨2, ![1, C]⟩ b h2) hb)
      = rowBlk o h (addf Z (broadcastInDim ⟨2, ![N, C]⟩ ![0, 1] hB (broadcastInDim ⟨2, ![1, C]⟩ ![1] hb' b))) := by
  rw [shapeCast_self, biasRow_rowBlk o h b h2 hb hb' hB, addf_rowBlk]

/-- The leaky rectifier of a block, v ↦ (v ≥ z ? v : s · v) with z and s splat constants, is the block of the leaky
    rectifier of the array. -/
theorem leaky_rowBlk (o : Nat) (h : o + R ≤ N) (V : FVec Ideal ⟨2, ![N, C]⟩ .f32) (z s : BitVec 32)
    (hZ : (⟨0, ![]⟩ : Shape).BroadcastsInDim ⟨2, ![N, C]⟩ ![]) :
    select (cmpf .oge (rowBlk o h V) (broadcast ⟨2, ![R, C]⟩ (Scalar.ofBits (F := Ideal) .f32 z)))
        (rowBlk o h V) (mulf (broadcast ⟨2, ![R, C]⟩ (Scalar.ofBits (F := Ideal) .f32 s)) (rowBlk o h V))
      = rowBlk o h (select (cmpf .oge V (broadcastInDim ⟨2, ![N, C]⟩ ![] hZ (constant (F := Ideal) ⟨0, ![]⟩ .f32 z)))
          V (mulf (broadcastInDim ⟨2, ![N, C]⟩ ![] hZ (constant (F := Ideal) ⟨0, ![]⟩ .f32 s)) V)) := by
  rw [splat_rowBlk o h z hZ, splat_rowBlk o h s hZ, cmpf_rowBlk, mulf_rowBlk, select_rowBlk]

end Cert.Gcn

end
-- ==== Proof.Region0.lean ====
/-
  The edge stage: what the first kernel region leaves in its two output arrays, as whole-array functions.

  The region walks the 320000 edges in 32 blocks of 10000 consecutive rows. At a point t the body reads rows
  10000·t … 10000·t + 9999 of the edge features and of the gathered global rows, and all of every weight and bias.
  Every operation of the two dense layers acts on each row by itself, so what the body stores is the same block of
  rows of the whole-array computation: e1 = max(X·We1ᵀ + be1, 0) and e2 = max((e1·We2ᵀ + G·Wg2ᵀ) + be2, 0), with the
  narrowing to a shorter float format the identity on the extended reals. The 32 blocks tile the arrays, so the
  arrays end holding e1 and e2.
-/
import proofs.«173816_j89103391522964_2_alg».proof.Proof.Gen.KernelIdeal.Frame
import proofs.«173816_j89103391522964_2_alg».proof.Proof.RefImports
import proofs.«173816_j89103391522964_2_alg».proof.Proof.LibRowBlockOps
import Idealize.ShloMosaic.Lib.Pipeline.Value
import Idealize.ShloMosaic.Lib.ValueIdx

set_option maxRecDepth 16384

noncomputable section

namespace Cert.KernelIdeal.Edge

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Blocks Cert.Gcn

/-- The second edge layer as one function of the first layer's output, the gathered global rows and the weights. -/
def edge2 {F : FTy → Type} [FloatOps F] (e1 : FVec F S320000x256 .f32) (g : FVec F S320000x16 .f32)
    (w8 : FVec F S128x256 .f32) (w9 : FVec F S128x16 .f32) (b10 : FVec F S128 .f32) : FVec F S320000x128 .f32 :=
  maximumf
    (addf
      (addf (Host.dotGeneral Cert.ReferenceIdeal.dot_S320000x256_S256x128_S320000x128_1_0_0_1_n_n none e1
              (transpose Cert.ReferenceIdeal.S256x128 [1, 0] w8 Cert.ReferenceIdeal.Gen.transposes_S128x256_S256x128_1_0))
            (Host.dotGeneral Cert.ReferenceIdeal.dot_S320000x16_S16x128_S320000x128_1_0_0_1_n_n none g
              (transpose Cert.ReferenceIdeal.S16x128 [1, 0] w9 Cert.ReferenceIdeal.Gen.transposes_S128x16_S16x128_1_0)))
      (broadcastInDim Cert.ReferenceIdeal.S320000x128 ![0, 1] Cert.ReferenceIdeal.Gen.bcast_S1x128_S320000x128_0_1
        (broadcastInDim Cert.ReferenceIdeal.S1x128 ![1] Cert.ReferenceIdeal.Gen.bcast_S128_S1x128_1 b10)))
    (broadcastInDim Cert.ReferenceIdeal.S320000x128 ![] Cert.ReferenceIdeal.Gen.bcast_S_S320000x128
      (constant (F := F) Cert.ReferenceIdeal.S_ .f32 0x00000000#32))

/-- The printed index maps over the 32 points: the row-blocked windows sit at block t, the weights at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem tN (t : Fin cfg0.N) : t.val * 10000 + 10000 ≤ 320000 := by
  have h : t.val < 32 := lt_of_lt_of_eq t.isLt N_0
  omega

/-- The first layer on a block of rows is the block of the first layer of the whole array. -/
theorem pay1_rowBlk (o : Nat) (h : o + 10000 ≤ 320000) (X : FVec Ideal S320000x32 .f32) (W : FVec Ideal S256x32 .f32)
    (b : FVec Ideal S256 .f32) :
    k0_pay1 (F := Ideal) (rowBlk o h X) W b = rowBlk o h (Cert.ReferenceIdeal.Read.val_main_v12 (F := Ideal) X W b) := by
  unfold k0_pay1 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_call0_v0 Cert.ReferenceIdeal.Read.val_main_call0_cst
  simp only [truncf_ideal]
  exact congrArg₂ maximumf
    (congrArg₂ addf
      (matmul_rowBlk o h dot_S10000x32_S32x256_S10000x256_1_0_0_1_n_n rfl
        Cert.ReferenceIdeal.dot_S320000x32_S32x256_S320000x256_1_0_0_1_n_n rfl X _)
      (biasRow_rowBlk o h b shapeCasts_S256_S1x256 broadcasts_S1x256_S10000x256
        Cert.ReferenceIdeal.Gen.bcast_S256_S1x256_1 Cert.ReferenceIdeal.Gen.bcast_S1x256_S320000x256_0_1))
    (splat_rowBlk o h 0x00000000#32 Cert.ReferenceIdeal.Gen.bcast_S_S320000x256)

/-- The second layer on a block of rows is the block of the second layer of the whole arrays. -/
theorem pay2_rowBlk (o : Nat) (h : o + 10000 ≤ 320000) (X : FVec Ideal S320000x32 .f32) (W3 : FVec Ideal S256x32 .f32)
    (b4 : FVec Ideal S256 .f32) (W8 : FVec Ideal S128x256 .f32) (G : FVec Ideal S320000x16 .f32)
    (W9 : FVec Ideal S128x16 .f32) (b10 : FVec Ideal S128 .f32) :
    k0_pay2 (F := Ideal) (rowBlk o h X) W3 b4 W8 (rowBlk o h G) W9 b10
      = rowBlk o h (edge2 (F := Ideal) (Cert.ReferenceIdeal.Read.val_main_v12 (F := Ideal) X W3 b4) G W8 W9 b10) := by
  unfold k0_pay2 edge2
  simp only [truncf_ideal, shapeCast_self]
  exact congrArg₂ maximumf
    (congrArg₂ addf
      (congrArg₂ addf
        ((congrArg (fun a => matmul dot_S10000x256_S256x128_S10000x128_1_0_0_1_n_n none a
            (transpose S256x128 [1, 0] W8 transposes_S128x256_p1_0_S256x128) (constant S10000x128 .f32 0x00000000#32))
            (pay1_rowBlk o h X W3 b4)).trans
          (matmul_rowBlk o h dot_S10000x256_S256x128_S10000x128_1_0_0_1_n_n rfl
            Cert.ReferenceIdeal.dot_S320000x256_S256x128_S320000x128_1_0_0_1_n_n rfl _ _))
        (matmul_rowBlk o h dot_S10000x16_S16x128_S10000x128_1_0_0_1_n_n rfl
          Cert.ReferenceIdeal.dot_S320000x16_S16x128_S320000x128_1_0_0_1_n_n rfl G _))
      (biasRow_rowBlk o h b10 shapeCasts_S128_S1x128 broadcasts_S1x128_S10000x128
        Cert.ReferenceIdeal.Gen.bcast_S128_S1x128_1 Cert.ReferenceIdeal.Gen.bcast_S1x128_S320000x128_0_1))
    (splat_rowBlk o h 0x00000000#32 Cert.ReferenceIdeal.Gen.bcast_S_S320000x128)

variable (V : (c : Dev nD) → (b : Ref sig .tc) → Buf (Elt Ideal) ((c : Thread nD τ).loc b))

/-! ## The windows' blocks at a point -/

theorem blk0 (c : Dev nD) (t : Fin cfg0.N) : iblk0 V c 0 t = rowBlk (t.val * 10000) (tN t) (V c main_arg1) := by
  funext y
  show V c main_arg1 (((cfg0.win 0).blk t).view.emb y) = V c main_arg1 (shiftRow (t.val * 10000) (tN t) y)
  congr 1
  funext a; apply Fin.ext
  obtain ⟨e0, e1, -⟩ := idx_facts t
  match a with
  | ⟨0, _⟩ => show win0_0.index t (0 : Fin 2) * 10000 + 1 * (y 0).val = t.val * 10000 + (y 0).val; rw [e0]; omega
  | ⟨1, _⟩ => show win0_0.index t (1 : Fin 2) * 32 + 1 * (y 1).val = (y 1).val; rw [e1]; omega

theorem blk1 (c : Dev nD) (t : Fin cfg0.N) : iblk0 V c 1 t = rowBlk (t.val * 10000) (tN t) (V c main_v13) := by
  funext y
  show V c main_v13 (((cfg0.win 1).blk t).view.emb y) = V c main_v13 (shiftRow (t.val * 10000) (tN t) y)
  congr 1
  funext a; apply Fin.ext
  obtain ⟨-, -, e0, e1, -⟩ := idx_facts t
  match a with
  | ⟨0, _⟩ => show win0_1.index t (0 : Fin 2) * 10000 + 1 * (y 0).val = t.val * 10000 + (y 0).val; rw [e0]; omega
  | ⟨1, _⟩ => show win0_1.index t (1 : Fin 2) * 16 + 1 * (y 1).val = (y 1).val; rw [e1]; omega

theorem blk2 (c : Dev nD) (t : Fin cfg0.N) : iblk0 V c 2 t = V c main_arg3 := by
  funext y
  show V c main_arg3 (((cfg0.win 2).blk t).view.emb y) = V c main_arg3 y
  congr 1
  funext a; apply Fin.ext
  obtain ⟨-, -, -, -, e0, e1, -⟩ := idx_facts t
  match a with
  | ⟨0, _⟩ => show win0_2.index t (0 : Fin 2) * 256 + 1 * (y 0).val = (y 0).val; rw [e0]; omega
  | ⟨1, _⟩ => show win0_2.index t (1 : Fin 2) * 32 + 1 * (y 1).val = (y 1).val; rw [e1]; omega

theorem blk3 (c : Dev nD) (t : Fin cfg0.N) : iblk0 V c 3 t = V c main_arg4 := by
  funext y
  show V c main_arg4 (((cfg0.win 3).blk t).view.emb y) = V c main_arg4 y
  congr 1
  funext a; apply Fin.ext
  obtain ⟨-, -, -, -, -, -, e0, -⟩ := idx_facts t
  match a with
  | ⟨0, _⟩ => show win0_3.index t (0 : Fin 1) * 256 + 1 * (y 0).val = (y 0).val; rw [e0]; omega

theorem blk4 (c : Dev nD) (t : Fin cfg0.N) : iblk0 V c 4 t = V c main_arg8 := by
  funext y
  show V c main_arg8 (((cfg0.win 4).blk t).view.emb y) = V c main_arg8 y
  congr 1
  funext a; apply Fin.ext
  obtain ⟨-, -, -, -, -, -, -, e0, e1, -⟩ := idx_facts t
  match a with
  | ⟨0, _⟩ => show win0_4.index t (0 : Fin 2) * 128 + 1 * (y 0).val = (y 0).val; rw [e0]; omega
  | ⟨1, _⟩ => show win0_4.index t (1 : Fin 2) * 256 + 1 * (y 1).val = (y 1).val; rw [e1]; omega

theorem blk5 (c : Dev nD) (t : Fin cfg0.N) : iblk0 V c 5 t = V c main_arg9 := by
  funext y
  show V c main_arg9 (((cfg0.win 5).blk t).view.emb y) = V c main_arg9 y
  congr 1
  funext a; apply Fin.ext
  obtain ⟨-, -, -, -, -, -, -, -, -, e0, e1, -⟩ := idx_facts t
  match a with
  | ⟨0, _⟩ => show win0_5.index t (0 : Fin 2) * 128 + 1 * (y 0).val = (y 0).val; rw [e0]; omega
  | ⟨1, _⟩ => show win0_5.index t (1 : Fin 2) * 16 + 1 * (y 1).val = (y 1).val; rw [e1]; omega

theorem blk6 (c : Dev nD) (t : Fin cfg0.N) : iblk0 V c 6 t = V c main_arg10 := by
  funext y
  show V c main_arg10 (((cfg0.win 6).blk t).view.emb y) = V c main_arg10 y
  congr 1
  funext a; apply Fin.ext
  obtain ⟨-, -, -, -, -, -, -, -, -, -, -, e0, -⟩ := idx_facts t
  match a with
  | ⟨0, _⟩ => show win0_6.index t (0 : Fin 1) * 128 + 1 * (y 0).val = (y 0).val; rw [e0]; omega

/-- Reading block t of a whole array through output window 7 is taking its rows 10000·t … 10000·t + 9999. -/
theorem read7 (t : Fin cfg0.N) (A : FVec Ideal S320000x256 .f32) :
    ((cfg0.win 7).blk t).view.read (Elt Ideal) A = rowBlk (t.val * 10000) (tN t) A := by
  funext y
  show A (((cfg0.win 7).blk t).view.emb y) = A (shiftRow (t.val * 10000) (tN t) y)
  congr 1
  funext a; apply Fin.ext
  obtain ⟨-, -, -, -, -, -, -, -, -, -, -, -, e0, e1, -⟩ := idx_facts t
  match a with
  | ⟨0, _⟩ => show win0_7.index t (0 : Fin 2) * 10000 + 1 * (y 0).val = t.val * 10000 + (y 0).val; rw [e0]; omega
  | ⟨1, _⟩ => show win0_7.index t (1 : Fin 2) * 256 + 1 * (y 1).val = (y 1).val; rw [e1]; omega

theorem read8 (t : Fin cfg0.N) (A : FVec Ideal S320000x128 .f32) :
    ((cfg0.win 8).blk t).view.read (Elt Ideal) A = rowBlk (t.val * 10000) (tN t) A := by
  funext y
  show A (((cfg0.win 8).blk t).view.emb y) = A (shiftRow (t.val * 10000) (tN t) y)
  congr 1
  funext a; apply Fin.ext
  obtain ⟨-, -, -, -, -, -, -, -, -, -, -, -, -, -, e0, e1⟩ := idx_facts t
  match a with
  | ⟨0, _⟩ => show win0_8.index t (0 : Fin 2) * 10000 + 1 * (y 0).val = t.val * 10000 + (y 0).val; rw [e0]; omega
  | ⟨1, _⟩ => show win0_8.index t (1 : Fin 2) * 128 + 1 * (y 1).val = (y 1).val; rw [e1]; omega

/-! ## What a point writes back, and the arrays after the region -/

/-- The first layer of the region's entry arrays. -/
abbrev E1 (c : Dev nD) : FVec Ideal S320000x256 .f32 :=
  Cert.ReferenceIdeal.Read.val_main_v12 (F := Ideal) (V c main_arg1) (V c main_arg3) (V c main_arg4)
/-- The second layer of the region's entry arrays. -/
abbrev E2 (c : Dev nD) : FVec Ideal S320000x128 .f32 :=
  edge2 (F := Ideal) (E1 V c) (V c main_v13) (V c main_arg8) (V c main_arg9) (V c main_arg10)

theorem flushed7_eq (c : Dev nD) (t : Fin cfg0.N) :
    (dat0 V c).flushed 7 t = ((cfg0.win 7).blk t).view.read (Elt Ideal) (E1 V c) := by
  show (cfg0.win 7).cut (grid0.coords t) ((dat0 V c).after 7 t) = _
  rw [after0_7]
  unfold out0_7
  rw [View.canon_unit_zero hz2]
  simp only [View.ld_unit_zero (S := S10000x32) hz2, View.ld_unit_zero (S := S256x32) hz2, View.ld_unit_zero (S := S256) hz1]
  rw [blk0, blk2, blk3, read7]
  exact pay1_rowBlk _ _ _ _ _

theorem flushed8_eq (c : Dev nD) (t : Fin cfg0.N) :
    (dat0 V c).flushed 8 t = ((cfg0.win 8).blk t).view.read (Elt Ideal) (E2 V c) := by
  show (cfg0.win 8).cut (grid0.coords t) ((dat0 V c).after 8 t) = _
  rw [after0_8]
  unfold out0_8
  rw [View.canon_unit_zero hz2]
  simp only [View.ld_unit_zero (S := S10000x32) hz2, View.ld_unit_zero (S := S256x32) hz2, View.ld_unit_zero (S := S256) hz1,
    View.ld_unit_zero (S := S128x256) hz2, View.ld_unit_zero (S := S10000x16) hz2, View.ld_unit_zero (S := S128x16) hz2,
    View.ld_unit_zero (S := S128) hz1]
  rw [blk0, blk1, blk2, blk3, blk4, blk5, blk6, read8]
  exact pay2_rowBlk _ _ _ _ _ _ _ _ _

theorem mem_blk7 (t : Fin cfg0.N) (i : S320000x256.Idx) :
    i ∈ ((cfg0.win 7).blk t).view.set ↔ ∀ a : Fin 2, win0_7.index t a * S10000x256.size a ≤ (i a).val ∧ (i a).val < win0_7.index t a * S10000x256.size a + S10000x256.size a := by
  show i ∈ ((View.whole main_v14_0).slice (win0_7.rect t)).set ↔ _
  rw [View.set_slice_whole, Rect.mem_set_unit]
  exact Iff.rfl

theorem mem_blk8 (t : Fin cfg0.N) (i : S320000x128.Idx) :
    i ∈ ((cfg0.win 8).blk t).view.set ↔ ∀ a : Fin 2, win0_8.index t a * S10000x128.size a ≤ (i a).val ∧ (i a).val < win0_8.index t a * S10000x128.size a + S10000x128.size a := by
  show i ∈ ((View.whole main_v14_1).slice (win0_8.rect t)).set ↔ _
  rw [View.set_slice_whole, Rect.mem_set_unit]
  exact Iff.rfl

/-- Row r of the array is in the block of the point r / 10000. -/
theorem cover7 (i : S320000x256.Idx) : ∃ t : Fin cfg0.N, (cfg0.win 7).flush t = true ∧ i ∈ ((cfg0.win 7).blk t).view.set := by
  have hi0 : (i 0).val < 320000 := (i 0).isLt
  have hi1 : (i 1).val < 256 := (i 1).isLt
  refine ⟨⟨(i 0).val / 10000, lt_of_lt_of_eq (by omega) N_0.symm⟩, flush0_7 _, ?_⟩
  rw [mem_blk7]
  obtain ⟨-, -, -, -, -, -, -, -, -, -, -, -, e0, e1, -⟩ := idx_facts ⟨(i 0).val / 10000, lt_of_lt_of_eq (by omega) N_0.symm⟩
  intro a
  match a with
  | ⟨0, _⟩ =>
    show win0_7.index _ (0 : Fin 2) * 10000 ≤ (i 0).val ∧ (i 0).val < win0_7.index _ (0 : Fin 2) * 10000 + 10000
    rw [e0]; show (i 0).val / 10000 * 10000 ≤ (i 0).val ∧ (i 0).val < (i 0).val / 10000 * 10000 + 10000; omega
  | ⟨1, _⟩ =>
    show win0_7.index _ (1 : Fin 2) * 256 ≤ (i 1).val ∧ (i 1).val < win0_7.index _ (1 : Fin 2) * 256 + 256
    rw [e1]; omega

theorem cover8 (i : S320000x128.Idx) : ∃ t : Fin cfg0.N, (cfg0.win 8).flush t = true ∧ i ∈ ((cfg0.win 8).blk t).view.set := by
  have hi0 : (i 0).val < 320000 := (i 0).isLt
  have hi1 : (i 1).val < 128 := (i 1).isLt
  refine ⟨⟨(i 0).val / 10000, lt_of_lt_of_eq (by omega) N_0.symm⟩, flush0_8 _, ?_⟩
  rw [mem_blk8]
  obtain ⟨-, -, -, -, -, -, -, -, -, -, -, -, -, -, e0, e1⟩ := idx_facts ⟨(i 0).val / 10000, lt_of_lt_of_eq (by omega) N_0.symm⟩
  intro a
  match a with
  | ⟨0, _⟩ =>
    show win0_8.index _ (0 : Fin 2) * 10000 ≤ (i 0).val ∧ (i 0).val < win0_8.index _ (0 : Fin 2) * 10000 + 10000
    rw [e0]; show (i 0).val / 10000 * 10000 ≤ (i 0).val ∧ (i 0).val < (i 0).val / 10000 * 10000 + 10000; omega
  | ⟨1, _⟩ =>
    show win0_8.index _ (1 : Fin 2) * 128 ≤ (i 1).val ∧ (i 1).val < win0_8.index _ (1 : Fin 2) * 128 + 128
    rw [e1]; omega

/-- After the region the first output array holds the first layer of the entry arrays. -/
theorem final7 (c : Dev nD) : (dat0 V c).arrAt 7 cfg0.N = E1 V c :=
  (dat0 V c).arrAt_eq_of_cover 7 (E1 V c) (fun t _ => flushed7_eq V c t) cover7

/-- After the region the second output array holds the second layer of the entry arrays. -/
theorem final8 (c : Dev nD) : (dat0 V c).arrAt 8 cfg0.N = E2 V c :=
  (dat0 V c).arrAt_eq_of_cover 8 (E2 V c) (fun t _ => flushed8_eq V c t) cover8

end Cert.KernelIdeal.Edge

end
-- ==== Proof.Region1.lean ====
/-
  The node stage: what the second kernel region leaves in its output array, as a whole-array function.

  The region walks the 20000 nodes in 5 blocks of 4000 consecutive rows. At a point t the body reads rows
  4000·t … 4000·t + 3999 of the node features, of the two aggregated edge messages and of the gathered global rows, and
  all of every weight and bias. Every operation of the two dense layers acts on each row by itself, so what the body
  stores is the same block of rows of the whole-array computation:
      n1 = max((X·W5ᵀ + A1·W6ᵀ) + b7, 0),   n2 = max((((n1·W11ᵀ + A2·W12ᵀ) + Gn·W13ᵀ) + b14), 0),
  with the narrowing to a shorter float format the identity on the extended reals. The 5 blocks tile the array, so the
  array ends holding n2.
-/
import proofs.«173816_j89103391522964_2_alg».proof.Proof.Gen.KernelIdeal.Frame
import proofs.«173816_j89103391522964_2_alg».proof.Proof.RefImports
import proofs.«173816_j89103391522964_2_alg».proof.Proof.LibRowBlockOps
import Idealize.ShloMosaic.Lib.Pipeline.Value
import Idealize.ShloMosaic.Lib.ValueIdx

set_option maxRecDepth 16384

noncomputable section

namespace Cert.KernelIdeal.Node

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Blocks Cert.Gcn

/-- The first node layer as one function of the node features, the first aggregated message and the weights:
    max((x0·w5ᵀ + a1·w6ᵀ) + b7, 0). -/
def node1 {F : FTy → Type} [FloatOps F] (x0 : FVec F S20000x64 .f32) (w5 : FVec F S256x64 .f32)
    (a1 : FVec F S20000x256 .f32) (w6 : FVec F S256x256 .f32) (b7 : FVec F S256 .f32) : FVec F S20000x256 .f32 :=
  maximumf
    (addf
      (addf (Host.dotGeneral Cert.ReferenceIdeal.dot_S20000x64_S64x256_S20000x256_1_0_0_1_n_n none x0
              (transpose Cert.ReferenceIdeal.S64x256 [1, 0] w5 Cert.ReferenceIdeal.Gen.transposes_S256x64_S64x256_1_0))
            (Host.dotGeneral Cert.ReferenceIdeal.dot_S20000x256_S256x256_S20000x256_1_0_0_1_n_n none a1
              (transpose Cert.ReferenceIdeal.S256x256 [1, 0] w6 Cert.ReferenceIdeal.Gen.transposes_S256x256_S256x256_1_0)))
      (broadcastInDim Cert.ReferenceIdeal.S20000x256 ![0, 1] Cert.ReferenceIdeal.Gen.bcast_S1x256_S20000x256_0_1
        (broadcastInDim Cert.ReferenceIdeal.S1x256 ![1] Cert.ReferenceIdeal.Gen.bcast_S256_S1x256_1 b7)))
    (broadcastInDim Cert.ReferenceIdeal.S20000x256 ![] Cert.ReferenceIdeal.Gen.bcast_S_S20000x256
      (constant (F := F) Cert.ReferenceIdeal.S_ .f32 0x00000000#32))

/-- The two node layers as one function of the node features, the two aggregated messages, the gathered global rows
    and the weights: max((((n1·w11ᵀ + a2·w12ᵀ) + gn·w13ᵀ) + b14), 0) with n1 the first layer. -/
def node2 {F : FTy → Type} [FloatOps F] (x0 : FVec F S20000x64 .f32) (w5 : FVec F S256x64 .f32)
    (a1 : FVec F S20000x256 .f32) (w6 : FVec F S256x256 .f32) (b7 : FVec F S256 .f32) (w11 : FVec F S128x256 .f32)
    (a2 : FVec F S20000x128 .f32) (w12 : FVec F S128x128 .f32) (gn : FVec F S20000x16 .f32) (w13 : FVec F S128x16 .f32)
    (b14 : FVec F S128 .f32) : FVec F S20000x128 .f32 :=
  maximumf
    (addf
      (addf
        (addf (Host.dotGeneral Cert.ReferenceIdeal.dot_S20000x256_S256x128_S20000x128_1_0_0_1_n_n none (node1 x0 w5 a1 w6 b7)
                (transpose Cert.ReferenceIdeal.S256x128 [1, 0] w11 Cert.ReferenceIdeal.Gen.transposes_S128x256_S256x128_1_0))
              (Host.dotGeneral Cert.ReferenceIdeal.dot_S20000x128_S128x128_S20000x128_1_0_0_1_n_n none a2
                (transpose Cert.ReferenceIdeal.S128x128 [1, 0] w12 Cert.ReferenceIdeal.Gen.transposes_S128x128_S128x128_1_0)))
        (Host.dotGeneral Cert.ReferenceIdeal.dot_S20000x16_S16x128_S20000x128_1_0_0_1_n_n none gn
          (transpose Cert.ReferenceIdeal.S16x128 [1, 0] w13 Cert.ReferenceIdeal.Gen.transposes_S128x16_S16x128_1_0)))
      (broadcastInDim Cert.ReferenceIdeal.S20000x128 ![0, 1] Cert.ReferenceIdeal.Gen.bcast_S1x128_S20000x128_0_1
        (broadcastInDim Cert.ReferenceIdeal.S1x128 ![1] Cert.ReferenceIdeal.Gen.bcast_S128_S1x128_1 b14)))
    (broadcastInDim Cert.ReferenceIdeal.S20000x128 ![] Cert.ReferenceIdeal.Gen.bcast_S_S20000x128
      (constant (F := F) Cert.ReferenceIdeal.S_ .f32 0x00000000#32))

/-- The reference's second node layer is this function of the reference's aggregated messages and gathered rows. -/
theorem node2_ref {F : FTy → Type} [FloatOps F] (x0 : FVec F S20000x64 .f32) (x1 : FVec F S320000x32 .f32) (x2 : FVec F S16x16 .f32) (x3 : FVec F S256x32 .f32) (x4 : FVec F S256 .f32) (x5 : FVec F S256x64 .f32) (x6 : FVec F S256x256 .f32) (x7 : FVec F S256 .f32) (x8 : FVec F S128x256 .f32) (x9 : FVec F S128x16 .f32) (x10 : FVec F S128 .f32) (x11 : FVec F S128x256 .f32) (x12 : FVec F S128x128 .f32) (x13 : FVec F S128x16 .f32) (x14 : FVec F S128 .f32) (x19 : IVec S320000 32) (x20 : IVec S20000 32) :
    Cert.ReferenceIdeal.Read.val_main_v78 (F := F) x0 x1 x2 x3 x4 x5 x6 x7 x8 x9 x10 x11 x12 x13 x14 x19 x20
      = node2 x0 x5 (Cert.ReferenceIdeal.Read.val_main_v23 (F := F) x1 x3 x4 x19) x6 x7 x11
          (Cert.ReferenceIdeal.Read.val_main_v59 (F := F) x1 x2 x3 x4 x8 x9 x10 x19 x20) x12
          (Cert.ReferenceIdeal.Read.val_main_v71 (F := F) x2 x20) x13 x14 := rfl

/-- The printed index maps over the 5 points: the row-blocked windows sit at block t, the weights at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = 0 ∧ win1_9.index t (1 : Fin 2) = 0
    ∧ win1_10.index t (0 : Fin 1) = 0
    ∧ win1_11.index t (0 : Fin 2) = t.val ∧ win1_11.index t (1 : Fin 2) = 0 :=
  (by decide +kernel : ∀ t : Fin grid1.N, _)

theorem tN (t : Fin cfg1.N) : t.val * 4000 + 4000 ≤ 20000 := by
  have h : t.val < 5 := lt_of_lt_of_eq t.isLt N_1
  omega

/-- The first layer on a block of rows is the block of the first layer of the whole arrays. -/
theorem n1_rowBlk (o : Nat) (h : o + 4000 ≤ 20000) (X0 : FVec Ideal S20000x64 .f32) (W5 : FVec Ideal S256x64 .f32)
    (A1 : FVec Ideal S20000x256 .f32) (W6 : FVec Ideal S256x256 .f32) (B7 : FVec Ideal S256 .f32) :
    maximumf
        (addf
          (addf (matmul dot_S4000x64_S64x256_S4000x256_1_0_0_1_n_n none (rowBlk o h X0)
                  (transpose S64x256 [1, 0] W5 transposes_S256x64_p1_0_S64x256) (constant S4000x256 .f32 0x00000000#32))
                (matmul dot_S4000x256_S256x256_S4000x256_1_0_0_1_n_n none (rowBlk o h A1)
                  (transpose S256x256 [1, 0] W6 transposes_S256x256_p1_0_S256x256) (constant S4000x256 .f32 0x00000000#32)))
          (broadcastTo S4000x256 (shapeCast S1x256 B7 shapeCasts_S256_S1x256) broadcasts_S1x256_S4000x256))
        (broadcast S4000x256 (Scalar.ofBits (F := Ideal) .f32 0x00000000#32))
      = rowBlk o h (node1 (F := Ideal) X0 W5 A1 W6 B7) := by
  unfold node1
  exact congrArg₂ maximumf
    (congrArg₂ addf
      (congrArg₂ addf
        (matmul_rowBlk o h dot_S4000x64_S64x256_S4000x256_1_0_0_1_n_n rfl
          Cert.ReferenceIdeal.dot_S20000x64_S64x256_S20000x256_1_0_0_1_n_n rfl X0 _)
        (matmul_rowBlk o h dot_S4000x256_S256x256_S4000x256_1_0_0_1_n_n rfl
          Cert.ReferenceIdeal.dot_S20000x256_S256x256_S20000x256_1_0_0_1_n_n rfl A1 _))
      (biasRow_rowBlk o h B7 shapeCasts_S256_S1x256 broadcasts_S1x256_S4000x256
        Cert.ReferenceIdeal.Gen.bcast_S256_S1x256_1 Cert.ReferenceIdeal.Gen.bcast_S1x256_S20000x256_0_1))
    (splat_rowBlk o h 0x00000000#32 Cert.ReferenceIdeal.Gen.bcast_S_S20000x256)

/-- The body's composed payload on blocks of rows is the block of the two layers of the whole arrays. -/
theorem pay_rowBlk (o : Nat) (h : o + 4000 ≤ 20000) (X0 : FVec Ideal S20000x64 .f32) (W5 : FVec Ideal S256x64 .f32)
    (A1 : FVec Ideal S20000x256 .f32) (W6 : FVec Ideal S256x256 .f32) (B7 : FVec Ideal S256 .f32)
    (W11 : FVec Ideal S128x256 .f32) (A2 : FVec Ideal S20000x128 .f32) (W12 : FVec Ideal S128x128 .f32)
    (GN : FVec Ideal S20000x16 .f32) (W13 : FVec Ideal S128x16 .f32) (B14 : FVec Ideal S128 .f32) :
    k1_pay1 (F := Ideal) (k1_pay2 (rowBlk o h A2)) (k1_pay3 (rowBlk o h GN)) (k1_pay4 W13)
        (k1_pay5 (rowBlk o h X0) W5 (rowBlk o h A1) W6 B7 W11) (k1_pay6 W12) B14
      = rowBlk o h (node2 (F := Ideal) X0 W5 A1 W6 B7 W11 A2 W12 GN W13 B14) := by
  unfold k1_pay1 k1_pay2 k1_pay3 k1_pay4 k1_pay5 k1_pay6 node2
  simp only [truncf_ideal, shapeCast_self]
  exact congrArg₂ maximumf
    (congrArg₂ addf
      (congrArg₂ addf
        (congrArg₂ addf
          ((congrArg (fun a => matmul dot_S4000x256_S256x128_S4000x128_1_0_0_1_n_n none a
              (transpose S256x128 [1, 0] W11 transposes_S128x256_p1_0_S256x128) (constant S4000x128 .f32 0x00000000#32))
              (n1_rowBlk o h X0 W5 A1 W6 B7)).trans
            (matmul_rowBlk o h dot_S4000x256_S256x128_S4000x128_1_0_0_1_n_n rfl
              Cert.ReferenceIdeal.dot_S20000x256_S256x128_S20000x128_1_0_0_1_n_n rfl _ _))
          (matmul_rowBlk o h dot_S4000x128_S128x128_S4000x128_1_0_0_1_n_n rfl
            Cert.ReferenceIdeal.dot_S20000x128_S128x128_S20000x128_1_0_0_1_n_n rfl A2 _))
        (matmul_rowBlk o h dot_S4000x16_S16x128_S4000x128_1_0_0_1_n_n rfl
          Cert.ReferenceIdeal.dot_S20000x16_S16x128_S20000x128_1_0_0_1_n_n rfl GN _))
      (biasRow_rowBlk o h B14 shapeCasts_S128_S1x128 broadcasts_S1x128_S4000x128
        Cert.ReferenceIdeal.Gen.bcast_S128_S1x128_1 Cert.ReferenceIdeal.Gen.bcast_S1x128_S20000x128_0_1))
    (splat_rowBlk o h 0x00000000#32 Cert.ReferenceIdeal.Gen.bcast_S_S20000x128)

variable (V : (c : Dev nD) → (b : Ref sig .tc) → Buf (Elt Ideal) ((c : Thread nD τ).loc b))

/-! ## The windows' blocks at a point -/

theorem blk0 (c : Dev nD) (t : Fin cfg1.N) : iblk1 V c 0 t = rowBlk (t.val * 4000) (tN t) (V c main_arg0) := by
  funext y
  show V c main_arg0 (((cfg1.win 0).blk t).view.emb y) = V c main_arg0 (shiftRow (t.val * 4000) (tN t) y)
  congr 1
  funext a; apply Fin.ext
  obtain ⟨e0, e1, -⟩ := idx_facts t
  match a with
  | ⟨0, _⟩ => show win1_0.index t (0 : Fin 2) * 4000 + 1 * (y 0).val = t.val * 4000 + (y 0).val; rw [e0]; omega
  | ⟨1, _⟩ => show win1_0.index t (1 : Fin 2) * 64 + 1 * (y 1).val = (y 1).val; rw [e1]; omega

theorem blk1 (c : Dev nD) (t : Fin cfg1.N) : iblk1 V c 1 t = V c main_arg5 := by
  funext y
  show V c main_arg5 (((cfg1.win 1).blk t).view.emb y) = V c main_arg5 y
  congr 1
  funext a; apply Fin.ext
  obtain ⟨-, -, e0, e1, -⟩ := idx_facts t
  match a with
  | ⟨0, _⟩ => show win1_1.index t (0 : Fin 2) * 256 + 1 * (y 0).val = (y 0).val; rw [e0]; omega
  | ⟨1, _⟩ => show win1_1.index t (1 : Fin 2) * 64 + 1 * (y 1).val = (y 1).val; rw [e1]; omega

theorem blk2 (c : Dev nD) (t : Fin cfg1.N) : iblk1 V c 2 t = rowBlk (t.val * 4000) (tN t) (V c main_v30) := by
  funext y
  show V c main_v30 (((cfg1.win 2).blk t).view.emb y) = V c main_v30 (shiftRow (t.val * 4000) (tN t) y)
  congr 1
  funext a; apply Fin.ext
  obtain ⟨-, -, -, -, e0, e1, -⟩ := idx_facts t
  match a with
  | ⟨0, _⟩ => show win1_2.index t (0 : Fin 2) * 4000 + 1 * (y 0).val = t.val * 4000 + (y 0).val; rw [e0]; omega
  | ⟨1, _⟩ => show win1_2.index t (1 : Fin 2) * 256 + 1 * (y 1).val = (y 1).val; rw [e1]; omega

theorem blk3 (c : Dev nD) (t : Fin cfg1.N) : iblk1 V c 3 t = V c main_arg6 := by
  funext y
  show V c main_arg6 (((cfg1.win 3).blk t).view.emb y) = V c main_arg6 y
  congr 1
  funext a; apply Fin.ext
  obtain ⟨-, -, -, -, -, -, e0, e1, -⟩ := idx_facts t
  match a with
  | ⟨0, _⟩ => show win1_3.index t (0 : Fin 2) * 256 + 1 * (y 0).val = (y 0).val; rw [e0]; omega
  | ⟨1, _⟩ => show win1_3.index t (1 : Fin 2) * 256 + 1 * (y 1).val = (y 1).val; rw [e1]; omega

theorem blk4 (c : Dev nD) (t : Fin cfg1.N) : iblk1 V c 4 t = V c main_arg7 := by
  funext y
  show V c main_arg7 (((cfg1.win 4).blk t).view.emb y) = V c main_arg7 y
  congr 1
  funext a; apply Fin.ext
  obtain ⟨-, -, -, -, -, -, -, -, e0, -⟩ := idx_facts t
  match a with
  | ⟨0, _⟩ => show win1_4.index t (0 : Fin 1) * 256 + 1 * (y 0).val = (y 0).val; rw [e0]; omega

theorem blk5 (c : Dev nD) (t : Fin cfg1.N) : iblk1 V c 5 t = V c main_arg11 := by
  funext y
  show V c main_arg11 (((cfg1.win 5).blk t).view.emb y) = V c main_arg11 y
  congr 1
  funext a; apply Fin.ext
  obtain ⟨-, -, -, -, -, -, -, -, -, e0, e1, -⟩ := idx_facts t
  match a with
  | ⟨0, _⟩ => show win1_5.index t (0 : Fin 2) * 128 + 1 * (y 0).val = (y 0).val; rw [e0]; omega
  | ⟨1, _⟩ => show win1_5.index t (1 : Fin 2) * 256 + 1 * (y 1).val = (y 1).val; rw [e1]; omega

theorem blk6 (c : Dev nD) (t : Fin cfg1.N) : iblk1 V c 6 t = rowBlk (t.val * 4000) (tN t) (V c main_v32) := by
  funext y
  show V c main_v32 (((cfg1.win 6).blk t).view.emb y) = V c main_v32 (shiftRow (t.val * 4000) (tN t) y)
  congr 1
  funext a; apply Fin.ext
  obtain ⟨-, -, -, -, -, -, -, -, -, -, -, e0, e1, -⟩ := idx_facts t
  match a with
  | ⟨0, _⟩ => show win1_6.index t (0 : Fin 2) * 4000 + 1 * (y 0).val = t.val * 4000 + (y 0).val; rw [e0]; omega
  | ⟨1, _⟩ => show win1_6.index t (1 : Fin 2) * 128 + 1 * (y 1).val = (y 1).val; rw [e1]; omega

theorem blk7 (c : Dev nD) (t : Fin cfg1.N) : iblk1 V c 7 t = V c main_arg12 := by
  funext y
  show V c main_arg12 (((cfg1.win 7).blk t).view.emb y) = V c main_arg12 y
  congr 1
  funext a; apply Fin.ext
  obtain ⟨-, -, -, -, -, -, -, -, -, -, -, -, -, e0, e1, -⟩ := idx_facts t
  match a with
  | ⟨0, _⟩ => show win1_7.index t (0 : Fin 2) * 128 + 1 * (y 0).val = (y 0).val; rw [e0]; omega
  | ⟨1, _⟩ => show win1_7.index t (1 : Fin 2) * 128 + 1 * (y 1).val = (y 1).val; rw [e1]; omega

theorem blk8 (c : Dev nD) (t : Fin cfg1.N) : iblk1 V c 8 t = rowBlk (t.val * 4000) (tN t) (V c main_v39) := by
  funext y
  show V c main_v39 (((cfg1.win 8).blk t).view.emb y) = V c main_v39 (shiftRow (t.val * 4000) (tN t) y)
  congr 1
  funext a; apply Fin.ext
  obtain ⟨-, -, -, -, -, -, -, -, -, -, -, -, -, -, -, e0, e1, -⟩ := idx_facts t
  match a with
  | ⟨0, _⟩ => show win1_8.index t (0 : Fin 2) * 4000 + 1 * (y 0).val = t.val * 4000 + (y 0).val; rw [e0]; omega
  | ⟨1, _⟩ => show win1_8.index t (1 : Fin 2) * 16 + 1 * (y 1).val = (y 1).val; rw [e1]; omega

theorem blk9 (c : Dev nD) (t : Fin cfg1.N) : iblk1 V c 9 t = V c main_arg13 := by
  funext y
  show V c main_arg13 (((cfg1.win 9).blk t).view.emb y) = V c main_arg13 y
  congr 1
  funext a; apply Fin.ext
  obtain ⟨-, -, -, -, -, -, -, -, -, -, -, -, -, -, -, -, -, e0, e1, -⟩ := idx_facts t
  match a with
  | ⟨0, _⟩ => show win1_9.index t (0 : Fin 2) * 128 + 1 * (y 0).val = (y 0).val; rw [e0]; omega
  | ⟨1, _⟩ => show win1_9.index t (1 : Fin 2) * 16 + 1 * (y 1).val = (y 1).val; rw [e1]; omega

theorem blk10 (c : Dev nD) (t : Fin cfg1.N) : iblk1 V c 10 t = V c main_arg14 := by
  funext y
  show V c main_arg14 (((cfg1.win 10).blk t).view.emb y) = V c main_arg14 y
  congr 1
  funext a; apply Fin.ext
  obtain ⟨-, -, -, -, -, -, -, -, -, -, -, -, -, -, -, -, -, -, -, e0, -⟩ := idx_facts t
  match a with
  | ⟨0, _⟩ => show win1_10.index t (0 : Fin 1) * 128 + 1 * (y 0).val = (y 0).val; rw [e0]; omega

/-- Reading block t of a whole array through the output window is taking its rows 4000·t … 4000·t + 3999. -/
theorem read11 (t : Fin cfg1.N) (A : FVec Ideal S20000x128 .f32) :
    ((cfg1.win 11).blk t).view.read (Elt Ideal) A = rowBlk (t.val * 4000) (tN t) A := by
  funext y
  show A (((cfg1.win 11).blk t).view.emb y) = A (shiftRow (t.val * 4000) (tN t) y)
  congr 1
  funext a; apply Fin.ext
  obtain ⟨-, -, -, -, -, -, -, -, -, -, -, -, -, -, -, -, -, -, -, -, e0, e1⟩ := idx_facts t
  match a with
  | ⟨0, _⟩ => show win1_11.index t (0 : Fin 2) * 4000 + 1 * (y 0).val = t.val * 4000 + (y 0).val; rw [e0]; omega
  | ⟨1, _⟩ => show win1_11.index t (1 : Fin 2) * 128 + 1 * (y 1).val = (y 1).val; rw [e1]; omega

/-! ## What a point writes back, and the array after the region -/

/-- The two node layers of the region's entry arrays. -/
abbrev N2 (c : Dev nD) : FVec Ideal S20000x128 .f32 :=
  node2 (F := Ideal) (V c main_arg0) (V c main_arg5) (V c main_v30) (V c main_arg6) (V c main_arg7) (V c main_arg11)
    (V c main_v32) (V c main_arg12) (V c main_v39) (V c main_arg13) (V c main_arg14)

theorem flushed11_eq (c : Dev nD) (t : Fin cfg1.N) :
    (dat1 V c).flushed 11 t = ((cfg1.win 11).blk t).view.read (Elt Ideal) (N2 V c) := by
  show (cfg1.win 11).cut (grid1.coords t) ((dat1 V c).after 11 t) = _
  rw [after1_11]
  unfold out1_11
  rw [View.canon_unit_zero hz2]
  simp only [View.ld_unit_zero (S := S4000x64) hz2, View.ld_unit_zero (S := S256x64) hz2, View.ld_unit_zero (S := S4000x256) hz2, View.ld_unit_zero (S := S256x256) hz2, View.ld_unit_zero (S := S256) hz1, View.ld_unit_zero (S := S128x256) hz2, View.ld_unit_zero (S := S4000x128) hz2, View.ld_unit_zero (S := S128x128) hz2, View.ld_unit_zero (S := S4000x16) hz2, View.ld_unit_zero (S := S128x16) hz2, View.ld_unit_zero (S := S128) hz1]
  rw [blk0, blk1, blk2, blk3, blk4, blk5, blk6, blk7, blk8, blk9, blk10, read11]
  exact pay_rowBlk _ _ _ _ _ _ _ _ _ _ _ _ _

theorem mem_blk11 (t : Fin cfg1.N) (i : S20000x128.Idx) :
    i ∈ ((cfg1.win 11).blk t).view.set ↔ ∀ a : Fin 2, win1_11.index t a * S4000x128.size a ≤ (i a).val ∧ (i a).val < win1_11.index t a * S4000x128.size a + S4000x128.size a := by
  show i ∈ ((View.whole main_v40).slice (win1_11.rect t)).set ↔ _
  rw [View.set_slice_whole, Rect.mem_set_unit]
  exact Iff.rfl

/-- Row r of the array is in the block of the point r / 4000. -/
theorem cover11 (i : S20000x128.Idx) : ∃ t : Fin cfg1.N, (cfg1.win 11).flush t = true ∧ i ∈ ((cfg1.win 11).blk t).view.set := by
  have hi0 : (i 0).val < 20000 := (i 0).isLt
  have hi1 : (i 1).val < 128 := (i 1).isLt
  refine ⟨⟨(i 0).val / 4000, lt_of_lt_of_eq (by omega) N_1.symm⟩, flush1_11 _, ?_⟩
  rw [mem_blk11]
  obtain ⟨-, -, -, -, -, -, -, -, -, -, -, -, -, -, -, -, -, -, -, -, e0, e1⟩ := idx_facts ⟨(i 0).val / 4000, lt_of_lt_of_eq (by omega) N_1.symm⟩
  intro a
  match a with
  | ⟨0, _⟩ =>
    show win1_11.index _ (0 : Fin 2) * 4000 ≤ (i 0).val ∧ (i 0).val < win1_11.index _ (0 : Fin 2) * 4000 + 4000
    rw [e0]; show (i 0).val / 4000 * 4000 ≤ (i 0).val ∧ (i 0).val < (i 0).val / 4000 * 4000 + 4000; omega
  | ⟨1, _⟩ =>
    show win1_11.index _ (1 : Fin 2) * 128 ≤ (i 1).val ∧ (i 1).val < win1_11.index _ (1 : Fin 2) * 128 + 128
    rw [e1]; omega

/-- After the region the output array holds the two node layers of the entry arrays. -/
theorem final11 (c : Dev nD) : (dat1 V c).arrAt 11 cfg1.N = N2 V c :=
  (dat1 V c).arrAt_eq_of_cover 11 (N2 V c) (fun t _ => flushed11_eq V c t) cover11

end Cert.KernelIdeal.Node

end
-- ==== Proof.LibScatterForms.lean ====
/-
  The host's scatter-add in two spellings of one sum.

  Updates `u e`, one per edge `e`, are added onto the entries `dst e` of a node array. Spelt over vectors, the
  operand is `[N]` and the updates `[E]`; spelt with a trailing unit axis, the operand is `[N, 1]` and the updates
  are rows `[E, 1]` that land whole. In both, the start index of update `e` is read signed off the same index
  column and is NOT clamped, so update `e` lands on node `n` exactly when `dst e = n`; the two scattered arrays
  therefore agree entry by entry when the updates and the operands do.
-/
import Idealize.ShloMosaic.PureOps.Ideal.Laws
import Idealize.ShloMosaic.Lib.ValueIdx

noncomputable section

namespace Cert.ScatterForms

open Idealize.ShloMosaic Idealize.ShloMosaic.ValueIdx

/-- An update lands on operand entry `i` exactly when, on every axis, its unclamped start plus its window
    coordinate is `i`'s coordinate (being a coordinate of `i`, that sum is then in range). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro he a
      have h1 := congrArg (fun f => (f a).val) (Option.some.inj he)
      have h2 := (h a).1
      simp only at h1
      omega
    · intro he
      refine congrArg some (funext fun a => Fin.ext ?_)
      have h1 := he a
      have h2 := (h a).1
      show (d.start j idx a + (d.window j a : Int)).toNat = (i a).val
      omega
  · rename_i h
    constructor
    · intro he
      exact absurd he (by simp)
    · intro he
      exfalso
      apply h
      intro a
      have h1 := he a
      have h2 := (i a).isLt
      constructor <;> omega

/-! ## Over vectors -/

/-- The dimension numbers of `x.at[idx].add(u)` for `x : [N]`, `idx : [E]` given as a column `[E, 1]`, `u : [E]`. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vecScatter_start {N E w : Nat} (wf : ScatterDims.WF ⟨1, ![N]⟩ ⟨2, ![E, 1]⟩ ⟨1, ![E]⟩ [] [0] [0] 1)
    (idx : IVec ⟨2, ![E, 1]⟩ w) (e : Fin E) :
    (vecScatter N E wf).start (ix1 e) idx 0 = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vecScatter_window {N E : Nat} (wf : ScatterDims.WF ⟨1, ![N]⟩ ⟨2, ![E, 1]⟩ ⟨1, ![E]⟩ [] [0] [0] 1) (e : Fin E) :
    (vecScatter N E wf).window (ix1 e) 0 = 0 := by
  unfold ScatterDims.window
  rw [dif_neg (show ¬ (0 : Fin 1) ∈ (vecScatter N E wf).sKept from
    fun h => (of_decide_eq_true (List.mem_filter.mp h).2) (List.mem_singleton.mpr rfl))]

/-- Update `e` lands on entry `n` exactly when its index, read signed, is `n`. -/
theorem vecScatter_lands {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ (idx (ix2 e (0 : Fin 1))).toInt = (n.val : Int) := by
  rw [resultIdx?_eq_some_iff]
  constructor
  · intro h
    have h0 : (idx (ix2 e (0 : Fin 1))).toInt + ((0 : ℕ) : Int) = (n.val : Int) := by
      have := h 0
      rwa [vecScatter_start, vecScatter_window] at this
    simpa using h0
  · intro h a
    obtain rfl : a = 0 := Subsingleton.elim _ _
    show (vecScatter N E wf).start (ix1 e) idx 0 + ((vecScatter N E wf).window (ix1 e) 0 : Int) = (n.val : Int)
    rw [vecScatter_start, vecScatter_window]
    simpa using h

/-! ## With a trailing unit axis -/

/-- The dimension numbers of `x.at[idx].add(u)` for `x : [N, 1]`, `idx : [E]` given as a column `[E, 1]`, `u : [E, 1]`:
    update row `e` goes, whole, to operand row `idx[e]`. -/
abbrev colScatter (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

theorem colScatter_start0 {N E w : Nat} (wf : ScatterDims.WF ⟨2, ![N, 1]⟩ ⟨2, ![E, 1]⟩ ⟨2, ![E, 1]⟩ [1] [0] [0] 1)
    (idx : IVec ⟨2, ![E, 1]⟩ w) (e : Fin E) (c : Fin 1) :
    (colScatter N E wf).start (ix2 e c) idx 0 = (idx (ix2 e (0 : Fin 1))).toInt := by
  unfold ScatterDims.start
  rw [dif_pos (show (0 : Fin 2) ∈ (colScatter N E wf).scatterDimsToOperandDims from List.mem_singleton.mpr rfl)]
  have hsi : (colScatter N E wf).siIdx (ix2 e c) ⟨List.idxOf (0 : Fin 2) (colScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem colScatter_window0 {N E : Nat} (wf : ScatterDims.WF ⟨2, ![N, 1]⟩ ⟨2, ![E, 1]⟩ ⟨2, ![E, 1]⟩ [1] [0] [0] 1)
    (e : Fin E) (c : Fin 1) : (colScatter N E wf).window (ix2 e c) 0 = 0 := by
  unfold ScatterDims.window
  rw [dif_neg (show ¬ (0 : Fin 2) ∈ (colScatter N E wf).sKept from
    fun h => (of_decide_eq_true (List.mem_filter.mp h).2) (List.mem_singleton.mpr rfl))]

/-- On the unit axis the window coordinate of update `(e, c)` is `c` itself. -/
theorem colScatter_window1 {N E : Nat} (wf : ScatterDims.WF ⟨2, ![N, 1]⟩ ⟨2, ![E, 1]⟩ ⟨2, ![E, 1]⟩ [1] [0] [0] 1)
    (e : Fin E) (c : Fin 1) : (colScatter N E wf).window (ix2 e c) 1 = c.val := by
  have hk : (1 : Fin 2) ∈ (colScatter N E wf).sKept := by
    simp [ScatterDims.sKept, Shape.kept, List.mem_filter, List.mem_finRange]
  have hoff : ∀ (k : Nat) (hk : k < (colScatter N E wf).updateWindowDims.length),
      (colScatter N E wf).updateWindowDims[k]'hk = (1 : Fin 2) := by
    intro k hk
    match k, hk with
    | 0, _ => rfl
  unfold ScatterDims.window
  rw [dif_pos hk]
  show ((ix2 e c) ((colScatter N E wf).updateWindowDims[List.idxOf (1 : Fin 2) (colScatter N E wf).sKept]'_)).val = c.val
  rw [hoff]

/-- The unit axis is not indexed: its start is 0. -/
theorem colScatter_start1 {N E w : Nat} (wf : ScatterDims.WF ⟨2, ![N, 1]⟩ ⟨2, ![E, 1]⟩ ⟨2, ![E, 1]⟩ [1] [0] [0] 1)
    (idx : IVec ⟨2, ![E, 1]⟩ w) (e : Fin E) (c : Fin 1) : (colScatter N E wf).start (ix2 e c) idx 1 = 0 := by
  unfold ScatterDims.start
  rw [dif_neg (show ¬ (1 : Fin 2) ∈ (colScatter N E wf).scatterDimsToOperandDims from
    fun h => absurd (congrArg Fin.val (List.mem_singleton.mp h)) Nat.one_ne_zero)]

/-- Update row `e` lands on row `n` exactly when its index, read signed, is `n`. -/
theorem colScatter_lands {N E w : Nat} (wf : ScatterDims.WF ⟨2, ![N, 1]⟩ ⟨2, ![E, 1]⟩ ⟨2, ![E, 1]⟩ [1] [0] [0] 1)
    (idx : IVec ⟨2, ![E, 1]⟩ w) (e : Fin E) (c : Fin 1) (n : Fin N) (z : Fin 1) :
    (colScatter N E wf).resultIdx? (ix2 e c) idx = some (ix2 n z) ↔ (idx (ix2 e (0 : Fin 1))).toInt = (n.val : Int) := by
  rw [resultIdx?_eq_some_iff]
  constructor
  · intro h
    have h0 : (idx (ix2 e (0 : Fin 1))).toInt + ((0 : ℕ) : Int) = (n.val : Int) := by
      have := h 0
      rwa [colScatter_start0, colScatter_window0] at this
    simpa using h0
  · intro h a
    match a with
    | ⟨0, _⟩ =>
      show (colScatter N E wf).start (ix2 e c) idx 0 + ((colScatter N E wf).window (ix2 e c) 0 : Int) = (n.val : Int)
      rw [colScatter_start0, colScatter_window0]
      simpa using h
    | ⟨1, _⟩ =>
      show (colScatter N E wf).start (ix2 e c) idx 1 + ((colScatter N E wf).window (ix2 e c) 1 : Int) = (z.val : Int)
      rw [colScatter_start1, colScatter_window1]
      have hc := c.isLt
      have hz := z.isLt
      omega

/-! ## The two spellings give one sum -/

/-- THE LAW that joins the two programs' scatters: with the same index column, operands that agree at node `n` and
    updates that agree edge by edge, the scattered vector at `n` is the scattered column at `(n, 0)` — the updates that
    land there are the same edges. -/
theorem scatterAdd_vec_eq_col {N E w : Nat}
    (wfK : ScatterDims.WF ⟨1, ![N]⟩ ⟨2, ![E, 1]⟩ ⟨1, ![E]⟩ [] [0] [0] 1)
    (wfR : ScatterDims.WF ⟨2, ![N, 1]⟩ ⟨2, ![E, 1]⟩ ⟨2, ![E, 1]⟩ [1] [0] [0] 1)
    (idx : IVec ⟨2, ![E, 1]⟩ w)
    (xK : (⟨1, ![N]⟩ : Shape).Idx → EReal) (xR : (⟨2, ![N, 1]⟩ : Shape).Idx → EReal)
    (uK : (⟨1, ![E]⟩ : Shape).Idx → EReal) (uR : (⟨2, ![E, 1]⟩ : Shape).Idx → EReal)
    (n : Fin N) (z : Fin 1) (hx : xK (ix1 n) = xR (ix2 n z))
    (hu : ∀ e : Fin E, uK (ix1 e) = uR (ix2 e (0 : Fin 1))) :
    Ideal.hostScatterAdd (vecScatter N E wfK) xK idx uK (ix1 n)
      = Ideal.hostScatterAdd (colScatter N E wfR) xR idx uR (ix2 n z) := by
  unfold Ideal.hostScatterAdd
  rw [hx]
  congr 1
  refine Finset.sum_bij' (fun j _ => ix2 (j 0) (0 : Fin 1)) (fun j _ => ix1 (j 0)) ?_ ?_ ?_ ?_ ?_
  · intro j hj
    obtain ⟨e, rfl⟩ : ∃ e, j = ix1 e := ⟨j 0, eq_ix1 j⟩
    rw [Finset.mem_filter] at hj ⊢
    exact ⟨Finset.mem_univ _, (colScatter_lands wfR idx e 0 n z).mpr ((vecScatter_lands wfK idx e n).mp hj.2)⟩
  · intro j hj
    obtain ⟨e, c, rfl⟩ : ∃ e c, j = ix2 e c := ⟨j 0, j 1, eq_ix2 j⟩
    rw [Finset.mem_filter] at hj ⊢
    exact ⟨Finset.mem_univ _, (vecScatter_lands wfK idx e n).mpr ((colScatter_lands wfR idx e c n z).mp hj.2)⟩
  · intro j _
    exact (eq_ix1 j).symm
  · intro j _
    funext a
    match a with
    | ⟨0, _⟩ => rfl
    | ⟨1, _⟩ =>
      refine Fin.ext ?_
      have := idx2_lt1 j
      show (0 : ℕ) = (j 1).val
      omega
  · intro j _
    obtain ⟨e, rfl⟩ : ∃ e, j = ix1 e := ⟨j 0, eq_ix1 j⟩
    exact hu e

end Cert.ScatterForms

end
-- ==== Proof.LibRows2.lean ====
/-
  Whole rows of a rank-2 array moved by an index column, read at an entry, and the host's accumulating scatter of
  rows written as a sum over the edges; a vector picked by an index column likewise.

  For an operand of shape [N, D], an index column [E, 1] and rows [E, D]:
  * jnp's x[idx] (a row gather) at entry (e, j) is the operand at row idx[e] — read signed and clamped into
    [0, N − 1] — and the same j;
  * update entry (e, j) of the row scatter lands on operand entry (n, j') exactly when idx[e], read signed and not
    clamped, is n and j = j';
  * hence the scattered sum at (n, j) is the operand entry plus the sum over the edges e with idx[e] = n of the
    update entry (e, j).
  For a vector [N] picked by a column [E, 1], entry e is the vector at idx[e] read signed and clamped.
  Nothing here mentions a program: the shapes are literal ranks with symbolic extents.
-/
import Idealize.ShloMosaic.PureOps.Ideal.Laws
import Idealize.ShloMosaic.Lib.ValueIdx
import proofs.«173816_j89103391522964_2_alg».proof.Proof.LibScatterForms

noncomputable section

namespace Cert.Rows2

open Idealize.ShloMosaic Idealize.ShloMosaic.ValueIdx

/-! ## The row gather of a rank-2 operand -/

/-- The dimension numbers of x[idx] for x : [N, D] and idx : [E] given as a column [E, 1]: whole rows. -/
abbrev pickRows2 (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry (e, j) of the gather is the operand at row idx[e, 0] — read signed and clamped into [0, N − 1] — and the
    same column j. -/
theorem gather_pickRows2_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (pickRows2 N D E wf) x idx (ix2 e j)
      = x (ix2 ⟨min (idx (ix2 e (0 : Fin 1))).toInt.toNat (N - 1), by omega⟩ j) := by
  unfold Host.gather
  congr 1
  funext c
  refine Fin.ext ?_
  have hnb : ∀ c : Fin 2, (pickRows2 N D E wf).batchCoord (ix2 e j) c = 0 := fun c =>
    GatherDims.batchCoord_eq_zero _ _ _ List.not_mem_nil
  have hs : ∀ c : Fin 2, c ≠ 0 → (pickRows2 N D E wf).start (ix2 e j) idx c = 0 := by
    intro c hc
    unfold GatherDims.start
    rw [dif_neg (show ¬ c ∈ (pickRows2 N D E wf).startIndexMap from fun h => hc (List.mem_singleton.mp h))]
  match c with
  | ⟨0, _⟩ =>
    show (pickRows2 N D E wf).start (ix2 e j) idx 0 + (pickRows2 N D E wf).batchCoord (ix2 e j) 0
      + (pickRows2 N D E wf).offCoord (ix2 e j) 0 = _
    rw [hnb, GatherDims.offCoord_eq_zero _ _ _ (fun h => ((GatherDims.mem_sKept _ _).mp h).1 (List.mem_singleton.mpr rfl))]
    simp only [Nat.add_zero]
    unfold GatherDims.start
    rw [dif_pos (show (0 : Fin 2) ∈ (pickRows2 N D E wf).startIndexMap from List.mem_singleton.mpr rfl)]
    have hsi : (pickRows2 N D E wf).siIdx (ix2 e j) ⟨List.idxOf (0 : Fin 2) (pickRows2 N D E wf).startIndexMap,
        List.idxOf_lt_length_iff.2 (List.mem_singleton.mpr rfl)⟩ = ix2 e (0 : Fin 1) := by
      funext q; refine Fin.ext ?_
      match q with
      | ⟨0, _⟩ => rfl
      | ⟨1, _⟩ => rfl
    rw [hsi]
    rfl
  | ⟨1, _⟩ =>
    show (pickRows2 N D E wf).start (ix2 e j) idx 1 + (pickRows2 N D E wf).batchCoord (ix2 e j) 1
      + (pickRows2 N D E wf).offCoord (ix2 e j) 1 = j.val
    rw [hs 1 (by decide), hnb]
    have hk : (1 : Fin 2) ∈ (pickRows2 N D E wf).sKept :=
      (GatherDims.mem_sKept _ _).mpr
        ⟨fun h => absurd (congrArg Fin.val (List.mem_singleton.mp h)) Nat.one_ne_zero, List.not_mem_nil⟩
    unfold GatherDims.offCoord
    rw [dif_pos hk, Nat.zero_add]
    rfl

/-! ## A vector picked by an index column -/

/-- The dimension numbers of x[idx] for x : [N] and idx : [E] given as a column [E, 1]: single entries. -/
abbrev pick1 (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the gather is the vector at idx[e, 0], read signed and clamped into [0, N − 1]. -/
theorem gather_pick1_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (pick1 N E wf) x idx (ix1 e)
      = x (ix1 ⟨min (idx (ix2 e (0 : Fin 1))).toInt.toNat (N - 1), by omega⟩) := by
  unfold Host.gather
  congr 1
  funext c
  refine Fin.ext ?_
  have hnb : ∀ c : Fin 1, (pick1 N E wf).batchCoord (ix1 e) c = 0 := fun c =>
    GatherDims.batchCoord_eq_zero _ _ _ List.not_mem_nil
  match c with
  | ⟨0, _⟩ =>
    show (pick1 N E wf).start (ix1 e) idx 0 + (pick1 N E wf).batchCoord (ix1 e) 0
      + (pick1 N E wf).offCoord (ix1 e) 0 = _
    rw [hnb, GatherDims.offCoord_eq_zero _ _ _ (fun h => ((GatherDims.mem_sKept _ _).mp h).1 (List.mem_singleton.mpr rfl))]
    simp only [Nat.add_zero]
    unfold GatherDims.start
    rw [dif_pos (show (0 : Fin 1) ∈ (pick1 N E wf).startIndexMap from List.mem_singleton.mpr rfl)]
    have hsi : (pick1 N E wf).siIdx (ix1 e) ⟨List.idxOf (0 : Fin 1) (pick1 N E wf).startIndexMap,
        List.idxOf_lt_length_iff.2 (List.mem_singleton.mpr rfl)⟩ = ix2 e (0 : Fin 1) := by
      funext q; refine Fin.ext ?_
      match q with
      | ⟨0, _⟩ => rfl
      | ⟨1, _⟩ => rfl
    rw [hsi]
    rfl

/-! ## The row scatter of a rank-2 operand -/

/-- The dimension numbers of x.at[idx].add(u) for x : [N, D], idx : [E] as a column [E, 1] and u : [E, D]: update
    row e goes, whole, to operand row idx[e]. -/
abbrev rowScatter2 (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section
variable {N D E w : Nat} (wf : ScatterDims.WF ⟨2, ![N, D]⟩ ⟨2, ![E, 1]⟩ ⟨2, ![E, D]⟩ [1] [0] [0] 1)
  (idx : IVec ⟨2, ![E, 1]⟩ w) (e : Fin E) (j : Fin D)

theorem rowScatter2_start0 : (rowScatter2 N D E wf).start (ix2 e j) idx 0 = (idx (ix2 e (0 : Fin 1))).toInt := by
  unfold ScatterDims.start
  rw [dif_pos (show (0 : Fin 2) ∈ (rowScatter2 N D E wf).scatterDimsToOperandDims from List.mem_singleton.mpr rfl)]
  have hsi : (rowScatter2 N D E wf).siIdx (ix2 e j) ⟨List.idxOf (0 : Fin 2) (rowScatter2 N D E wf).scatterDimsToOperandDims,
      List.idxOf_lt_length_iff.2 (List.mem_singleton.mpr rfl)⟩ = ix2 e (0 : Fin 1) := by
    funext q; refine Fin.ext ?_
    match q with
    | ⟨0, _⟩ => rfl
    | ⟨1, _⟩ => rfl
  rw [hsi]

theorem rowScatter2_start1 : (rowScatter2 N D E wf).start (ix2 e j) idx 1 = 0 := by
  unfold ScatterDims.start
  rw [dif_neg (show ¬ (1 : Fin 2) ∈ (rowScatter2 N D E wf).scatterDimsToOperandDims from
    fun h => absurd (congrArg Fin.val (List.mem_singleton.mp h)) Nat.one_ne_zero)]

theorem rowScatter2_window0 : (rowScatter2 N D E wf).window (ix2 e j) 0 = 0 := by
  unfold ScatterDims.window
  rw [dif_neg (show ¬ (0 : Fin 2) ∈ (rowScatter2 N D E wf).sKept from
    fun h => (of_decide_eq_true (List.mem_filter.mp h).2) (List.mem_singleton.mpr rfl))]

theorem rowScatter2_window1 : (rowScatter2 N D E wf).window (ix2 e j) 1 = j.val := by
  have hk : (1 : Fin 2) ∈ (rowScatter2 N D E wf).sKept := by
    simp [ScatterDims.sKept, Shape.kept, List.mem_filter, List.mem_finRange]
  unfold ScatterDims.window
  rw [dif_pos hk]
  rfl

/-- Update entry (e, j) lands on operand entry (n, j') exactly when its row index, read signed, is n and the
    columns agree. -/
theorem rowScatter2_lands (n : Fin N) (j' : Fin D) :
    (rowScatter2 N D E wf).resultIdx? (ix2 e j) idx = some (ix2 n j')
      ↔ (idx (ix2 e (0 : Fin 1))).toInt = (n.val : Int) ∧ j = j' := by
  rw [Cert.ScatterForms.resultIdx?_eq_some_iff]
  constructor
  · intro h
    have h0 : (idx (ix2 e (0 : Fin 1))).toInt + ((0 : ℕ) : Int) = (n.val : Int) := by
      have := h 0
      rwa [rowScatter2_start0, rowScatter2_window0] at this
    have h1 : (0 : Int) + ((j.val : ℕ) : Int) = (j'.val : Int) := by
      have := h 1
      rwa [rowScatter2_start1, rowScatter2_window1] at this
    refine ⟨by simpa using h0, Fin.ext ?_⟩
    omega
  · rintro ⟨h0, rfl⟩ c
    match c with
    | ⟨0, _⟩ =>
      show (rowScatter2 N D E wf).start (ix2 e j) idx 0 + ((rowScatter2 N D E wf).window (ix2 e j) 0 : Int) = (n.val : Int)
      rw [rowScatter2_start0, rowScatter2_window0]
      simpa using h0
    | ⟨1, _⟩ =>
      show (rowScatter2 N D E wf).start (ix2 e j) idx 1 + ((rowScatter2 N D E wf).window (ix2 e j) 1 : Int) = (j.val : Int)
      rw [rowScatter2_start1, rowScatter2_window1]
      simp

end

/-- The scattered sum at entry (n, j): the operand entry plus, over the edges whose row index read signed is n, the
    update entry (e, j). -/
theorem hostScatterAdd_rows2_apply {N D E w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (u : (⟨2, ![E, D]⟩ : Shape).Idx → EReal)
    (n : Fin N) (j : Fin D) :
    Ideal.hostScatterAdd (rowScatter2 N D E wf) x idx u (ix2 n j)
      = x (ix2 n j) + ∑ e : Fin E, if (idx (ix2 e (0 : Fin 1))).toInt = (n.val : Int) then u (ix2 e j) else 0 := by
  unfold Ideal.hostScatterAdd
  congr 1
  rw [← Finset.sum_filter]
  refine Finset.sum_bij' (fun i _ => i 0) (fun e _ => ix2 e j) ?_ ?_ ?_ ?_ ?_
  · intro i hi
    obtain ⟨e, j1, rfl⟩ : ∃ e j1, i = ix2 e j1 := ⟨i 0, i 1, eq_ix2 i⟩
    exact Finset.mem_filter.mpr ⟨Finset.mem_univ _,
      ((rowScatter2_lands wf idx e j1 n j).mp (Finset.mem_filter.mp hi).2).1⟩
  · intro e he
    exact Finset.mem_filter.mpr ⟨Finset.mem_univ _,
      (rowScatter2_lands wf idx e j n j).mpr ⟨(Finset.mem_filter.mp he).2, rfl⟩⟩
  · intro i hi
    obtain ⟨e, j1, rfl⟩ : ∃ e j1, i = ix2 e j1 := ⟨i 0, i 1, eq_ix2 i⟩
    obtain ⟨_, rfl⟩ := (rowScatter2_lands wf idx e j1 n j).mp (Finset.mem_filter.mp hi).2
    rfl
  · intro e _
    rfl
  · intro i hi
    obtain ⟨e, j1, rfl⟩ : ∃ e j1, i = ix2 e j1 := ⟨i 0, i 1, eq_ix2 i⟩
    obtain ⟨_, rfl⟩ := (rowScatter2_lands wf idx e j1 n j).mp (Finset.mem_filter.mp hi).2
    rfl

end Cert.Rows2

end
-- ==== Proof.LibScatterRows.lean ====
/-
  The host's accumulating row scatter, for any dimension numbers that are the row scatter's.

  For an operand [N, D], an index column [E, 1] and update rows [E, D], whatever record of dimension numbers a program
  names, if that record is the row scatter's (update row e goes, whole, to operand row idx[e]) then the scattered sum
  at entry (n, j) is the operand entry plus the sum over the edges whose index word reads signed as n of the update
  entry (e, j). The extents are symbolic.
-/
import proofs.«173816_j89103391522964_2_alg».proof.Proof.LibRows2

noncomputable section

namespace Cert.ScatterRows

open Idealize.ShloMosaic Idealize.ShloMosaic.ValueIdx

/-- The scattered sum at entry (n, j), stated for the host operation as a program prints it. -/
theorem hostScatterAdd_apply {N D E w : Nat} {φ : FTy}
    (d : ScatterDims ⟨2, ![N, D]⟩ ⟨2, ![E, 1]⟩ ⟨2, ![E, D]⟩)
    (wf : ScatterDims.WF ⟨2, ![N, D]⟩ ⟨2, ![E, 1]⟩ ⟨2, ![E, D]⟩ [1] [0] [0] 1)
    (hd : d = Cert.Rows2.rowScatter2 N D E wf)
    (x : FVec Ideal ⟨2, ![N, D]⟩ φ) (idx : IVec ⟨2, ![E, 1]⟩ w) (u : FVec Ideal ⟨2, ![E, D]⟩ φ)
    (n : Fin N) (j : Fin D) :
    Host.scatterAdd (F := Ideal) d x idx u (ix2 n j)
      = x (ix2 n j) + ∑ e : Fin E, if (idx (ix2 e (0 : Fin 1))).toInt = (n.val : Int) then u (ix2 e j) else 0 := by
  subst hd
  exact Cert.Rows2.hostScatterAdd_rows2_apply wf x idx u n j

end Cert.ScatterRows

end
-- ==== Proof.LibEdgeRegroup.lean ====
/-
  Two accumulating row scatters in a row, regrouped into one.

  Update rows U[e] (e an edge) are summed into node rows by the edge's node word rc[e], starting from zero rows; the node
  rows are then summed into graph rows by the node's graph word ng[n], on top of given graph rows ZG. When every rc[e] is
  a valid node, 0 ≤ rc[e] < N, the result is the single scatter of the update rows into graph rows by the word
  ng[rc[e]] on top of ZG:

      ZG (g, j) + ∑_{n : ng n = g} (0 + ∑_{e : rc e = n} U (e, j))  =  ZG (g, j) + ∑_{e : ng (rc e) = g} U (e, j).

  Each edge has exactly one node, so exchanging the two sums leaves, for each edge, the one term at its node. Only
  commutativity and associativity of the sum and 0 + x = x are used: the entries are extended reals, and nothing is
  cancelled. The word ng[rc[e]] is computed by picking the vector ng at the index column: the picked position is the
  index word read signed and clamped into [0, N − 1], which for a valid node word is the word itself. The index word
  handed to the pick may be the word after the usual wrap of negative indices (add N when negative); a non-negative
  word is not wrapped (`wrap_eq`).
-/
import Idealize.ShloMosaic.PureOps.Ideal.Laws
import Idealize.ShloMosaic.Lib.ValueIdx
import Idealize.ShloMosaic.Lib.Pipeline.Value
import Idealize.ShloMosaic.Lib.Affine
import proofs.«173816_j89103391522964_2_alg».proof.Proof.LibScatterRows

noncomputable section

namespace Cert.EdgeRegroup

open Idealize.ShloMosaic Idealize.ShloMosaic.ValueIdx

/-- A vector [E] laid out as a column [E, 1], read at row e, is the vector at e. -/
theorem col_apply {α : Type} {E : Nat} (hb : (⟨1, ![E]⟩ : Shape).BroadcastsInDim ⟨2, ![E, 1]⟩ ![0])
    (v : (⟨1, ![E]⟩ : Shape).Idx → α) (e : Fin E) :
    broadcastInDim ⟨2, ![E, 1]⟩ ![0] hb v (ix2 e (0 : Fin 1)) = v (ix1 e) :=
  broadcastInDim_apply ![0] hb v _ (ix1 e) (fun a => by
    match a with
    | ⟨0, _⟩ =>
      show e.val = if E = 1 then 0 else e.val
      split_ifs with hE
      · have := e.isLt; omega
      · rfl)

/-- A non-negative index word is not wrapped: the test "word < 0" is 0 there, so the select keeps the word. -/
theorem wrap_eq {E : Nat} (cN : BitVec 32) (rc : IVec ⟨1, ![E]⟩ 32)
    (h0 : (⟨0, ![]⟩ : Shape).BroadcastsInDim ⟨1, ![E]⟩ ![]) (e : Fin E) (hnn : 0 ≤ (rc (ix1 e)).toInt) :
    (select (cmpi .slt rc (broadcastInDim ⟨1, ![E]⟩ ![] h0 (constantI ⟨0, ![]⟩ 32 0#32)))
        (addi rc (broadcastInDim ⟨1, ![E]⟩ ![] h0 (constantI ⟨0, ![]⟩ 32 cN))) rc) (ix1 e) = rc (ix1 e) := by
  show Scalar.select (IntOp.cmpi .slt (rc (ix1 e)) (0#32)) _ (rc (ix1 e)) = rc (ix1 e)
  have hflag : ¬ IntOp.cmpi .slt (rc (ix1 e)) (0#32) = 1#1 := by
    rw [IntOp.cmpi_slt, show (0#32 : BitVec 32).toInt = 0 from by decide]
    omega
  rw [eq_zero_of_ne_one hflag, select_zero]

/-- The two scatters in a row are the one scatter by the picked graph words. -/
theorem regroup {N E G D : Nat} {φ : FTy} (hN : 0 < N)
    (dN : ScatterDims ⟨2, ![N, D]⟩ ⟨2, ![E, 1]⟩ ⟨2, ![E, D]⟩)
    (wfN : ScatterDims.WF ⟨2, ![N, D]⟩ ⟨2, ![E, 1]⟩ ⟨2, ![E, D]⟩ [1] [0] [0] 1)
    (hdN : dN = Cert.Rows2.rowScatter2 N D E wfN)
    (dG : ScatterDims ⟨2, ![G, D]⟩ ⟨2, ![N, 1]⟩ ⟨2, ![N, D]⟩)
    (wfG : ScatterDims.WF ⟨2, ![G, D]⟩ ⟨2, ![N, 1]⟩ ⟨2, ![N, D]⟩ [1] [0] [0] 1)
    (hdG : dG = Cert.Rows2.rowScatter2 G D N wfG)
    (dE : ScatterDims ⟨2, ![G, D]⟩ ⟨2, ![E, 1]⟩ ⟨2, ![E, D]⟩)
    (wfE : ScatterDims.WF ⟨2, ![G, D]⟩ ⟨2, ![E, 1]⟩ ⟨2, ![E, D]⟩ [1] [0] [0] 1)
    (hdE : dE = Cert.Rows2.rowScatter2 G D E wfE)
    (gd : GatherDims ⟨1, ![N]⟩ ⟨2, ![E, 1]⟩ ⟨1, ![E]⟩)
    (wfg : GatherDims.WF ⟨1, ![N]⟩ ⟨2, ![E, 1]⟩ ⟨1, ![E]⟩ [] [0] [] [0] [] 1 ![1])
    (hgd : gd = Cert.Rows2.pick1 N E wfg)
    (ZN : FVec Ideal ⟨2, ![N, D]⟩ φ) (hZN : ∀ i, ZN i = 0) (ZG : FVec Ideal ⟨2, ![G, D]⟩ φ)
    (rc : IVec ⟨1, ![E]⟩ 32) (ng : IVec ⟨1, ![N]⟩ 32)
    (hrc : ∀ e : Fin E, 0 ≤ (rc (ix1 e)).toInt ∧ (rc (ix1 e)).toInt < N)
    (hbE : (⟨1, ![E]⟩ : Shape).BroadcastsInDim ⟨2, ![E, 1]⟩ ![0])
    (hbN : (⟨1, ![N]⟩ : Shape).BroadcastsInDim ⟨2, ![N, 1]⟩ ![0])
    (rcw : IVec ⟨1, ![E]⟩ 32) (hrcw : ∀ e : Fin E, (rcw (ix1 e)).toInt = (rc (ix1 e)).toInt)
    (U : FVec Ideal ⟨2, ![E, D]⟩ φ) :
    Host.scatterAdd (F := Ideal) dG ZG (broadcastInDim ⟨2, ![N, 1]⟩ ![0] hbN ng)
        (Host.scatterAdd (F := Ideal) dN ZN (broadcastInDim ⟨2, ![E, 1]⟩ ![0] hbE rc) U)
      = Host.scatterAdd (F := Ideal) dE ZG
          (broadcastInDim ⟨2, ![E, 1]⟩ ![0] hbE (Host.gather gd ng (broadcastInDim ⟨2, ![E, 1]⟩ ![0] hbE rcw))) U := by
  funext i
  obtain ⟨g, j, rfl⟩ : ∃ g j, i = ix2 g j := ⟨i 0, i 1, eq_ix2 i⟩
  -- the node of edge e
  let nd : Fin E → Fin N := fun e => ⟨(rc (ix1 e)).toInt.toNat, by have := hrc e; omega⟩
  -- edge e's word reads as node n exactly when n is its node
  have hnd : ∀ (e : Fin E) (n : Fin N), (rc (ix1 e)).toInt = (n.val : Int) ↔ n = nd e := by
    intro e n
    have h := hrc e
    constructor
    · intro hn
      refine Fin.ext ?_
      show n.val = (rc (ix1 e)).toInt.toNat
      omega
    · rintro rfl
      show (rc (ix1 e)).toInt = (((rc (ix1 e)).toInt.toNat : Nat) : Int)
      omega
  -- the inner scatter at entry (n, j): from zero, the sum of the update entries of the edges at node n
  have hin : ∀ n : Fin N, Host.scatterAdd (F := Ideal) dN ZN (broadcastInDim ⟨2, ![E, 1]⟩ ![0] hbE rc) U (ix2 n j)
      = ∑ e : Fin E, if (rc (ix1 e)).toInt = (n.val : Int) then U (ix2 e j) else 0 := by
    intro n
    rw [Cert.ScatterRows.hostScatterAdd_apply dN wfN hdN, hZN, zero_add]
    refine Finset.sum_congr rfl fun e _ => ?_
    rw [col_apply]
  -- the picked graph word of edge e is the graph word of its node
  have hpick : ∀ e : Fin E,
      broadcastInDim ⟨2, ![E, 1]⟩ ![0] hbE (Host.gather gd ng (broadcastInDim ⟨2, ![E, 1]⟩ ![0] hbE rcw)) (ix2 e (0 : Fin 1))
        = ng (ix1 (nd e)) := by
    intro e
    rw [col_apply, hgd, Cert.Rows2.gather_pick1_apply hN wfg]
    refine congrArg ng (congrArg ix1 (Fin.ext ?_))
    show min (broadcastInDim ⟨2, ![E, 1]⟩ ![0] hbE rcw (ix2 e (0 : Fin 1))).toInt.toNat (N - 1) = (rc (ix1 e)).toInt.toNat
    rw [col_apply, hrcw]
    have := hrc e
    omega
  rw [Cert.ScatterRows.hostScatterAdd_apply dG wfG hdG, Cert.ScatterRows.hostScatterAdd_apply dE wfE hdE]
  congr 1
  calc ∑ n : Fin N, (if (broadcastInDim ⟨2, ![N, 1]⟩ ![0] hbN ng (ix2 n (0 : Fin 1))).toInt = (g.val : Int)
          then Host.scatterAdd (F := Ideal) dN ZN (broadcastInDim ⟨2, ![E, 1]⟩ ![0] hbE rc) U (ix2 n j) else 0)
      = ∑ n : Fin N, ∑ e : Fin E, (if (ng (ix1 n)).toInt = (g.val : Int)
          then (if (rc (ix1 e)).toInt = (n.val : Int) then U (ix2 e j) else 0) else 0) := by
        refine Finset.sum_congr rfl fun n _ => ?_
        rw [col_apply, hin]
        by_cases hP : (ng (ix1 n)).toInt = (g.val : Int)
        · simp only [if_pos hP]
        · simp only [if_neg hP, Finset.sum_const_zero]
    _ = ∑ e : Fin E, ∑ n : Fin N, (if (ng (ix1 n)).toInt = (g.val : Int)
          then (if (rc (ix1 e)).toInt = (n.val : Int) then U (ix2 e j) else 0) else 0) := Finset.sum_comm
    _ = ∑ e : Fin E, (if (broadcastInDim ⟨2, ![E, 1]⟩ ![0] hbE
            (Host.gather gd ng (broadcastInDim ⟨2, ![E, 1]⟩ ![0] hbE rcw)) (ix2 e (0 : Fin 1))).toInt = (g.val : Int)
          then U (ix2 e j) else 0) := by
        refine Finset.sum_congr rfl fun e _ => ?_
        rw [hpick, Finset.sum_eq_single (nd e)]
        · rw [if_pos ((hnd e (nd e)).2 rfl)]
        · intro n _ hne
          rw [if_neg (fun h => hne ((hnd e n).1 h)), ite_self]
        · intro h
          exact absurd (Finset.mem_univ _) h

end Cert.EdgeRegroup

end
-- ==== Proof.Bridge.lean ====
/-
  The reference program read as the composition the kernel program computes.

  The reference is one chain of whole-array operations. Cut at the places where the kernel program hands arrays from
  the host to a kernel region and back, it is: the edge layers e1, e2 of the edge features and the gathered global rows;
  the sums of e1 and e2 into the receiving nodes, divided by the (at least one) number of edges received; the two node
  layers of the node features, these two means and the gathered global rows; the mean of the node rows over each
  graph; the mean of the second edge layer over each graph's edges; and the output layer of the two means and the
  global features. Each cut is the same term grouped differently, except the edge means: the reference sums the
  edge rows e2 directly into the graph of the edge's receiving node, where the kernel program sums the node sums of e2
  over each graph's nodes, and likewise counts a graph's edges directly where the kernel program adds up the nodes'
  edge counts. Summing into nodes and then nodes into graphs is summing into the graph of the node, because every
  receiving-node word is a valid node; a valid (non-negative) word is not changed by the wrap of negative indices.
-/
import proofs.«173816_j89103391522964_2_alg».proof.Proof.HostSide
import proofs.«173816_j89103391522964_2_alg».proof.Proof.Region0
import proofs.«173816_j89103391522964_2_alg».proof.Proof.Region1
import proofs.«173816_j89103391522964_2_alg».proof.Proof.LibEdgeRegroup

set_option maxRecDepth 16384

noncomputable section

namespace Cert.GraphNet

open Idealize.ShloMosaic Idealize.ShloMosaic.ValueIdx
open Cert.ReferenceIdeal Cert.ReferenceIdeal.Gen

attribute [local irreducible] Host.scatterAdd Host.gather

/-! ## The reference's stages, regrouped (any float instance) -/

/-- The reference's result is the output layer of its node means and its edge means. -/
theorem head_ref {F : FTy → Type} [FloatOps F] (x0 : FVec F S20000x64 .f32) (x1 : FVec F S320000x32 .f32) (x2 : FVec F S16x16 .f32) (x3 : FVec F S256x32 .f32) (x4 : FVec F S256 .f32) (x5 : FVec F S256x64 .f32) (x6 : FVec F S256x256 .f32) (x7 : FVec F S256 .f32) (x8 : FVec F S128x256 .f32) (x9 : FVec F S128x16 .f32) (x10 : FVec F S128 .f32) (x11 : FVec F S128x256 .f32) (x12 : FVec F S128x128 .f32) (x13 : FVec F S128x16 .f32) (x14 : FVec F S128 .f32) (x15 : FVec F S128x128 .f32) (x16 : FVec F S128x128 .f32) (x17 : FVec F S128x16 .f32) (x18 : FVec F S128 .f32) (x19 : IVec S320000 32) (x20 : IVec S20000 32) :
    Cert.ReferenceIdeal.Read.val_main_v111 (F := F) x0 x1 x2 x3 x4 x5 x6 x7 x8 x9 x10 x11 x12 x13 x14 x15 x16 x17 x18 x19 x20
      = Cert.KernelIdeal.HostSide.head (Cert.ReferenceIdeal.Read.val_main_v89 (F := F) x0 x1 x2 x3 x4 x5 x6 x7 x8 x9 x10 x11 x12 x13 x14 x19 x20) (Cert.ReferenceIdeal.Read.val_main_v100 (F := F) x1 x2 x3 x4 x8 x9 x10 x19 x20) x2 x15 x16 x17 x18 := rfl

/-- The reference's node means are the graph means of its second node layer by the graphs' node counts. -/
theorem nodeMean_ref {F : FTy → Type} [FloatOps F] (x0 : FVec F S20000x64 .f32) (x1 : FVec F S320000x32 .f32) (x2 : FVec F S16x16 .f32) (x3 : FVec F S256x32 .f32) (x4 : FVec F S256 .f32) (x5 : FVec F S256x64 .f32) (x6 : FVec F S256x256 .f32) (x7 : FVec F S256 .f32) (x8 : FVec F S128x256 .f32) (x9 : FVec F S128x16 .f32) (x10 : FVec F S128 .f32) (x11 : FVec F S128x256 .f32) (x12 : FVec F S128x128 .f32) (x13 : FVec F S128x16 .f32) (x14 : FVec F S128 .f32) (x19 : IVec S320000 32) (x20 : IVec S20000 32) :
    Cert.ReferenceIdeal.Read.val_main_v89 (F := F) x0 x1 x2 x3 x4 x5 x6 x7 x8 x9 x10 x11 x12 x13 x14 x19 x20
      = Cert.KernelIdeal.HostSide.graphMean (Cert.ReferenceIdeal.Read.val_main_v78 (F := F) x0 x1 x2 x3 x4 x5 x6 x7 x8 x9 x10 x11 x12 x13 x14 x19 x20) (Cert.ReferenceIdeal.Read.val_main_v85 (F := F) x20) x20 := rfl

/-- The reference's second edge layer is the second edge layer of its first edge layer and gathered global rows. -/
theorem edge2_ref {F : FTy → Type} [FloatOps F] (x1 : FVec F S320000x32 .f32) (x2 : FVec F S16x16 .f32) (x3 : FVec F S256x32 .f32) (x4 : FVec F S256 .f32) (x8 : FVec F S128x256 .f32) (x9 : FVec F S128x16 .f32) (x10 : FVec F S128 .f32) (x19 : IVec S320000 32) (x20 : IVec S20000 32) :
    Cert.ReferenceIdeal.Read.val_main_v48 (F := F) x1 x2 x3 x4 x8 x9 x10 x19 x20
      = Cert.KernelIdeal.Edge.edge2 (Cert.ReferenceIdeal.Read.val_main_v12 (F := F) x1 x3 x4) (Cert.ReferenceIdeal.Read.val_main_v41 (F := F) x2 x19 x20) x8 x9 x10 := rfl

/-! ## The aggregated messages (extended reals: a change of float format is the identity) -/

/-- The mean of the first edge layer over each node's received edges. -/
theorem agg1_ref (x1 : FVec Ideal S320000x32 .f32) (x3 : FVec Ideal S256x32 .f32) (x4 : FVec Ideal S256 .f32) (x19 : IVec S320000 32) :
    Host.divf (Cert.KernelIdeal.HostSide.aggSum256 (F := Ideal) (Cert.ReferenceIdeal.Read.val_main_v12 (F := Ideal) x1 x3 x4) x19) (Cert.ReferenceIdeal.Read.val_main_v22 (F := Ideal) x19)
      = Cert.ReferenceIdeal.Read.val_main_v23 (F := Ideal) x1 x3 x4 x19 := rfl

/-- The sum of the second edge layer over each node's received edges. -/
theorem aggSum2_ref (x1 : FVec Ideal S320000x32 .f32) (x2 : FVec Ideal S16x16 .f32) (x3 : FVec Ideal S256x32 .f32) (x4 : FVec Ideal S256 .f32) (x8 : FVec Ideal S128x256 .f32) (x9 : FVec Ideal S128x16 .f32) (x10 : FVec Ideal S128 .f32) (x19 : IVec S320000 32) (x20 : IVec S20000 32) :
    Cert.KernelIdeal.HostSide.aggSum128 (F := Ideal) (Cert.ReferenceIdeal.Read.val_main_v48 (F := Ideal) x1 x2 x3 x4 x8 x9 x10 x19 x20) x19
      = Cert.ReferenceIdeal.Read.val_main_v51 (F := Ideal) x1 x2 x3 x4 x8 x9 x10 x19 x20 := rfl

/-- The mean of the second edge layer over each node's received edges. -/
theorem agg2_ref (x1 : FVec Ideal S320000x32 .f32) (x2 : FVec Ideal S16x16 .f32) (x3 : FVec Ideal S256x32 .f32) (x4 : FVec Ideal S256 .f32) (x8 : FVec Ideal S128x256 .f32) (x9 : FVec Ideal S128x16 .f32) (x10 : FVec Ideal S128 .f32) (x19 : IVec S320000 32) (x20 : IVec S20000 32) :
    Host.divf (Cert.KernelIdeal.HostSide.aggSum128 (F := Ideal) (Cert.ReferenceIdeal.Read.val_main_v48 (F := Ideal) x1 x2 x3 x4 x8 x9 x10 x19 x20) x19) (Cert.ReferenceIdeal.Read.val_main_v58 (F := Ideal) x19)
      = Cert.ReferenceIdeal.Read.val_main_v59 (F := Ideal) x1 x2 x3 x4 x8 x9 x10 x19 x20 := rfl

/-! ## The edge means -/

/-- Edge rows summed into their receiving nodes and the node rows then summed over each graph's nodes are the edge
    rows summed into the graph of their receiving node. -/
theorem edgeSum_regroup (U : FVec Ideal S320000x128 .f32) (x19 : IVec S320000 32) (x20 : IVec S20000 32) (hrc : ∀ e : Fin 320000, 0 ≤ (x19 (ix1 e)).toInt ∧ (x19 (ix1 e)).toInt < 20000) :
    Host.scatterAdd scatter_S16x128_S20000x1_S20000x128_1_0_0_1 (Cert.ReferenceIdeal.Read.val_main_v79 (F := Ideal)) (Cert.ReferenceIdeal.Read.val_main_v80 (F := Ideal) x20)
        (Host.scatterAdd scatter_S20000x128_S320000x1_S320000x128_1_0_0_1 (Cert.ReferenceIdeal.Read.val_main_v49 (F := Ideal)) (Cert.ReferenceIdeal.Read.val_main_v50 (F := Ideal) x19) U)
      = Host.scatterAdd scatter_S16x128_S320000x1_S320000x128_1_0_0_1 (Cert.ReferenceIdeal.Read.val_main_v90 (F := Ideal)) (Cert.ReferenceIdeal.Read.val_main_v91 (F := Ideal) x19 x20) U :=
  Cert.EdgeRegroup.regroup (N := 20000) (E := 320000) (G := 16) (D := 128) (by decide)
    scatter_S20000x128_S320000x1_S320000x128_1_0_0_1 scatter_S20000x128_S320000x1_S320000x128_1_0_0_1.wf rfl
    scatter_S16x128_S20000x1_S20000x128_1_0_0_1 scatter_S16x128_S20000x1_S20000x128_1_0_0_1.wf rfl
    scatter_S16x128_S320000x1_S320000x128_1_0_0_1 scatter_S16x128_S320000x1_S320000x128_1_0_0_1.wf rfl
    gather_S20000_S320000x1_S320000_n_0_n_n_0_1_1 gather_S20000_S320000x1_S320000_n_0_n_n_0_1_1.wf rfl
    (Cert.ReferenceIdeal.Read.val_main_v49 (F := Ideal)) (fun i => (Cert.Bridge.hostSplat_apply _ _ i).trans Ideal.ofBits_zero_f32) (Cert.ReferenceIdeal.Read.val_main_v79 (F := Ideal))
    x19 x20 (fun e => ⟨(hrc e).1, by have := (hrc e).2; omega⟩)
    bcast_S320000_S320000x1_0 bcast_S20000_S20000x1_0
    (Cert.ReferenceIdeal.Read.val_main_v4 (F := Ideal) x19)
    (fun e => congrArg BitVec.toInt (Cert.EdgeRegroup.wrap_eq 20000#32 x19 bcast_S_S320000 e (hrc e).1))
    U

/-- The nodes' edge counts summed over each graph's nodes are the graph's edge counts. -/
theorem cnt_regroup (x19 : IVec S320000 32) (x20 : IVec S20000 32) (hrc : ∀ e : Fin 320000, 0 ≤ (x19 (ix1 e)).toInt ∧ (x19 (ix1 e)).toInt < 20000) :
    Cert.KernelIdeal.HostSide.cnt16 (F := Ideal) (Cert.ReferenceIdeal.Read.val_main_v19 (F := Ideal) x19) x20 = Cert.ReferenceIdeal.Read.val_main_v96 (F := Ideal) x19 x20 :=
  Cert.EdgeRegroup.regroup (N := 20000) (E := 320000) (G := 16) (D := 1) (by decide)
    scatter_S20000x1_S320000x1_S320000x1_1_0_0_1 scatter_S20000x1_S320000x1_S320000x1_1_0_0_1.wf rfl
    scatter_S16x1_S20000x1_S20000x1_1_0_0_1 scatter_S16x1_S20000x1_S20000x1_1_0_0_1.wf rfl
    scatter_S16x1_S320000x1_S320000x1_1_0_0_1 scatter_S16x1_S320000x1_S320000x1_1_0_0_1.wf rfl
    gather_S20000_S320000x1_S320000_n_0_n_n_0_1_1 gather_S20000_S320000x1_S320000_n_0_n_n_0_1_1.wf rfl
    (Cert.ReferenceIdeal.Read.val_main_v17 (F := Ideal)) (fun i => (Cert.Bridge.hostSplat_apply _ _ i).trans Ideal.ofBits_zero_f32) (Cert.ReferenceIdeal.Read.val_main_v83 (F := Ideal))
    x19 x20 (fun e => ⟨(hrc e).1, by have := (hrc e).2; omega⟩)
    bcast_S320000_S320000x1_0 bcast_S20000_S20000x1_0
    (Cert.ReferenceIdeal.Read.val_main_v4 (F := Ideal) x19)
    (fun e => congrArg BitVec.toInt (Cert.EdgeRegroup.wrap_eq 20000#32 x19 bcast_S_S320000 e (hrc e).1))
    (Cert.ReferenceIdeal.Read.val_main_v16 (F := Ideal))

/-- The reference's edge means are the graph means of the node sums of its second edge layer by the graphs' summed
    node edge counts. -/
theorem edgeMean_ref (x1 : FVec Ideal S320000x32 .f32) (x2 : FVec Ideal S16x16 .f32) (x3 : FVec Ideal S256x32 .f32) (x4 : FVec Ideal S256 .f32) (x8 : FVec Ideal S128x256 .f32) (x9 : FVec Ideal S128x16 .f32) (x10 : FVec Ideal S128 .f32) (x19 : IVec S320000 32) (x20 : IVec S20000 32) (hrc : ∀ e : Fin 320000, 0 ≤ (x19 (ix1 e)).toInt ∧ (x19 (ix1 e)).toInt < 20000) :
    Cert.KernelIdeal.HostSide.graphMean (F := Ideal) (Cert.ReferenceIdeal.Read.val_main_v51 (F := Ideal) x1 x2 x3 x4 x8 x9 x10 x19 x20) (Cert.KernelIdeal.HostSide.cnt16 (F := Ideal) (Cert.ReferenceIdeal.Read.val_main_v19 (F := Ideal) x19) x20) x20
      = Cert.ReferenceIdeal.Read.val_main_v100 (F := Ideal) x1 x2 x3 x4 x8 x9 x10 x19 x20 := by
  unfold Cert.KernelIdeal.HostSide.graphMean Cert.ReferenceIdeal.Read.val_main_v100 Cert.ReferenceIdeal.Read.val_main_v99 Cert.ReferenceIdeal.Read.val_main_v98 Cert.ReferenceIdeal.Read.val_main_v92 Cert.ReferenceIdeal.Read.val_main_v51
  exact congrArg₂ Host.divf (edgeSum_regroup _ x19 x20 hrc)
    (congrArg (broadcastInDim S16x128 ![0, 1] bcast_S16x1_S16x128_0_1) (congrArg₂ maximumf (cnt_regroup x19 x20 hrc) rfl))

end Cert.GraphNet

end
-- ==== Proof.KernelValue.lean ====
/-
  The idealized kernel's result as one function of the argument arrays.

  The contents of the buffers at the five segment boundaries are read back, boundary by boundary, to the launch
  memory: an argument array passes through every host stretch and every region unchanged; the first region leaves the
  two edge layers of its entry arrays; the host operations between the regions leave the per-node edge counts, the
  edge layers summed and averaged into their receiving nodes, and each node's global row; the second region leaves the
  two node layers; the last stretch averages over each graph and applies the output layer.
-/
import proofs.«173816_j89103391522964_2_alg».proof.Proof.Gen.KernelIdeal.Frame
import proofs.«173816_j89103391522964_2_alg».proof.Proof.RefImports
import proofs.«173816_j89103391522964_2_alg».proof.Proof.HostSide
import proofs.«173816_j89103391522964_2_alg».proof.Proof.Region0
import proofs.«173816_j89103391522964_2_alg».proof.Proof.Region1

set_option maxRecDepth 16384

noncomputable section

namespace Cert.KernelIdeal.Fold

open Idealize.ShloMosaic Idealize.ShloMosaic.TcCoe Idealize.ShloMosaic.StableHlo Idealize.SL.Sem
open Cert.KernelIdeal Cert.KernelIdeal.Gen Cert.KernelIdeal.HostSide Cert.KernelIdeal.Edge Cert.KernelIdeal.Node

attribute [local irreducible] Host.scatterAdd Host.gather

variable (m : (ℓ : Loc nD τ sig) → Buf (Elt Ideal) ℓ) (ρ : Dev nD → PrngReg) (c : Dev nD)

/-! ## At the first region's entry -/

theorem w1_main_arg0 : W1 m ρ c (Proc.devRef .tc main_arg0) = (m ((c : Thread nD τ).loc main_arg0)) := host0_main_arg0 (W0 m ρ c)
theorem w1_main_arg1 : W1 m ρ c (Proc.devRef .tc main_arg1) = (m ((c : Thread nD τ).loc main_arg1)) := host0_main_arg1 (W0 m ρ c)
theorem w1_main_arg2 : W1 m ρ c (Proc.devRef .tc main_arg2) = (m ((c : Thread nD τ).loc main_arg2)) := host0_main_arg2 (W0 m ρ c)
theorem w1_main_arg3 : W1 m ρ c (Proc.devRef .tc main_arg3) = (m ((c : Thread nD τ).loc main_arg3)) := host0_main_arg3 (W0 m ρ c)
theorem w1_main_arg4 : W1 m ρ c (Proc.devRef .tc main_arg4) = (m ((c : Thread nD τ).loc main_arg4)) := host0_main_arg4 (W0 m ρ c)
theorem w1_main_arg5 : W1 m ρ c (Proc.devRef .tc main_arg5) = (m ((c : Thread nD τ).loc main_arg5)) := host0_main_arg5 (W0 m ρ c)
theorem w1_main_arg6 : W1 m ρ c (Proc.devRef .tc main_arg6) = (m ((c : Thread nD τ).loc main_arg6)) := host0_main_arg6 (W0 m ρ c)
theorem w1_main_arg7 : W1 m ρ c (Proc.devRef .tc main_arg7) = (m ((c : Thread nD τ).loc main_arg7)) := host0_main_arg7 (W0 m ρ c)
theorem w1_main_arg8 : W1 m ρ c (Proc.devRef .tc main_arg8) = (m ((c : Thread nD τ).loc main_arg8)) := host0_main_arg8 (W0 m ρ c)
theorem w1_main_arg9 : W1 m ρ c (Proc.devRef .tc main_arg9) = (m ((c : Thread nD τ).loc main_arg9)) := host0_main_arg9 (W0 m ρ c)
theorem w1_main_arg10 : W1 m ρ c (Proc.devRef .tc main_arg10) = (m ((c : Thread nD τ).loc main_arg10)) := host0_main_arg10 (W0 m ρ c)
theorem w1_main_arg11 : W1 m ρ c (Proc.devRef .tc main_arg11) = (m ((c : Thread nD τ).loc main_arg11)) := host0_main_arg11 (W0 m ρ c)
theorem w1_main_arg12 : W1 m ρ c (Proc.devRef .tc main_arg12) = (m ((c : Thread nD τ).loc main_arg12)) := host0_main_arg12 (W0 m ρ c)
theorem w1_main_arg13 : W1 m ρ c (Proc.devRef .tc main_arg13) = (m ((c : Thread nD τ).loc main_arg13)) := host0_main_arg13 (W0 m ρ c)
theorem w1_main_arg14 : W1 m ρ c (Proc.devRef .tc main_arg14) = (m ((c : Thread nD τ).loc main_arg14)) := host0_main_arg14 (W0 m ρ c)
theorem w1_main_arg15 : W1 m ρ c (Proc.devRef .tc main_arg15) = (m ((c : Thread nD τ).loc main_arg15)) := host0_main_arg15 (W0 m ρ c)
theorem w1_main_arg16 : W1 m ρ c (Proc.devRef .tc main_arg16) = (m ((c : Thread nD τ).loc main_arg16)) := host0_main_arg16 (W0 m ρ c)
theorem w1_main_arg17 : W1 m ρ c (Proc.devRef .tc main_arg17) = (m ((c : Thread nD τ).loc main_arg17)) := host0_main_arg17 (W0 m ρ c)
theorem w1_main_arg18 : W1 m ρ c (Proc.devRef .tc main_arg18) = (m ((c : Thread nD τ).loc main_arg18)) := host0_main_arg18 (W0 m ρ c)
theorem w1_main_arg19 : W1 m ρ c (Proc.devRef .tc main_arg19) = (m ((c : Thread nD τ).loc main_arg19)) := host0_main_arg19 (W0 m ρ c)
theorem w1_main_arg20 : W1 m ρ c (Proc.devRef .tc main_arg20) = (m ((c : Thread nD τ).loc main_arg20)) := host0_main_arg20 (W0 m ρ c)
theorem w1_v13 : W1 m ρ c (Proc.devRef .tc main_v13) = (Cert.ReferenceIdeal.Read.val_main_v41 (F := Ideal) (m ((c : Thread nD τ).loc main_arg2)) (m ((c : Thread nD τ).loc main_arg19)) (m ((c : Thread nD τ).loc main_arg20))) := host0_v13 (W0 m ρ c)

/-! ## At the first region's exit -/

theorem w2_main_arg0 : W2 m ρ c (Proc.devRef .tc main_arg0) = (m ((c : Thread nD τ).loc main_arg0)) := (W2_of_ne m ρ c main_arg0 (by decide)).trans (w1_main_arg0 m ρ c)
theorem w2_main_arg2 : W2 m ρ c (Proc.devRef .tc main_arg2) = (m ((c : Thread nD τ).loc main_arg2)) := (W2_of_ne m ρ c main_arg2 (by decide)).trans (w1_main_arg2 m ρ c)
theorem w2_main_arg5 : W2 m ρ c (Proc.devRef .tc main_arg5) = (m ((c : Thread nD τ).loc main_arg5)) := (W2_of_ne m ρ c main_arg5 (by decide)).trans (w1_main_arg5 m ρ c)
theorem w2_main_arg6 : W2 m ρ c (Proc.devRef .tc main_arg6) = (m ((c : Thread nD τ).loc main_arg6)) := (W2_of_ne m ρ c main_arg6 (by decide)).trans (w1_main_arg6 m ρ c)
theorem w2_main_arg7 : W2 m ρ c (Proc.devRef .tc main_arg7) = (m ((c : Thread nD τ).loc main_arg7)) := (W2_of_ne m ρ c main_arg7 (by decide)).trans (w1_main_arg7 m ρ c)
theorem w2_main_arg11 : W2 m ρ c (Proc.devRef .tc main_arg11) = (m ((c : Thread nD τ).loc main_arg11)) := (W2_of_ne m ρ c main_arg11 (by decide)).trans (w1_main_arg11 m ρ c)
theorem w2_main_arg12 : W2 m ρ c (Proc.devRef .tc main_arg12) = (m ((c : Thread nD τ).loc main_arg12)) := (W2_of_ne m ρ c main_arg12 (by decide)).trans (w1_main_arg12 m ρ c)
theorem w2_main_arg13 : W2 m ρ c (Proc.devRef .tc main_arg13) = (m ((c : Thread nD τ).loc main_arg13)) := (W2_of_ne m ρ c main_arg13 (by decide)).trans (w1_main_arg13 m ρ c)
theorem w2_main_arg14 : W2 m ρ c (Proc.devRef .tc main_arg14) = (m ((c : Thread nD τ).loc main_arg14)) := (W2_of_ne m ρ c main_arg14 (by decide)).trans (w1_main_arg14 m ρ c)
theorem w2_main_arg15 : W2 m ρ c (Proc.devRef .tc main_arg15) = (m ((c : Thread nD τ).loc main_arg15)) := (W2_of_ne m ρ c main_arg15 (by decide)).trans (w1_main_arg15 m ρ c)
theorem w2_main_arg16 : W2 m ρ c (Proc.devRef .tc main_arg16) = (m ((c : Thread nD τ).loc main_arg16)) := (W2_of_ne m ρ c main_arg16 (by decide)).trans (w1_main_arg16 m ρ c)
theorem w2_main_arg17 : W2 m ρ c (Proc.devRef .tc main_arg17) = (m ((c : Thread nD τ).loc main_arg17)) := (W2_of_ne m ρ c main_arg17 (by decide)).trans (w1_main_arg17 m ρ c)
theorem w2_main_arg18 : W2 m ρ c (Proc.devRef .tc main_arg18) = (m ((c : Thread nD τ).loc main_arg18)) := (W2_of_ne m ρ c main_arg18 (by decide)).trans (w1_main_arg18 m ρ c)
theorem w2_main_arg19 : W2 m ρ c (Proc.devRef .tc main_arg19) = (m ((c : Thread nD τ).loc main_arg19)) := (W2_of_ne m ρ c main_arg19 (by decide)).trans (w1_main_arg19 m ρ c)
theorem w2_main_arg20 : W2 m ρ c (Proc.devRef .tc main_arg20) = (m ((c : Thread nD τ).loc main_arg20)) := (W2_of_ne m ρ c main_arg20 (by decide)).trans (w1_main_arg20 m ρ c)
theorem w2_v14_0 : W2 m ρ c (Proc.devRef .tc main_v14_0) = (Cert.ReferenceIdeal.Read.val_main_v12 (F := Ideal) (m ((c : Thread nD τ).loc main_arg1)) (m ((c : Thread nD τ).loc main_arg3)) (m ((c : Thread nD τ).loc main_arg4))) :=
  (W2_arr m ρ c 7).trans ((final7 (V1 m ρ) c).trans (by
    show Cert.ReferenceIdeal.Read.val_main_v12 (F := Ideal) (W1 m ρ c (Proc.devRef .tc main_arg1)) (W1 m ρ c (Proc.devRef .tc main_arg3)) (W1 m ρ c (Proc.devRef .tc main_arg4)) = _
    rw [w1_main_arg1 m ρ c, w1_main_arg3 m ρ c, w1_main_arg4 m ρ c]))
theorem w2_v14_1 : W2 m ρ c (Proc.devRef .tc main_v14_1) = (edge2 (F := Ideal) (Cert.ReferenceIdeal.Read.val_main_v12 (F := Ideal) (m ((c : Thread nD τ).loc main_arg1)) (m ((c : Thread nD τ).loc main_arg3)) (m ((c : Thread nD τ).loc main_arg4))) (Cert.ReferenceIdeal.Read.val_main_v41 (F := Ideal) (m ((c : Thread nD τ).loc main_arg2)) (m ((c : Thread nD τ).loc main_arg19)) (m ((c : Thread nD τ).loc main_arg20))) (m ((c : Thread nD τ).loc main_arg8)) (m ((c : Thread nD τ).loc main_arg9)) (m ((c : Thread nD τ).loc main_arg10))) :=
  (W2_arr m ρ c 8).trans ((final8 (V1 m ρ) c).trans (by
    show edge2 (F := Ideal) (Cert.ReferenceIdeal.Read.val_main_v12 (F := Ideal) (W1 m ρ c (Proc.devRef .tc main_arg1)) (W1 m ρ c (Proc.devRef .tc main_arg3)) (W1 m ρ c (Proc.devRef .tc main_arg4))) (W1 m ρ c (Proc.devRef .tc main_v13)) (W1 m ρ c (Proc.devRef .tc main_arg8)) (W1 m ρ c (Proc.devRef .tc main_arg9)) (W1 m ρ c (Proc.devRef .tc main_arg10)) = _
    rw [w1_main_arg1 m ρ c, w1_main_arg3 m ρ c, w1_main_arg4 m ρ c, w1_v13 m ρ c, w1_main_arg8 m ρ c, w1_main_arg9 m ρ c, w1_main_arg10 m ρ c]))

/-! ## At the second region's entry -/

theorem w3_main_arg0 : W3 m ρ c (Proc.devRef .tc main_arg0) = (m ((c : Thread nD τ).loc main_arg0)) := (host1_main_arg0 (W2 m ρ c)).trans (w2_main_arg0 m ρ c)
theorem w3_main_arg2 : W3 m ρ c (Proc.devRef .tc main_arg2) = (m ((c : Thread nD τ).loc main_arg2)) := (host1_main_arg2 (W2 m ρ c)).trans (w2_main_arg2 m ρ c)
theorem w3_main_arg5 : W3 m ρ c (Proc.devRef .tc main_arg5) = (m ((c : Thread nD τ).loc main_arg5)) := (host1_main_arg5 (W2 m ρ c)).trans (w2_main_arg5 m ρ c)
theorem w3_main_arg6 : W3 m ρ c (Proc.devRef .tc main_arg6) = (m ((c : Thread nD τ).loc main_arg6)) := (host1_main_arg6 (W2 m ρ c)).trans (w2_main_arg6 m ρ c)
theorem w3_main_arg7 : W3 m ρ c (Proc.devRef .tc main_arg7) = (m ((c : Thread nD τ).loc main_arg7)) := (host1_main_arg7 (W2 m ρ c)).trans (w2_main_arg7 m ρ c)
theorem w3_main_arg11 : W3 m ρ c (Proc.devRef .tc main_arg11) = (m ((c : Thread nD τ).loc main_arg11)) := (host1_main_arg11 (W2 m ρ c)).trans (w2_main_arg11 m ρ c)
theorem w3_main_arg12 : W3 m ρ c (Proc.devRef .tc main_arg12) = (m ((c : Thread nD τ).loc main_arg12)) := (host1_main_arg12 (W2 m ρ c)).trans (w2_main_arg12 m ρ c)
theorem w3_main_arg13 : W3 m ρ c (Proc.devRef .tc main_arg13) = (m ((c : Thread nD τ).loc main_arg13)) := (host1_main_arg13 (W2 m ρ c)).trans (w2_main_arg13 m ρ c)
theorem w3_main_arg14 : W3 m ρ c (Proc.devRef .tc main_arg14) = (m ((c : Thread nD τ).loc main_arg14)) := (host1_main_arg14 (W2 m ρ c)).trans (w2_main_arg14 m ρ c)
theorem w3_main_arg15 : W3 m ρ c (Proc.devRef .tc main_arg15) = (m ((c : Thread nD τ).loc main_arg15)) := (host1_main_arg15 (W2 m ρ c)).trans (w2_main_arg15 m ρ c)
theorem w3_main_arg16 : W3 m ρ c (Proc.devRef .tc main_arg16) = (m ((c : Thread nD τ).loc main_arg16)) := (host1_main_arg16 (W2 m ρ c)).trans (w2_main_arg16 m ρ c)
theorem w3_main_arg17 : W3 m ρ c (Proc.devRef .tc main_arg17) = (m ((c : Thread nD τ).loc main_arg17)) := (host1_main_arg17 (W2 m ρ c)).trans (w2_main_arg17 m ρ c)
theorem w3_main_arg18 : W3 m ρ c (Proc.devRef .tc main_arg18) = (m ((c : Thread nD τ).loc main_arg18)) := (host1_main_arg18 (W2 m ρ c)).trans (w2_main_arg18 m ρ c)
theorem w3_main_arg20 : W3 m ρ c (Proc.devRef .tc main_arg20) = (m ((c : Thread nD τ).loc main_arg20)) := (host1_main_arg20 (W2 m ρ c)).trans (w2_main_arg20 m ρ c)
theorem w3_v18 : W3 m ρ c (Proc.devRef .tc main_v18) = (Cert.ReferenceIdeal.Read.val_main_v19 (F := Ideal) (m ((c : Thread nD τ).loc main_arg19))) :=
  (host1_v18 (W2 m ρ c)).trans (by rw [w2_main_arg19 m ρ c])
theorem w3_v28 : W3 m ρ c (Proc.devRef .tc main_v28) = (aggSum128 (F := Ideal) (edge2 (F := Ideal) (Cert.ReferenceIdeal.Read.val_main_v12 (F := Ideal) (m ((c : Thread nD τ).loc main_arg1)) (m ((c : Thread nD τ).loc main_arg3)) (m ((c : Thread nD τ).loc main_arg4))) (Cert.ReferenceIdeal.Read.val_main_v41 (F := Ideal) (m ((c : Thread nD τ).loc main_arg2)) (m ((c : Thread nD τ).loc main_arg19)) (m ((c : Thread nD τ).loc main_arg20))) (m ((c : Thread nD τ).loc main_arg8)) (m ((c : Thread nD τ).loc main_arg9)) (m ((c : Thread nD τ).loc main_arg10))) (m ((c : Thread nD τ).loc main_arg19))) :=
  (host1_v28 (W2 m ρ c)).trans (by rw [w2_v14_1 m ρ c, w2_main_arg19 m ρ c])
theorem w3_v30 : W3 m ρ c (Proc.devRef .tc main_v30) = (Host.divf (aggSum256 (F := Ideal) (Cert.ReferenceIdeal.Read.val_main_v12 (F := Ideal) (m ((c : Thread nD τ).loc main_arg1)) (m ((c : Thread nD τ).loc main_arg3)) (m ((c : Thread nD τ).loc main_arg4))) (m ((c : Thread nD τ).loc main_arg19))) (Cert.ReferenceIdeal.Read.val_main_v22 (F := Ideal) (m ((c : Thread nD τ).loc main_arg19)))) :=
  (host1_v30 (W2 m ρ c)).trans (by rw [w2_v14_0 m ρ c, w2_main_arg19 m ρ c])
theorem w3_v32 : W3 m ρ c (Proc.devRef .tc main_v32) = (Host.divf (aggSum128 (F := Ideal) (edge2 (F := Ideal) (Cert.ReferenceIdeal.Read.val_main_v12 (F := Ideal) (m ((c : Thread nD τ).loc main_arg1)) (m ((c : Thread nD τ).loc main_arg3)) (m ((c : Thread nD τ).loc main_arg4))) (Cert.ReferenceIdeal.Read.val_main_v41 (F := Ideal) (m ((c : Thread nD τ).loc main_arg2)) (m ((c : Thread nD τ).loc main_arg19)) (m ((c : Thread nD τ).loc main_arg20))) (m ((c : Thread nD τ).loc main_arg8)) (m ((c : Thread nD τ).loc main_arg9)) (m ((c : Thread nD τ).loc main_arg10))) (m ((c : Thread nD τ).loc main_arg19))) (Cert.ReferenceIdeal.Read.val_main_v58 (F := Ideal) (m ((c : Thread nD τ).loc main_arg19)))) :=
  (host1_v32 (W2 m ρ c)).trans (by rw [w2_v14_1 m ρ c, w2_main_arg19 m ρ c])
theorem w3_v39 : W3 m ρ c (Proc.devRef .tc main_v39) = (Cert.ReferenceIdeal.Read.val_main_v71 (F := Ideal) (m ((c : Thread nD τ).loc main_arg2)) (m ((c : Thread nD τ).loc main_arg20))) :=
  (host1_v39 (W2 m ρ c)).trans (by rw [w2_main_arg2 m ρ c, w2_main_arg20 m ρ c])

/-! ## At the second region's exit -/

theorem w4_main_arg2 : W4 m ρ c (Proc.devRef .tc main_arg2) = (m ((c : Thread nD τ).loc main_arg2)) := (W4_of_ne m ρ c main_arg2 (by decide)).trans (w3_main_arg2 m ρ c)
theorem w4_main_arg15 : W4 m ρ c (Proc.devRef .tc main_arg15) = (m ((c : Thread nD τ).loc main_arg15)) := (W4_of_ne m ρ c main_arg15 (by decide)).trans (w3_main_arg15 m ρ c)
theorem w4_main_arg16 : W4 m ρ c (Proc.devRef .tc main_arg16) = (m ((c : Thread nD τ).loc main_arg16)) := (W4_of_ne m ρ c main_arg16 (by decide)).trans (w3_main_arg16 m ρ c)
theorem w4_main_arg17 : W4 m ρ c (Proc.devRef .tc main_arg17) = (m ((c : Thread nD τ).loc main_arg17)) := (W4_of_ne m ρ c main_arg17 (by decide)).trans (w3_main_arg17 m ρ c)
theorem w4_main_arg18 : W4 m ρ c (Proc.devRef .tc main_arg18) = (m ((c : Thread nD τ).loc main_arg18)) := (W4_of_ne m ρ c main_arg18 (by decide)).trans (w3_main_arg18 m ρ c)
theorem w4_main_arg20 : W4 m ρ c (Proc.devRef .tc main_arg20) = (m ((c : Thread nD τ).loc main_arg20)) := (W4_of_ne m ρ c main_arg20 (by decide)).trans (w3_main_arg20 m ρ c)
theorem w4_v18 : W4 m ρ c (Proc.devRef .tc main_v18) = (Cert.ReferenceIdeal.Read.val_main_v19 (F := Ideal) (m ((c : Thread nD τ).loc main_arg19))) := (W4_of_ne m ρ c main_v18 (by decide)).trans (w3_v18 m ρ c)
theorem w4_v28 : W4 m ρ c (Proc.devRef .tc main_v28) = (aggSum128 (F := Ideal) (edge2 (F := Ideal) (Cert.ReferenceIdeal.Read.val_main_v12 (F := Ideal) (m ((c : Thread nD τ).loc main_arg1)) (m ((c : Thread nD τ).loc main_arg3)) (m ((c : Thread nD τ).loc main_arg4))) (Cert.ReferenceIdeal.Read.val_main_v41 (F := Ideal) (m ((c : Thread nD τ).loc main_arg2)) (m ((c : Thread nD τ).loc main_arg19)) (m ((c : Thread nD τ).loc main_arg20))) (m ((c : Thread nD τ).loc main_arg8)) (m ((c : Thread nD τ).loc main_arg9)) (m ((c : Thread nD τ).loc main_arg10))) (m ((c : Thread nD τ).loc main_arg19))) := (W4_of_ne m ρ c main_v28 (by decide)).trans (w3_v28 m ρ c)
theorem w4_v40 : W4 m ρ c (Proc.devRef .tc main_v40) = (node2 (F := Ideal) (m ((c : Thread nD τ).loc main_arg0)) (m ((c : Thread nD τ).loc main_arg5)) (Host.divf (aggSum256 (F := Ideal) (Cert.ReferenceIdeal.Read.val_main_v12 (F := Ideal) (m ((c : Thread nD τ).loc main_arg1)) (m ((c : Thread nD τ).loc main_arg3)) (m ((c : Thread nD τ).loc main_arg4))) (m ((c : Thread nD τ).loc main_arg19))) (Cert.ReferenceIdeal.Read.val_main_v22 (F := Ideal) (m ((c : Thread nD τ).loc main_arg19)))) (m ((c : Thread nD τ).loc main_arg6)) (m ((c : Thread nD τ).loc main_arg7)) (m ((c : Thread nD τ).loc main_arg11)) (Host.divf (aggSum128 (F := Ideal) (edge2 (F := Ideal) (Cert.ReferenceIdeal.Read.val_main_v12 (F := Ideal) (m ((c : Thread nD τ).loc main_arg1)) (m ((c : Thread nD τ).loc main_arg3)) (m ((c : Thread nD τ).loc main_arg4))) (Cert.ReferenceIdeal.Read.val_main_v41 (F := Ideal) (m ((c : Thread nD τ).loc main_arg2)) (m ((c : Thread nD τ).loc main_arg19)) (m ((c : Thread nD τ).loc main_arg20))) (m ((c : Thread nD τ).loc main_arg8)) (m ((c : Thread nD τ).loc main_arg9)) (m ((c : Thread nD τ).loc main_arg10))) (m ((c : Thread nD τ).loc main_arg19))) (Cert.ReferenceIdeal.Read.val_main_v58 (F := Ideal) (m ((c : Thread nD τ).loc main_arg19)))) (m ((c : Thread nD τ).loc main_arg12)) (Cert.ReferenceIdeal.Read.val_main_v71 (F := Ideal) (m ((c : Thread nD τ).loc main_arg2)) (m ((c : Thread nD τ).loc main_arg20))) (m ((c : Thread nD τ).loc main_arg13)) (m ((c : Thread nD τ).loc main_arg14))) :=
  (W4_arr m ρ c 11).trans ((final11 (V3 m ρ) c).trans (by
    show node2 (F := Ideal) (W3 m ρ c (Proc.devRef .tc main_arg0)) (W3 m ρ c (Proc.devRef .tc main_arg5)) (W3 m ρ c (Proc.devRef .tc main_v30)) (W3 m ρ c (Proc.devRef .tc main_arg6)) (W3 m ρ c (Proc.devRef .tc main_arg7)) (W3 m ρ c (Proc.devRef .tc main_arg11)) (W3 m ρ c (Proc.devRef .tc main_v32)) (W3 m ρ c (Proc.devRef .tc main_arg12)) (W3 m ρ c (Proc.devRef .tc main_v39)) (W3 m ρ c (Proc.devRef .tc main_arg13)) (W3 m ρ c (Proc.devRef .tc main_arg14)) = _
    rw [w3_main_arg0 m ρ c, w3_main_arg5 m ρ c, w3_v30 m ρ c, w3_main_arg6 m ρ c, w3_main_arg7 m ρ c, w3_main_arg11 m ρ c, w3_v32 m ρ c, w3_main_arg12 m ρ c, w3_v39 m ρ c, w3_main_arg13 m ρ c, w3_main_arg14 m ρ c]))

/-! ## The result -/

/-- The result buffer at the last boundary: the output layer of the graph means of the node layers and of the
    node-summed edge layer, all of the launch arrays. -/
theorem w5_v72 : W5 m ρ c (Proc.devRef .tc main_v72) = (head (F := Ideal) (graphMean (F := Ideal) (node2 (F := Ideal) (m ((c : Thread nD τ).loc main_arg0)) (m ((c : Thread nD τ).loc main_arg5)) (Host.divf (aggSum256 (F := Ideal) (Cert.ReferenceIdeal.Read.val_main_v12 (F := Ideal) (m ((c : Thread nD τ).loc main_arg1)) (m ((c : Thread nD τ).loc main_arg3)) (m ((c : Thread nD τ).loc main_arg4))) (m ((c : Thread nD τ).loc main_arg19))) (Cert.ReferenceIdeal.Read.val_main_v22 (F := Ideal) (m ((c : Thread nD τ).loc main_arg19)))) (m ((c : Thread nD τ).loc main_arg6)) (m ((c : Thread nD τ).loc main_arg7)) (m ((c : Thread nD τ).loc main_arg11)) (Host.divf (aggSum128 (F := Ideal) (edge2 (F := Ideal) (Cert.ReferenceIdeal.Read.val_main_v12 (F := Ideal) (m ((c : Thread nD τ).loc main_arg1)) (m ((c : Thread nD τ).loc main_arg3)) (m ((c : Thread nD τ).loc main_arg4))) (Cert.ReferenceIdeal.Read.val_main_v41 (F := Ideal) (m ((c : Thread nD τ).loc main_arg2)) (m ((c : Thread nD τ).loc main_arg19)) (m ((c : Thread nD τ).loc main_arg20))) (m ((c : Thread nD τ).loc main_arg8)) (m ((c : Thread nD τ).loc main_arg9)) (m ((c : Thread nD τ).loc main_arg10))) (m ((c : Thread nD τ).loc main_arg19))) (Cert.ReferenceIdeal.Read.val_main_v58 (F := Ideal) (m ((c : Thread nD τ).loc main_arg19)))) (m ((c : Thread nD τ).loc main_arg12)) (Cert.ReferenceIdeal.Read.val_main_v71 (F := Ideal) (m ((c : Thread nD τ).loc main_arg2)) (m ((c : Thread nD τ).loc main_arg20))) (m ((c : Thread nD τ).loc main_arg13)) (m ((c : Thread nD τ).loc main_arg14))) (Cert.ReferenceIdeal.Read.val_main_v85 (F := Ideal) (m ((c : Thread nD τ).loc main_arg20))) (m ((c : Thread nD τ).loc main_arg20))) (graphMean (F := Ideal) (aggSum128 (F := Ideal) (edge2 (F := Ideal) (Cert.ReferenceIdeal.Read.val_main_v12 (F := Ideal) (m ((c : Thread nD τ).loc main_arg1)) (m ((c : Thread nD τ).loc main_arg3)) (m ((c : Thread nD τ).loc main_arg4))) (Cert.ReferenceIdeal.Read.val_main_v41 (F := Ideal) (m ((c : Thread nD τ).loc main_arg2)) (m ((c : Thread nD τ).loc main_arg19)) (m ((c : Thread nD τ).loc main_arg20))) (m ((c : Thread nD τ).loc main_arg8)) (m ((c : Thread nD τ).loc main_arg9)) (m ((c : Thread nD τ).loc main_arg10))) (m ((c : Thread nD τ).loc main_arg19))) (cnt16 (F := Ideal) (Cert.ReferenceIdeal.Read.val_main_v19 (F := Ideal) (m ((c : Thread nD τ).loc main_arg19))) (m ((c : Thread nD τ).loc main_arg20))) (m ((c : Thread nD τ).loc main_arg20))) (m ((c : Thread nD τ).loc main_arg2)) (m ((c : Thread nD τ).loc main_arg15)) (m ((c : Thread nD τ).loc main_arg16)) (m ((c : Thread nD τ).loc main_arg17)) (m ((c : Thread nD τ).loc main_arg18))) :=
  (host2_v72 (W4 m ρ c)).trans (by
    rw [w4_v40 m ρ c, w4_v28 m ρ c, w4_v18 m ρ c, w4_main_arg20 m ρ c, w4_main_arg2 m ρ c, w4_main_arg15 m ρ c, w4_main_arg16 m ρ c, w4_main_arg17 m ρ c, w4_main_arg18 m ρ c])

end Cert.KernelIdeal.Fold

end
-- ==== Proof.KernelRun.lean ====
/-
  The idealized kernel's run with its result read.

  The program is five segments: host operations, the edge region, host operations, the node region, host operations.
  The buffer contents at each boundary are a fold from the launch memory: a stretch of host operations applies its
  operations; a region leaves each of its arrays at what its write-backs give and every other buffer untouched. Every
  weakly fair execution terminates, nothing faults, and the final memory is the last boundary's contents — in
  particular the result buffer holds the fold's value and the arguments end as launched.
-/
import proofs.«173816_j89103391522964_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the last
    boundary's contents and every argument array as launched. -/
theorem run_value : θ_run defs (onTc (τ := τ) (main (F := F))) ⟨m, fun _ => 0, ρ⟩ (fun r => ∀ c : Dev nD,
      r.2.mem ((c.tc : Thread nD τ).loc main_v72) = W5 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v72 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c),
       (h c _ (mem_uc main_arg18 (by decide))).trans (W5_main_arg18 m ρ c),
       (h c _ (mem_uc main_arg19 (by decide))).trans (W5_main_arg19 m ρ c),
       (h c _ (mem_uc main_arg20 (by decide))).trans (W5_main_arg20 m ρ c)⟩)

end Cert.KernelIdeal.Run

end
-- ==== Proof.RecvRange.lean ====
/-
  The finiteness precondition ends in a test of the [320000] index array: every word w of it satisfies 0 ≤ w and
  w < 20000, read signed. The precondition is a chain of conjunctions (`and` of one-bit words) whose last conjunct is the
  reduction by `and`, over the whole array, of the elementwise conjunction of the two comparisons against the broadcast
  constants 0 and 20000. When the whole chain is 1, the last conjunct is 1; a reduction by `and` that is 1 met only 1s;
  and an elementwise comparison that is 1 at an index says the inequality of the signed readings there.
-/
import proofs.«173816_j89103391522964_2_alg».proof.Pre_finite_inputs
import Idealize.ShloMosaic.Lib.ReduceAll
import Idealize.ShloMosaic.Lib.ValueIdx

noncomputable section

namespace Cert.RecvRange

open Idealize.ShloMosaic Idealize.ShloMosaic.ValueIdx
open Cert.Pre_finite_inputs

variable [Cert.Pre_finite_inputs.Facts]

/-- The rank-0 shape has one index. -/
instance subsingleton_scalar_idx : Subsingleton S_.Idx := ⟨fun a b => funext fun d => d.elim0⟩

/-- The last part of the precondition's chain: when it is 1, every index word lies in [0, 20000). -/
theorem part5_range {F : FTy → Type} [FloatOps F] (main_arg18 : FVec F S128 .f32) (main_arg19 : IVec S320000 32)
    (main_v83 : IVec S_ 1) (main_v84 : FVec F S128x16 .f32) (main_cst_32 : FVec F S_ .f32)
    (h : fn_part5 main_arg18 main_arg19 main_v83 main_v84 main_cst_32 = fun _ => 1#1) (i : S320000.Idx) :
    0 ≤ (main_arg19 i).toInt ∧ (main_arg19 i).toInt < 20000 := by
  have e := congrFun h ix0
  dsimp only [fn_part5] at e
  -- the outer conjunction at the one index: its second conjunct is the reduction
  obtain ⟨-, e2⟩ := IntOp.andi_eq_one.1 e
  -- a reduction by `and` that is 1 met a 1 at every index
  have e3 := Host.reduce_andi_all _ _ _ _ _ e2 i
  -- the elementwise conjunction of the two comparisons, at index i
  change IntOp.andi (IntOp.cmpi .sge (main_arg19 i) (0#32)) (IntOp.cmpi .slt (main_arg19 i) (20000#32)) = 1#1 at e3
  obtain ⟨h0, h1⟩ := IntOp.andi_eq_one.1 e3
  rw [IntOp.cmpi_sge] at h0
  rw [IntOp.cmpi_slt] at h1
  rw [show (0#32 : BitVec 32).toInt = 0 from by decide] at h0
  rw [show (20000#32 : BitVec 32).toInt = 20000 from by decide] at h1
  exact ⟨h0, h1⟩

/-- THE PRECONDITION DECODED: every word of the index array is a row number of the [20000, ·] node arrays. -/
theorem recv_in_range {F : FTy → Type} [FloatOps F] (main_arg0 : FVec F S20000x64 .f32) (main_arg1 : FVec F S320000x32 .f32) (main_arg2 : FVec F S16x16 .f32) (main_arg3 : FVec F S256x32 .f32) (main_arg4 : FVec F S256 .f32) (main_arg5 : FVec F S256x64 .f32) (main_arg6 : FVec F S256x256 .f32) (main_arg7 : FVec F S256 .f32) (main_arg8 : FVec F S128x256 .f32) (main_arg9 : FVec F S128x16 .f32) (main_arg10 : FVec F S128 .f32) (main_arg11 : FVec F S128x256 .f32) (main_arg12 : FVec F S128x128 .f32) (main_arg13 : FVec F S128x16 .f32) (main_arg14 : FVec F S128 .f32) (main_arg15 : FVec F S128x128 .f32) (main_arg16 : FVec F S128x128 .f32) (main_arg17 : FVec F S128x16 .f32) (main_arg18 : FVec F S128 .f32) (main_arg19 : IVec S320000 32) (main_arg20 : IVec S20000 32)
    (h : Cert.Pre_finite_inputs.fn (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 = fun _ => 1#1) :
    ∀ e : Fin 320000, 0 ≤ (main_arg19 (ix1 e)).toInt ∧ (main_arg19 (ix1 e)).toInt < 20000 := by
  intro e
  -- the chain's parts call one another: unfolded, the whole is its last part at the names live there
  unfold Cert.Pre_finite_inputs.fn fn_part1 fn_part2 fn_part3 fn_part4 at h
  exact part5_range _ _ _ _ _ h (ix1 e)

end Cert.RecvRange

end
-- ==== Proof.Final.lean ====
/-
  The two idealized programs compute one function of the argument arrays.

  Stage by stage the idealized kernel's value is the reference's: the two edge layers, the sums and means into the
  receiving nodes, the two node layers and the node means per graph are the same whole-array operations (a change of
  float format is the identity on the extended reals). The one difference is the edge means per graph: the kernel
  sums the node-summed edge rows, and the per-node edge counts, over each graph's nodes, where the reference sums the
  edge rows, and counts the edges, directly by the graph of each edge's receiver. With every receiver a valid node
  the two are the same sums regrouped, so the results agree.
-/
import proofs.«173816_j89103391522964_2_alg».proof.Proof.Bridge
import proofs.«173816_j89103391522964_2_alg».proof.Proof.KernelValue
import proofs.«173816_j89103391522964_2_alg».proof.Proof.KernelRun
import proofs.«173816_j89103391522964_2_alg».proof.Proof.RecvRange
import proofs.«173816_j89103391522964_2_alg».proof.Defs
import proofs.«173816_j89103391522964_2_alg».proof.Proof.Gen.Pre_finite_inputs
import proofs.«173816_j89103391522964_2_alg».proof.Proof.Gen.ReferenceIdeal

set_option maxRecDepth 16384

noncomputable section

namespace Cert.GraphNet

open Idealize.ShloMosaic Idealize.ShloMosaic.TcCoe Idealize.ShloMosaic.ValueIdx Idealize.SL.Sem
open Cert.KernelIdeal.HostSide Cert.KernelIdeal.Edge Cert.KernelIdeal.Node

attribute [local irreducible] Host.scatterAdd Host.gather

/-- The kernel's function of the arguments is the reference's, when every receiver is a valid node. -/
theorem kv_eq_ref (x0 : FVec Ideal Cert.ReferenceIdeal.S20000x64 .f32) (x1 : FVec Ideal Cert.ReferenceIdeal.S320000x32 .f32) (x2 : FVec Ideal Cert.ReferenceIdeal.S16x16 .f32) (x3 : FVec Ideal Cert.ReferenceIdeal.S256x32 .f32) (x4 : FVec Ideal Cert.ReferenceIdeal.S256 .f32) (x5 : FVec Ideal Cert.ReferenceIdeal.S256x64 .f32) (x6 : FVec Ideal Cert.ReferenceIdeal.S256x256 .f32) (x7 : FVec Ideal Cert.ReferenceIdeal.S256 .f32) (x8 : FVec Ideal Cert.ReferenceIdeal.S128x256 .f32) (x9 : FVec Ideal Cert.ReferenceIdeal.S128x16 .f32) (x10 : FVec Ideal Cert.ReferenceIdeal.S128 .f32) (x11 : FVec Ideal Cert.ReferenceIdeal.S128x256 .f32) (x12 : FVec Ideal Cert.ReferenceIdeal.S128x128 .f32) (x13 : FVec Ideal Cert.ReferenceIdeal.S128x16 .f32) (x14 : FVec Ideal Cert.ReferenceIdeal.S128 .f32) (x15 : FVec Ideal Cert.ReferenceIdeal.S128x128 .f32) (x16 : FVec Ideal Cert.ReferenceIdeal.S128x128 .f32) (x17 : FVec Ideal Cert.ReferenceIdeal.S128x16 .f32) (x18 : FVec Ideal Cert.ReferenceIdeal.S128 .f32) (x19 : IVec Cert.ReferenceIdeal.S320000 32) (x20 : IVec Cert.ReferenceIdeal.S20000 32)
    (hrc : ∀ e : Fin 320000, 0 ≤ (x19 (ix1 e)).toInt ∧ (x19 (ix1 e)).toInt < 20000) :
    (head (F := Ideal) (graphMean (F := Ideal) (node2 (F := Ideal) x0 x5 (Host.divf (aggSum256 (F := Ideal) (Cert.ReferenceIdeal.Read.val_main_v12 (F := Ideal) x1 x3 x4) x19) (Cert.ReferenceIdeal.Read.val_main_v22 (F := Ideal) x19)) x6 x7 x11 (Host.divf (aggSum128 (F := Ideal) (edge2 (F := Ideal) (Cert.ReferenceIdeal.Read.val_main_v12 (F := Ideal) x1 x3 x4) (Cert.ReferenceIdeal.Read.val_main_v41 (F := Ideal) x2 x19 x20) x8 x9 x10) x19) (Cert.ReferenceIdeal.Read.val_main_v58 (F := Ideal) x19)) x12 (Cert.ReferenceIdeal.Read.val_main_v71 (F := Ideal) x2 x20) x13 x14) (Cert.ReferenceIdeal.Read.val_main_v85 (F := Ideal) x20) x20) (graphMean (F := Ideal) (aggSum128 (F := Ideal) (edge2 (F := Ideal) (Cert.ReferenceIdeal.Read.val_main_v12 (F := Ideal) x1 x3 x4) (Cert.ReferenceIdeal.Read.val_main_v41 (F := Ideal) x2 x19 x20) x8 x9 x10) x19) (cnt16 (F := Ideal) (Cert.ReferenceIdeal.Read.val_main_v19 (F := Ideal) x19) x20) x20) x2 x15 x16 x17 x18) = Cert.ReferenceIdeal.Read.val_main_v111 (F := Ideal) x0 x1 x2 x3 x4 x5 x6 x7 x8 x9 x10 x11 x12 x13 x14 x15 x16 x17 x18 x19 x20 := by
  rw [head_ref x0 x1 x2 x3 x4 x5 x6 x7 x8 x9 x10 x11 x12 x13 x14 x15 x16 x17 x18 x19 x20, nodeMean_ref x0 x1 x2 x3 x4 x5 x6 x7 x8 x9 x10 x11 x12 x13 x14 x19 x20,
    Cert.KernelIdeal.Node.node2_ref x0 x1 x2 x3 x4 x5 x6 x7 x8 x9 x10 x11 x12 x13 x14 x19 x20,
    ← edgeMean_ref x1 x2 x3 x4 x8 x9 x10 x19 x20 hrc, ← agg1_ref x1 x3 x4 x19, ← agg2_ref x1 x2 x3 x4 x8 x9 x10 x19 x20,
    ← aggSum2_ref x1 x2 x3 x4 x8 x9 x10 x19 x20, edge2_ref x1 x2 x3 x4 x8 x9 x10 x19 x20]

/-- The reference's last stage of equal arrays is equal. -/
theorem ref_congr {a0 b0 : FVec Ideal Cert.ReferenceIdeal.S20000x64 .f32} {a1 b1 : FVec Ideal Cert.ReferenceIdeal.S320000x32 .f32} {a2 b2 : FVec Ideal Cert.ReferenceIdeal.S16x16 .f32} {a3 b3 : FVec Ideal Cert.ReferenceIdeal.S256x32 .f32} {a4 b4 : FVec Ideal Cert.ReferenceIdeal.S256 .f32} {a5 b5 : FVec Ideal Cert.ReferenceIdeal.S256x64 .f32} {a6 b6 : FVec Ideal Cert.ReferenceIdeal.S256x256 .f32} {a7 b7 : FVec Ideal Cert.ReferenceIdeal.S256 .f32} {a8 b8 : FVec Ideal Cert.ReferenceIdeal.S128x256 .f32} {a9 b9 : FVec Ideal Cert.ReferenceIdeal.S128x16 .f32} {a10 b10 : FVec Ideal Cert.ReferenceIdeal.S128 .f32} {a11 b11 : FVec Ideal Cert.ReferenceIdeal.S128x256 .f32} {a12 b12 : FVec Ideal Cert.ReferenceIdeal.S128x128 .f32} {a13 b13 : FVec Ideal Cert.ReferenceIdeal.S128x16 .f32} {a14 b14 : FVec Ideal Cert.ReferenceIdeal.S128 .f32} {a15 b15 : FVec Ideal Cert.ReferenceIdeal.S128x128 .f32} {a16 b16 : FVec Ideal Cert.ReferenceIdeal.S128x128 .f32} {a17 b17 : FVec Ideal Cert.ReferenceIdeal.S128x16 .f32} {a18 b18 : FVec Ideal Cert.ReferenceIdeal.S128 .f32} {a19 b19 : IVec Cert.ReferenceIdeal.S320000 32} {a20 b20 : IVec Cert.ReferenceIdeal.S20000 32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) :
    Cert.ReferenceIdeal.Read.val_main_v111 (F := Ideal) a0 a1 a2 a3 a4 a5 a6 a7 a8 a9 a10 a11 a12 a13 a14 a15 a16 a17 a18 a19 a20
      = Cert.ReferenceIdeal.Read.val_main_v111 (F := Ideal) b0 b1 b2 b3 b4 b5 b6 b7 b8 b9 b10 b11 b12 b13 b14 b15 b16 b17 b18 b19 b20 := by
  subst h0 h1 h2 h3 h4 h5 h6 h7 h8 h9 h10 h11 h12 h13 h14 h15 h16 h17 h18 h19 h20
  rfl

/-- From memories agreeing on the arguments both idealized programs run, the arguments end unchanged, and the two
    results are the reference's last stage of the launch arrays. -/
theorem algebraic : Cert.algebraic_KernelIdeal_ReferenceIdeal := by
  intro m ρ m' ρ' hpre hagree
  have hrc : ∀ c : Dev Cert.KernelIdeal.nD, ∀ e : Fin 320000,
      0 ≤ ((m ((c.tc : Thread Cert.KernelIdeal.nD Cert.KernelIdeal.τ).loc Cert.KernelIdeal.main_arg19)) (ix1 e)).toInt ∧ ((m ((c.tc : Thread Cert.KernelIdeal.nD Cert.KernelIdeal.τ).loc Cert.KernelIdeal.main_arg19)) (ix1 e)).toInt < 20000 :=
    fun c => Cert.RecvRange.recv_in_range _ _ _ _ _ _ _ _ _ _ _ _ _ _ _ _ _ _ _ _ _ (hpre c)
  refine ⟨fun c => Cert.ReferenceIdeal.Read.val_main_v111 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · exact (θ_run Cert.KernelIdeal.defs _ _).mono
      (fun r h c => ⟨(h c).1.trans ((Cert.KernelIdeal.Fold.w5_v72 m ρ c).trans
        (kv_eq_ref _ _ _ _ _ _ _ _ _ _ _ _ _ _ _ _ _ _ _ _ _ (hrc c))), (h c).2⟩)
      (Cert.KernelIdeal.Run.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20⟩ := hagree c
    exact (Cert.ReferenceIdeal.Read.val_main_v111_eq m' c).trans (ref_congr h0 h1 h2 h3 h4 h5 h6 h7 h8 h9 h10 h11 h12 h13 h14 h15 h16 h17 h18 h19 h20)

end Cert.GraphNet

end
-- ==== Proof.lean ====
/-
  The certificate of the graph-network kernel against its reference.

  The three frames are the generated ones (the reference's is its generated run with the result dropped); the
  idealization rewrote no operation, so there is nothing to preserve; and the two idealized programs end with equal
  results: each layer of the kernel's two regions, computed on blocks of consecutive rows, is the block of the
  reference's whole-array layer, the host operations between them are the reference's own, and the edge means per
  graph — which the kernel takes over node-summed rows and the reference over edge rows — are the same sums regrouped
  once every receiver index is a valid node, which the precondition states.
-/
import proofs.«173816_j89103391522964_2_alg».proof.Defs
import proofs.«173816_j89103391522964_2_alg».proof.Proof.Gen.Kernel
import proofs.«173816_j89103391522964_2_alg».proof.Proof.Gen.Kernel.Frame
import proofs.«173816_j89103391522964_2_alg».proof.Proof.Gen.KernelIdeal
import proofs.«173816_j89103391522964_2_alg».proof.Proof.Gen.KernelIdeal.Frame
import proofs.«173816_j89103391522964_2_alg».proof.Proof.Gen.ReferenceIdeal
import proofs.«173816_j89103391522964_2_alg».proof.Proof.Gen.ReferenceIdeal.Run
import proofs.«173816_j89103391522964_2_alg».proof.Proof.Gen.Pre_finite_inputs
import proofs.«173816_j89103391522964_2_alg».proof.Proof.Final
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    Cert.GraphNet.algebraic⟩

end Cert.Proof

end
